-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_1)) (v1 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_1) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S10000x128 : Shape := ⟨2, ![10000, 128]⟩
abbrev S256x128 : Shape := ⟨2, ![256, 128]⟩
abbrev S512x1 : Shape := ⟨2, ![512, 1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S256x128 : S_.BroadcastsInDim S256x128 (![] : Fin 0 → Fin S256x128.rank)
  reducesTo_S256x128_S_d0_1 : S256x128.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  main_v18

def fn {F : FTy → Type} [FloatOps F] (main_arg0 : FVec F S10000x256 .f32) (main_arg1 : IVec S10000x10000 32) (main_arg2 : FVec F S10000x128 .f32) (main_arg3 : FVec F S256x128 .f32) (main_arg4 : FVec F S512x1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x128 .f32 := Host.absf main_arg2
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S10000x128 : Shape := ⟨2, ![10000, 128]⟩
abbrev S256x128 : Shape := ⟨2, ![256, 128]⟩
abbrev S512x1 : Shape := ⟨2, ![512, 1]⟩
abbrev S128x1 : Shape := ⟨2, ![128, 1]⟩
abbrev S10000x1 : Shape := ⟨2, ![10000, 1]⟩
abbrev S1x10000 : Shape := ⟨2, ![1, 10000]⟩
abbrev S200x1 : Shape := ⟨2, ![200, 1]⟩
abbrev S200x10000 : Shape := ⟨2, ![200, 10000]⟩
abbrev S200x128 : Shape := ⟨2, ![200, 128]⟩
abbrev S1x1024 : Shape := ⟨2, ![1, 1024]⟩
abbrev S200x1024 : Shape := ⟨2, ![200, 1024]⟩
abbrev S200 : Shape := ⟨1, ![200]⟩
abbrev S1x784 : Shape := ⟨2, ![1, 784]⟩
abbrev S200x784 : Shape := ⟨2, ![200, 784]⟩
abbrev S1024x128 : Shape := ⟨2, ![1024, 128]⟩
abbrev S784x128 : Shape := ⟨2, ![784, 128]⟩

abbrev nBuf : Space → Nat
  | .hbm => 20
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S10000x10000, .i32⟩
  | .hbm, ⟨2, _⟩ => ⟨S10000x128, .f32⟩
  | .hbm, ⟨3, _⟩ => ⟨S256x128, .f32⟩
  | .hbm, ⟨4, _⟩ => ⟨S512x1, .f32⟩
  | .hbm, ⟨5, _⟩ => ⟨S10000x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S10000x1, .f32⟩
  | .hbm, ⟨11, _⟩ => ⟨S10000x1, .f32⟩
  | .hbm, ⟨12, _⟩ => ⟨S10000x1, .f32⟩
  | .hbm, ⟨13, _⟩ => ⟨S10000x1, .f32⟩
  | .hbm, ⟨14, _⟩ => ⟨S10000x1, .f32⟩
  | .hbm, ⟨15, _⟩ => ⟨S10000x1, .f32⟩
  | .hbm, ⟨16, _⟩ => ⟨S1x10000, .f32⟩
  | .hbm, ⟨17, _⟩ => ⟨S10000x128, .bf16⟩
  | .hbm, ⟨18, _⟩ => ⟨S10000x10000, .f32⟩
  | .hbm, ⟨19, _⟩ => ⟨S10000x128, .f32⟩
  | .local _ .vmem, ⟨0, _⟩ => ⟨S200x1, .f32⟩
  | .local _ .vmem, ⟨1, _⟩ => ⟨S200x1, .f32⟩
  | .local _ .vmem, ⟨2, _⟩ => ⟨S1x10000, .f32⟩
  | .local _ .vmem, ⟨3, _⟩ => ⟨S200x10000, .i32⟩
  | .local _ .vmem, ⟨4, _⟩ => ⟨S200x10000, .i32⟩
  | .local _ .vmem, ⟨5, _⟩ => ⟨S10000x128, .bf16⟩
  | .local _ .vmem, ⟨6, _⟩ => ⟨S200x10000, .f32⟩
  | .local _ .vmem, ⟨7, _⟩ => ⟨S200x10000, .f32⟩
  | .local _ .vmem, ⟨8, _⟩ => ⟨S200x128, .f32⟩
  | .local _ .vmem, ⟨9, _⟩ => ⟨S200x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S512x1_S128x1_0_0 : S512x1.Slices ![0, 0] S128x1
  slices_S512x1_S128x1_128_0 : S512x1.Slices ![128, 0] S128x1
  slices_S512x1_S128x1_256_0 : S512x1.Slices ![256, 0] S128x1
  slices_S512x1_S128x1_384_0 : S512x1.Slices ![384, 0] S128x1
  shapeCasts_S10000x1_S1x10000 : S10000x1.ShapeCasts S1x10000
  bitsLt_bf16_f32 : FTy.bits .bf16 < FTy.bits .f32
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S1x10000_S1x1024_0_0 : ∀ a, (![0, 0] : Fin 2 → Nat) a + S1x1024.size a ≤ S1x10000.size a
  h_S1x1024 : 0 < S1x1024.numel
  shapeCasts_S1x1024_S1x1024 : S1x1024.ShapeCasts S1x1024
  inb_S200x10000_S200x1024_0_0 : ∀ a, (![0, 0] : Fin 2 → Nat) a + S200x1024.size a ≤ S200x10000.size a
  h_S200x1024 : 0 < S200x1024.numel
  broadcasts_S200x1_S200x1024 : S200x1.Broadcasts S200x1024
  broadcasts_S1x1024_S200x1024 : S1x1024.Broadcasts S200x1024
  reduces_S200x1024_S200 : S200x1024.Reduces [1] S200
  shapeCasts_S200_S200x1 : S200.ShapeCasts S200x1
  inb_S1x10000_S1x1024_0_1024 : ∀ a, (![0, 1024] : Fin 2 → Nat) a + S1x1024.size a ≤ S1x10000.size a
  inb_S200x10000_S200x1024_0_1024 : ∀ a, (![0, 1024] : Fin 2 → Nat) a + S200x1024.size a ≤ S200x10000.size a
  inb_S1x10000_S1x1024_0_2048 : ∀ a, (![0, 2048] : Fin 2 → Nat) a + S1x1024.size a ≤ S1x10000.size a
  inb_S200x10000_S200x1024_0_2048 : ∀ a, (![0, 2048] : Fin 2 → Nat) a + S200x1024.size a ≤ S200x10000.size a
  inb_S1x10000_S1x1024_0_3072 : ∀ a, (![0, 3072] : Fin 2 → Nat) a + S1x1024.size a ≤ S1x10000.size a
  inb_S200x10000_S200x1024_0_3072 : ∀ a, (![0, 3072] : Fin 2 → Nat) a + S200x1024.size a ≤ S200x10000.size a
  inb_S1x10000_S1x1024_0_4096 : ∀ a, (![0, 4096] : Fin 2 → Nat) a + S1x1024.size a ≤ S1x10000.size a
  inb_S200x10000_S200x1024_0_4096 : ∀ a, (![0, 4096] : Fin 2 → Nat) a + S200x1024.size a ≤ S200x10000.size a
  inb_S1x10000_S1x1024_0_5120 : ∀ a, (![0, 5120] : Fin 2 → Nat) a + S1x1024.size a ≤ S1x10000.size a
  inb_S200x10000_S200x1024_0_5120 : ∀ a, (![0, 5120] : Fin 2 → Nat) a + S200x1024.size a ≤ S200x10000.size a
  inb_S1x10000_S1x1024_0_6144 : ∀ a, (![0, 6144] : Fin 2 → Nat) a + S1x1024.size a ≤ S1x10000.size a
  inb_S200x10000_S200x1024_0_6144 : ∀ a, (![0, 6144] : Fin 2 → Nat) a + S200x1024.size a ≤ S200x10000.size a
  inb_S1x10000_S1x1024_0_7168 : ∀ a, (![0, 7168] : Fin 2 → Nat) a + S1x1024.size a ≤ S1x10000.size a
  inb_S200x10000_S200x1024_0_7168 : ∀ a, (![0, 7168] : Fin 2 → Nat) a + S200x1024.size a ≤ S200x10000.size a
  inb_S1x10000_S1x1024_0_8192 : ∀ a, (![0, 8192] : Fin 2 → Nat) a + S1x1024.size a ≤ S1x10000.size a
  inb_S200x10000_S200x1024_0_8192 : ∀ a, (![0, 8192] : Fin 2 → Nat) a + S200x1024.size a ≤ S200x10000.size a
  inb_S1x10000_S1x784_0_9216 : ∀ a, (![0, 9216] : Fin 2 → Nat) a + S1x784.size a ≤ S1x10000.size a
  h_S1x784 : 0 < S1x784.numel
  shapeCasts_S1x784_S1x784 : S1x784.ShapeCasts S1x784
  inb_S200x10000_S200x784_0_9216 : ∀ a, (![0, 9216] : Fin 2 → Nat) a + S200x784.size a ≤ S200x10000.size a
  h_S200x784 : 0 < S200x784.numel
  broadcasts_S200x1_S200x784 : S200x1.Broadcasts S200x784
  broadcasts_S1x784_S200x784 : S1x784.Broadcasts S200x784
  reduces_S200x784_S200 : S200x784.Reduces [1] S200
  inb_S10000x128_S1024x128_0_0 : ∀ a, (![0, 0] : Fin 2 → Nat) a + S1024x128.size a ≤ S10000x128.size a
  h_S1024x128 : 0 < S1024x128.numel
  shapeCasts_S1024x128_S1024x128 : S1024x128.ShapeCasts S1024x128
  inb_S10000x128_S1024x128_1024_0 : ∀ a, (![1024, 0] : Fin 2 → Nat) a + S1024x128.size a ≤ S10000x128.size a
  inb_S10000x128_S1024x128_2048_0 : ∀ a, (![2048, 0] : Fin 2 → Nat) a + S1024x128.size a ≤ S10000x128.size a
  inb_S10000x128_S1024x128_3072_0 : ∀ a, (![3072, 0] : Fin 2 → Nat) a + S1024x128.size a ≤ S10000x128.size a
  inb_S10000x128_S1024x128_4096_0 : ∀ a, (![4096, 0] : Fin 2 → Nat) a + S1024x128.size a ≤ S10000x128.size a
  inb_S10000x128_S1024x128_5120_0 : ∀ a, (![5120, 0] : Fin 2 → Nat) a + S1024x128.size a ≤ S10000x128.size a
  inb_S10000x128_S1024x128_6144_0 : ∀ a, (![6144, 0] : Fin 2 → Nat) a + S1024x128.size a ≤ S10000x128.size a
  inb_S10000x128_S1024x128_7168_0 : ∀ a, (![7168, 0] : Fin 2 → Nat) a + S1024x128.size a ≤ S10000x128.size a
  inb_S10000x128_S1024x128_8192_0 : ∀ a, (![8192, 0] : Fin 2 → Nat) a + S1024x128.size a ≤ S10000x128.size a
  inb_S10000x128_S784x128_9216_0 : ∀ a, (![9216, 0] : Fin 2 → Nat) a + S784x128.size a ≤ S10000x128.size a
  h_S784x128 : 0 < S784x128.numel
  shapeCasts_S784x128_S784x128 : S784x128.ShapeCasts S784x128
  shapeCasts_S200x1024_S200x1024 : S200x1024.ShapeCasts S200x1024
  shapeCasts_S200x784_S200x784 : S200x784.ShapeCasts S200x784
  broadcasts_S200x1_S200x128 : S200x1.Broadcasts S200x128
  inb_S200x128_S200x128_0_0 : ∀ a, (![0, 0] : Fin 2 → Nat) a + S200x128.size a ≤ S200x128.size a
  h_S200x128 : 0 < S200x128.numel
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []
  dot_S200x1024_S1024x128_S200x128_1_0_0_1_n_n_wf : DotDims.WF S200x1024 S1024x128 S200x128 [1] [0] [0] [1] [] []
  dot_S200x784_S784x128_S200x128_1_0_0_1_n_n_wf : DotDims.WF S200x784 S784x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x1.size a ≤ S10000x1.size a
  hwx0_0 : ∀ i : grid0.Coords, EltTy.bits .f32 = 32 ∨ (Rect.block (s := S10000x1) S200x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10000.size a ≤ S1x10000.size a
  hwx0_1 : ∀ i : grid0.Coords, EltTy.bits .f32 = 32 ∨ (Rect.block (s := S1x10000) S1x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .i32 = 32 ∨ (Rect.block (s := S10000x10000) S200x10000.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .bf16 = 32 ∨ (Rect.block (s := S10000x128) S10000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S200x1024_S1024x128_S200x128_1_0_0_1_n_n : DotDims S200x1024 S1024x128 S200x128 where
  lhsContracting := [1]
  rhsContracting := [0]
  lhsNonContracting := [0]
  rhsNonContracting := [1]
  lhsBatch := []
  rhsBatch := []
  wf := dot_S200x1024_S1024x128_S200x128_1_0_0_1_n_n_wf
def dot_S200x784_S784x128_S200x128_1_0_0_1_n_n : DotDims S200x784 S784x128 S200x128 where
  lhsContracting := [1]
  rhsContracting := [0]
  lhsNonContracting := [0]
  rhsNonContracting := [1]
  lhsBatch := []
  rhsBatch := []
  wf := dot_S200x784_S784x128_S200x128_1_0_0_1_n_n_wf

abbrev win0_0 : Pipeline.Window sig grid0 :=
  Pipeline.Window.ofSpec (Memref.whole main_v7) S200x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S200x10000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S10000x128 : Shape := ⟨2, ![10000, 128]⟩
abbrev S256x128 : Shape := ⟨2, ![256, 128]⟩
abbrev S512x1 : Shape := ⟨2, ![512, 1]⟩
abbrev S256x1 : Shape := ⟨2, ![256, 1]⟩
abbrev S10000x1 : Shape := ⟨2, ![10000, 1]⟩
abbrev S1x10000 : Shape := ⟨2, ![1, 10000]⟩
abbrev S_ : Shape := ⟨0, ![]⟩
abbrev S10000 : Shape := ⟨1, ![10000]⟩

abbrev nBuf : Space → Nat
  | .hbm => 45
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .i32⟩
  | .hbm, ⟨2, _⟩ => ⟨S10000x128, .f32⟩
  | .hbm, ⟨3, _⟩ => ⟨S256x128, .f32⟩
  | .hbm, ⟨4, _⟩ => ⟨S512x1, .f32⟩
  | .hbm, ⟨5, _⟩ => ⟨S10000x128, .f32⟩
  | .hbm, ⟨6, _⟩ => ⟨S10000x256, .f32⟩
  | .hbm, ⟨7, _⟩ => ⟨S256x1, .f32⟩
  | .hbm, ⟨8, _⟩ => ⟨S10000x1, .f32⟩
  | .hbm, ⟨9, _⟩ => ⟨S256x1, .f32⟩
  | .hbm, ⟨10, _⟩ => ⟨S10000x1, .f32⟩
  | .hbm, ⟨11, _⟩ => ⟨S1x10000, .f32⟩
  | .hbm, ⟨12, _⟩ => ⟨S10000x10000, .f32⟩
  | .hbm, ⟨13, _⟩ => ⟨S10000x10000, .f32⟩
  | .hbm, ⟨14, _⟩ => ⟨S10000x10000, .f32⟩
  | .hbm, ⟨15, _⟩ => ⟨S_, .f32⟩
  | .hbm, ⟨16, _⟩ => ⟨S_, .f32⟩
  | .hbm, ⟨17, _⟩ => ⟨S10000x10000, .f32⟩
  | .hbm, ⟨18, _⟩ => ⟨S10000x10000, .i1⟩
  | .hbm, ⟨19, _⟩ => ⟨S_, .f32⟩
  | .hbm, ⟨20, _⟩ => ⟨S10000x10000, .f32⟩
  | .hbm, ⟨21, _⟩ => ⟨S10000x10000, .f32⟩
  | .hbm, ⟨22, _⟩ => ⟨S10000x10000, .f32⟩
  | .hbm, ⟨23, _⟩ => ⟨S_, .i32⟩
  | .hbm, ⟨24, _⟩ => ⟨S10000x10000, .i32⟩
  | .hbm, ⟨25, _⟩ => ⟨S10000x10000, .i1⟩
  | .hbm, ⟨26, _⟩ => ⟨S_, .f32⟩
  | .hbm, ⟨27, _⟩ => ⟨S_, .f32⟩
  | .hbm, ⟨28, _⟩ => ⟨S10000x10000, .f32⟩
  | .hbm, ⟨29, _⟩ => ⟨S10000x10000, .f32⟩
  | .hbm, ⟨30, _⟩ => ⟨S_, .f32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x10000, .f32⟩
  | .hbm, ⟨37, _⟩ => ⟨S10000x10000, .f32⟩
  | .hbm, ⟨38, _⟩ => ⟨S10000x10000, .f32⟩
  | .hbm, ⟨39, _⟩ => ⟨S_, .f32⟩
  | .hbm, ⟨40, _⟩ => ⟨S10000, .f32⟩
  | .hbm, ⟨41, _⟩ => ⟨S10000x1, .f32⟩
  | .hbm, ⟨42, _⟩ => ⟨S10000x10000, .f32⟩
  | .hbm, ⟨43, _⟩ => ⟨S10000x10000, .f32⟩
  | .hbm, ⟨44, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  slices_S512x1_S256x1_0_0 : S512x1.Slices ![0, 0] S256x1
  slices_S512x1_S256x1_256_0 : S512x1.Slices ![256, 0] S256x1
  transposes_S10000x1_S1x10000_1_0 : S10000x1.Transposes [1, 0] S1x10000
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  dot_S10000x256_S256x128_S10000x128_1_0_0_1_n_n_wf : DotDims.WF S10000x256 S256x128 S10000x128 [1] [0] [0] [1] [] []
  dot_S10000x256_S256x1_S10000x1_1_0_0_1_n_n_wf : DotDims.WF S10000x256 S256x1 S10000x1 [1] [0] [0] [1] [] []
  dot_S10000x10000_S10000x128_S10000x128_1_0_0_1_n_n_wf : DotDims.WF S10000x10000 S10000x128 S10000x128 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibUnitAxisLayout.lean ====
/-
  Unit axes added, dropped and spread: four layout operations read at an index given by coordinates, generic in the
  extents.  A `[1, 1, a, b]` array read as `[a, b]` is the array at `(0, 0, i, j)`, and back; an `[a]` array read as a
  column `[a, 1]` is the array at `i`; a column `[a, 1]` spread over `[a, b]` is the column at `(p, 0)`.  (The forms a
  reduction with kept dimensions meets: a row reduction's result as a column, spread back over the row.)  Each is the
  general read-at-an-index lemma of its operation with the row-major arithmetic of the two indices discharged.
-/
import Idealize.ShloMosaic.Lib.ValueIdx
import Idealize.ShloMosaic.Lib.ValueLayout
import Idealize.ShloMosaic.Lib.Pipeline.Value

namespace Idealize.ShloMosaic.ValueIdx

open Idealize.ShloMosaic

variable {α : Type}

/-! ## Unit axes added, dropped and spread: four layout operations at an index given by coordinates -/

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.Spec.lean ====
/-
  The dense graph-attention layer as functions of its five argument arrays, index by index, over the extended reals.

  With Wh = h·W (10000 × 128) and the 512 attention weights `a` read as four runs of 128, a node's source half-score
  is Wh[i,:]·a[0:128] + emb[i,:]·a[128:256] and its destination half-score Wh[j,:]·a[256:384] + emb[j,:]·a[384:512]; the
  edge score is the leaky rectifier of their sum where adj[i,j] > 0 and the finite stand-in -9e15 elsewhere; a row of
  attention is the softmax of its row of scores (shifted by the row maximum), and the layer's output row is that row of
  attention times Wh.

  Two spellings are stated side by side. The first follows the plain array program: the half-scores are one sum over
  the 256 columns of the concatenation [Wh | emb], the rectifier tests x ≥ 0, and the softmax divides by the row sum.
  The second follows the tiled program: each half-score is the sum of two sums over 128 columns, the rectifier tests
  x > 0, and the row is multiplied by the reciprocal of the row sum. That they agree on real inputs is proved elsewhere.
-/
import Idealize.ShloMosaic.PureOps.Ideal
import Idealize.ShloMosaic.Lib.ValueIdx

noncomputable section

namespace Cert.Attn

open Idealize.ShloMosaic Idealize.ShloMosaic.ValueIdx

/-- A two-axis array with entries in `α`. -/
abbrev Arr2 (n0 n1 : Nat) (α : Type) : Type := (⟨2, ![n0, n1]⟩ : Shape).Idx → α

/-- The rectifier's negative slope, the f32 nearest 0.2, kept as its word. -/
def slope : EReal := Ideal.ofBits .f32 0x3E4CCCCD#32

/-- The score of a non-edge, the f32 nearest -9e15, kept as its word. -/
def masked : EReal := Ideal.ofBits .f32 0xD9FFCB9E#32

/-- Wh = h·W. -/
def proj (h : Arr2 10000 256 EReal) (W : Arr2 256 128 EReal) : Arr2 10000 128 EReal :=
  fun i => ∑ k : Fin 256, h (ix2 (i 0) k) * W (ix2 k (i 1))

/-- Entry (i, k) of the concatenation [Wh | emb] along the columns. -/
def cat (Wh emb : Arr2 10000 128 EReal) (i : Fin 10000) (k : Fin 256) : EReal :=
  if hk : k.val < 128 then Wh (ix2 i ⟨k.val, hk⟩) else emb (ix2 i ⟨k.val - 128, by omega⟩)

/-- A half-score as ONE sum over the 256 columns of [Wh | emb] against the run of `a` starting at `off` (0 for the
    source half, 256 for the destination half). -/
def half256 (Wh emb : Arr2 10000 128 EReal) (a : Arr2 512 1 EReal) (off : Nat) (hoff : off + 256 ≤ 512) (i : Fin 10000) : EReal :=
  ∑ k : Fin 256, cat Wh emb i k * a (ix2 ⟨off + k.val, by omega⟩ 0)

/-- A half-score as the sum of TWO sums over 128 columns: Wh against the run of `a` at `off`, emb against the run at
    `off + 128`. -/
def half128 (Wh emb : Arr2 10000 128 EReal) (a : Arr2 512 1 EReal) (off : Nat) (hoff : off + 256 ≤ 512) (i : Fin 10000) : EReal :=
  (∑ k : Fin 128, Wh (ix2 i k) * a (ix2 ⟨off + k.val, by omega⟩ 0))
    + ∑ k : Fin 128, emb (ix2 i k) * a (ix2 ⟨off + 128 + k.val, by omega⟩ 0)

/-- The leaky rectifier testing x ≥ 0. -/
def leakyGe (x : EReal) : EReal := Scalar.select (Ideal.cmp .oge x 0) x (slope * x)

/-- The leaky rectifier testing x > 0. -/
def leakyGt (x : EReal) : EReal := Scalar.select (Ideal.cmp .ogt x 0) x (slope * x)

/-- The masked edge score from a rectified sum of half-scores. -/
def score (adj : Arr2 10000 10000 (BitVec 32)) (act : EReal → EReal) (s d : Fin 10000 → EReal) (i j : Fin 10000) : EReal :=
  Scalar.select (IntOp.cmpi .sgt (adj (ix2 i j)) 0#32) (act (s i + d j)) masked

/-- A row's maximum, as the fold of `max` from -∞ over the row. -/
def rowMax (e : Fin 10000 → Fin 10000 → EReal) (i : Fin 10000) : EReal :=
  (Finset.univ : Finset (Fin 10000)).fold max (⊥ : EReal) (e i)

/-- The shifted exponential of a score. -/
def expo (e : Fin 10000 → Fin 10000 → EReal) (i j : Fin 10000) : EReal := Ideal.exp (e i j - rowMax e i)

/-- A row's sum of shifted exponentials. -/
def rowSum (e : Fin 10000 → Fin 10000 → EReal) (i : Fin 10000) : EReal := ∑ j : Fin 10000, expo e i j

/-! ### The plain array program's spelling -/

/-- The edge scores: one sum per half, rectifier testing x ≥ 0. -/
def scoreRef (h : Arr2 10000 256 EReal) (adj : Arr2 10000 10000 (BitVec 32)) (emb : Arr2 10000 128 EReal)
    (W : Arr2 256 128 EReal) (a : Arr2 512 1 EReal) : Fin 10000 → Fin 10000 → EReal :=
  score adj leakyGe (half256 (proj h W) emb a 0 (by omega)) (half256 (proj h W) emb a 256 (by omega))

/-- The attention matrix: the shifted exponential divided by its row sum. -/
def attnRef (h : Arr2 10000 256 EReal) (adj : Arr2 10000 10000 (BitVec 32)) (emb : Arr2 10000 128 EReal)
    (W : Arr2 256 128 EReal) (a : Arr2 512 1 EReal) : Arr2 10000 10000 EReal :=
  fun i => Ideal.div (expo (scoreRef h adj emb W a) (i 0) (i 1)) (rowSum (scoreRef h adj emb W a) (i 0))

/-- The layer's output: attention times Wh. -/
def outRef (h : Arr2 10000 256 EReal) (adj : Arr2 10000 10000 (BitVec 32)) (emb : Arr2 10000 128 EReal)
    (W : Arr2 256 128 EReal) (a : Arr2 512 1 EReal) : Arr2 10000 128 EReal :=
  fun i => ∑ j : Fin 10000, attnRef h adj emb W a (ix2 (i 0) j) * proj h W (ix2 j (i 1))

/-! ### The tiled program's spelling -/

/-- The source half-scores as the tiled program's host prefix computes them (a 10000 × 1 column). -/
def srcCol (h : Arr2 10000 256 EReal) (emb : Arr2 10000 128 EReal) (W : Arr2 256 128 EReal) (a : Arr2 512 1 EReal) :
    Arr2 10000 1 EReal :=
  fun i => half128 (proj h W) emb a 0 (by omega) (i 0)

/-- The destination half-scores as the tiled program's host prefix computes them (a 1 × 10000 row). -/
def dstRow (h : Arr2 10000 256 EReal) (emb : Arr2 10000 128 EReal) (W : Arr2 256 128 EReal) (a : Arr2 512 1 EReal) :
    Arr2 1 10000 EReal :=
  fun i => half128 (proj h W) emb a 256 (by omega) (i 1)

/-- The edge scores from a column of source half-scores and a row of destination half-scores, rectifier testing x > 0. -/
def scoreTile (s : Arr2 10000 1 EReal) (d : Arr2 1 10000 EReal) (adj : Arr2 10000 10000 (BitVec 32)) :
    Fin 10000 → Fin 10000 → EReal :=
  score adj leakyGt (fun i => s (ix2 i 0)) (fun j => d (ix2 0 j))

/-- The attention matrix: the shifted exponential times the reciprocal of its row sum. -/
def attnTile (s : Arr2 10000 1 EReal) (d : Arr2 1 10000 EReal) (adj : Arr2 10000 10000 (BitVec 32)) : Arr2 10000 10000 EReal :=
  fun i => expo (scoreTile s d adj) (i 0) (i 1) * Ideal.div 1 (rowSum (scoreTile s d adj) (i 0))

/-- The layer's output: the unnormalised row times the value matrix, then times the reciprocal of the row sum. -/
def outTile (s : Arr2 10000 1 EReal) (d : Arr2 1 10000 EReal) (adj : Arr2 10000 10000 (BitVec 32))
    (V : Arr2 10000 128 EReal) : Arr2 10000 128 EReal :=
  fun i => (∑ j : Fin 10000, expo (scoreTile s d adj) (i 0) j * V (ix2 j (i 1))) * Ideal.div 1 (rowSum (scoreTile s d adj) (i 0))

end Cert.Attn

end
-- ==== Proof.BodyOps.lean ====
/-
  The tiled program's vector operations read at an index given by coordinates.

  A block of the attention matrix is 200 rows by 10000 columns and is worked in runs of 1024 columns (the last of 784).
  Every operation of the body on such a run is either pointwise, or one of five layout and reduction forms: a load of
  a run out of a wider array, a column [a,1] or a row [1,b] spread over [a,b], a row reduction [a,b] → [a] (by max from
  -∞ or by + from 0) with its result recast as a column [a,1], and a matrix product [a,k]·[k,c] into an accumulator.
  Each is stated here once, generic in the extents, at indices built from coordinates.
-/
import Idealize.ShloMosaic.Lib.ValueIdx
import Idealize.ShloMosaic.Lib.ValueLayout
import Idealize.ShloMosaic.Lib.Pipeline.Value
import Idealize.ShloMosaic.PureOps.Ideal.Laws
import proofs.«122247_j47983374631488_2_alg».proof.Proof.LibUnitAxisLayout
import proofs.«122247_j47983374631488_2_alg».proof.Proof.Spec

noncomputable section

namespace Cert.Attn.BodyOps

open Idealize.ShloMosaic Idealize.ShloMosaic.ValueIdx

variable {α : Type}

/-- A load of the run of `m0 × m1` entries at offsets `(o0, o1)` out of an `n0 × n1` array reads, at `(p, q)`, the array at
    `(o0 + p, o1 + q)`. -/
theorem ld2_apply {n0 n1 m0 m1 : ℕ} (X : (⟨2, ![n0, n1]⟩ : Shape).Idx → α) (o0 o1 : ℕ)
    (inb : ∀ a, (![o0, o1] : Fin 2 → ℕ) a + (![m0, m1] : Fin 2 → ℕ) a ≤ (⟨2, ![n0, n1]⟩ : Shape).size a)
    (p : Fin m0) (q : Fin m1) :
    X ((Rect.unit (s := ⟨2, ![n0, n1]⟩) ![o0, o1] ![m0, m1] inb).idx (ix2 p q))
      = X (ix2 ⟨o0 + p.val, lt_of_lt_of_le (Nat.add_lt_add_left p.isLt o0) (inb 0)⟩
            ⟨o1 + q.val, lt_of_lt_of_le (Nat.add_lt_add_left q.isLt o1) (inb 1)⟩) := by
  refine congrArg X (funext fun a => Fin.ext ?_)
  match a with
  | ⟨0, _⟩ => show o0 + 1 * p.val = o0 + p.val; omega
  | ⟨1, _⟩ => show o1 + 1 * q.val = o1 + q.val; omega

/-- The same, as the load of a run reads it. -/
theorem ld_ix2 {Val : EltTy → Type} {e : EltTy} {n0 n1 m0 m1 : ℕ} (X : (⟨2, ![n0, n1]⟩ : Shape).Idx → Val e) (o0 o1 : ℕ)
    (inb : ∀ a, (![o0, o1] : Fin 2 → ℕ) a + (![m0, m1] : Fin 2 → ℕ) a ≤ (⟨2, ![n0, n1]⟩ : Shape).size a)
    (p : Fin m0) (q : Fin m1) :
    View.ld X (Rect.unit (s := ⟨2, ![n0, n1]⟩) ![o0, o1] ![m0, m1] inb) (ix2 p q)
      = X (ix2 ⟨o0 + p.val, lt_of_lt_of_le (Nat.add_lt_add_left p.isLt o0) (inb 0)⟩
            ⟨o1 + q.val, lt_of_lt_of_le (Nat.add_lt_add_left q.isLt o1) (inb 1)⟩) :=
  ld2_apply X o0 o1 inb p q

/-- The same, for a load through a view of a buffer whose contents read `X`. -/
theorem readAt_ix2 {sig : RefSig} {κ : Kind} {sp : Space} {Val : EltTy → Type} {e : EltTy} {n0 n1 m0 m1 : ℕ}
    (v : View sig κ sp ⟨2, ![n0, n1]⟩ e) (f : v.ty.Contents Val) (o0 o1 : ℕ)
    (inb : ∀ a, (![o0, o1] : Fin 2 → ℕ) a + (![m0, m1] : Fin 2 → ℕ) a ≤ (⟨2, ![n0, n1]⟩ : Shape).size a)
    (p : Fin m0) (q : Fin m1) :
    v.readAt Val (Rect.unit (s := ⟨2, ![n0, n1]⟩) ![o0, o1] ![m0, m1] inb).toLoadRect f (ix2 p q)
      = v.read Val f (ix2 ⟨o0 + p.val, lt_of_lt_of_le (Nat.add_lt_add_left p.isLt o0) (inb 0)⟩
            ⟨o1 + q.val, lt_of_lt_of_le (Nat.add_lt_add_left q.isLt o1) (inb 1)⟩) :=
  ld2_apply (v.read Val f) o0 o1 inb p q

/-- The word 0xFF800000 is -∞. -/
theorem ofBits_negInf : Ideal.ofBits .f32 0xFF800000#32 = (⊥ : EReal) := by simp [Ideal.ofBits, Ideal.ieee]

/-- The masked, rectified edge score from a source half-score, a destination half-score and the adjacency word. -/
def esc (s d : EReal) (g : BitVec 32) : EReal :=
  Scalar.select (IntOp.cmpi .sgt g 0#32) (Cert.Attn.leakyGt (s + d)) Cert.Attn.masked

/-- An integer comparison of two arrays reads pointwise. -/
theorem cmpi_apply {s : Shape} {w : ℕ} (pr : CmpIPredicate) (x y : IVec s w) (i : s.Idx) :
    cmpi pr x y i = IntOp.cmpi pr (x i) (y i) := rfl

/-- The exponential of an array reads pointwise. -/
theorem exp_apply {s : Shape} (x : FVec Ideal s .f32) (i : s.Idx) : exp x i = Ideal.exp (x i) := rfl

/-- The index of row `p` with coordinate `k` inserted on the reduced (second) axis is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show Shape.Reduces.liftVal h (ix1 p) k.val c = (ix2 p k c).val
  unfold Shape.Reduces.liftVal
  match c with
  | ⟨0, _⟩ => rfl
  | ⟨1, _⟩ => rfl

/-- A row reduction by max from -∞ of an `a × b` array, recast as a column, reads at `(p, 0)` the fold of max over row `p`. -/
theorem rowMaxCol_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (⊥ : EReal) (fun q => src (ix2 p q)) := by
  rw [shapeCast_a_a1_apply]
  refine (Ideal.multiReduction_maximumf_single src 0xFF800000#32 h hφ hacc (ix1 p)).trans ?_
  have hb : FloatOps.ofBits (F := Ideal) .f32 0xFF800000#32 = (⊥ : EReal) := by
    exact ofBits_negInf
  rw [hb]
  exact congrArg (fun f => (Finset.univ : Finset (Fin b)).fold max (⊥ : EReal) f) (funext fun q => congrArg src (lift_row h p q))

/-- A row reduction by + from 0 of an `a × b` array, recast as a column, reads at `(p, 0)` the sum of row `p`. -/
theorem rowSumCol_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ q : Fin b, src (ix2 p q) := by
  rw [shapeCast_a_a1_apply]
  refine (Ideal.multiReduction_add_single src 0x00000000#32 h hφ hacc (ix1 p)).trans ?_
  exact Finset.sum_congr rfl fun q _ => congrArg src (lift_row h p q)

end Cert.Attn.BodyOps

end
-- ==== Proof.BlockSpec.lean ====
/-
  One 200-row block of the attention layer as a function of the four arrays the tiled program's body finds staged:
  the block's 200 source half-scores (a column), all 10000 destination half-scores (a row), the block's 200 × 10000
  adjacency words, and the whole 10000 × 128 value matrix.  Row p of the block: the scores e(p, j), their maximum over
  the row, the shifted exponentials, their sum; the attention row is the exponentials times the reciprocal of the sum,
  the output row the exponentials times the value matrix, times that reciprocal.
-/
import proofs.«122247_j47983374631488_2_alg».proof.Proof.BodyOps

noncomputable section

namespace Cert.Attn.Block

open Idealize.ShloMosaic Idealize.ShloMosaic.ValueIdx Cert.Attn Cert.Attn.BodyOps

variable (x0 : Arr2 200 1 EReal) (x1 : Arr2 1 10000 EReal) (x2 : Arr2 200 10000 (BitVec 32)) (x3 : Arr2 10000 128 EReal)

/-- The score of row `p` of the block against column `j`. -/
def bsc (p : Fin 200) (j : Fin 10000) : EReal := esc (x0 (ix2 p 0)) (x1 (ix2 0 j)) (x2 (ix2 p j))

/-- The row's maximum score. -/
def bmax (p : Fin 200) : EReal := (Finset.univ : Finset (Fin 10000)).fold max (⊥ : EReal) (bsc x0 x1 x2 p)

/-- The shifted exponential. -/
def bexp (p : Fin 200) (j : Fin 10000) : EReal := Ideal.exp (bsc x0 x1 x2 p j - bmax x0 x1 x2 p)

/-- The row's sum of shifted exponentials. -/
def bsum (p : Fin 200) : EReal := ∑ j : Fin 10000, bexp x0 x1 x2 p j

/-- The block of the attention matrix. -/
def blkAttn : Arr2 200 10000 EReal :=
  fun y => bexp x0 x1 x2 (y 0) (y 1) * Ideal.div 1 (bsum x0 x1 x2 (y 0))

/-- The block of the layer's output. -/
def blkOut : Arr2 200 128 EReal :=
  fun y => (∑ j : Fin 10000, bexp x0 x1 x2 (y 0) j * x3 (ix2 j (y 1))) * Ideal.div 1 (bsum x0 x1 x2 (y 0))

end Cert.Attn.Block

end
-- ==== Proof.KernelBlocksMath.lean ====
/-
  A block of 200 rows of the attention layer is the layer restricted to those rows.

  Row i of the attention matrix and of the layer's output depends on the source half-score of node i alone, on all the
  destination half-scores, on row i of the adjacency and on the whole value matrix. So when a block holds the source
  half-scores and the adjacency rows of 200 consecutive nodes, and the destination half-scores and the value matrix
  whole, the block computed from those four pieces is the corresponding 200 rows of the layer.
-/
import proofs.«122247_j47983374631488_2_alg».proof.Proof.BlockSpec

noncomputable section

namespace Cert.KernelIdeal.KernelBlocks

open Idealize.ShloMosaic Idealize.ShloMosaic.ValueIdx Cert.Attn Cert.Attn.Block Cert.Attn.BodyOps

variable (S : Arr2 10000 1 EReal) (D : Arr2 1 10000 EReal) (ADJ : Arr2 10000 10000 (BitVec 32)) (VAL : Arr2 10000 128 EReal)
variable (x0 : Arr2 200 1 EReal) (x1 : Arr2 1 10000 EReal) (x2 : Arr2 200 10000 (BitVec 32)) (x3 : Arr2 10000 128 EReal)

section Row
variable (p : Fin 200) (r : Fin 10000)
  (h0 : x0 (ix2 p 0) = S (ix2 r 0)) (h1 : ∀ j : Fin 10000, x1 (ix2 0 j) = D (ix2 0 j))
  (h2 : ∀ j : Fin 10000, x2 (ix2 p j) = ADJ (ix2 r j))
include h0 h1 h2

/-- Row p of the block's scores is row r of the layer's. -/
theorem bsc_eq : bsc x0 x1 x2 p = scoreTile S D ADJ r := by
  funext j
  show esc (x0 (ix2 p 0)) (x1 (ix2 0 j)) (x2 (ix2 p j)) = esc (S (ix2 r 0)) (D (ix2 0 j)) (ADJ (ix2 r j))
  rw [h0, h1, h2]

/-- Its maximum is the row maximum. -/
theorem bmax_eq : bmax x0 x1 x2 p = rowMax (scoreTile S D ADJ) r := by
  unfold bmax rowMax
  rw [bsc_eq S D ADJ x0 x1 x2 p r h0 h1 h2]

/-- Its shifted exponentials are the row's. -/
theorem bexp_eq (j : Fin 10000) : bexp x0 x1 x2 p j = expo (scoreTile S D ADJ) r j := by
  unfold bexp expo
  rw [bmax_eq S D ADJ x0 x1 x2 p r h0 h1 h2, bsc_eq S D ADJ x0 x1 x2 p r h0 h1 h2]

/-- Their sum is the row sum. -/
theorem bsum_eq : bsum x0 x1 x2 p = rowSum (scoreTile S D ADJ) r := by
  unfold bsum rowSum
  exact Finset.sum_congr rfl fun j _ => bexp_eq S D ADJ x0 x1 x2 p r h0 h1 h2 j

/-- Row p of the block of attention is row r of the attention matrix. -/
theorem blkAttn_row (j : Fin 10000) : blkAttn x0 x1 x2 (ix2 p j) = attnTile S D ADJ (ix2 r j) := by
  show bexp x0 x1 x2 p j * Ideal.div 1 (bsum x0 x1 x2 p)
    = expo (scoreTile S D ADJ) r j * Ideal.div 1 (rowSum (scoreTile S D ADJ) r)
  rw [bexp_eq S D ADJ x0 x1 x2 p r h0 h1 h2, bsum_eq S D ADJ x0 x1 x2 p r h0 h1 h2]

/-- Row p of the block of the output is row r of the layer's output. -/
theorem blkOut_row (h3 : ∀ (j : Fin 10000) (k : Fin 128), x3 (ix2 j k) = VAL (ix2 j k)) (k : Fin 128) :
    blkOut x0 x1 x2 x3 (ix2 p k) = outTile S D ADJ VAL (ix2 r k) := by
  show (∑ j : Fin 10000, bexp x0 x1 x2 p j * x3 (ix2 j k)) * Ideal.div 1 (bsum x0 x1 x2 p)
    = (∑ j : Fin 10000, expo (scoreTile S D ADJ) r j * VAL (ix2 j k)) * Ideal.div 1 (rowSum (scoreTile S D ADJ) r)
  rw [bsum_eq S D ADJ x0 x1 x2 p r h0 h1 h2]
  congr 1
  exact Finset.sum_congr rfl fun j _ => by rw [bexp_eq S D ADJ x0 x1 x2 p r h0 h1 h2, h3]

end Row

/-! The same with the block's index and the array's index given as indices and their coordinates related: the block sits at
    rows o … o + 199 of the arrays. -/

section Block
variable (o : Nat)
  (h0 : ∀ (y : (⟨2, ![200, 1]⟩ : Shape).Idx) (i : (⟨2, ![10000, 1]⟩ : Shape).Idx),
    (i 0).val = o + (y 0).val → (i 1).val = (y 1).val → x0 y = S i)
  (h1 : ∀ (y : (⟨2, ![1, 10000]⟩ : Shape).Idx) (i : (⟨2, ![1, 10000]⟩ : Shape).Idx),
    (i 0).val = (y 0).val → (i 1).val = (y 1).val → x1 y = D i)
  (h2 : ∀ (y : (⟨2, ![200, 10000]⟩ : Shape).Idx) (i : (⟨2, ![10000, 10000]⟩ : Shape).Idx),
    (i 0).val = o + (y 0).val → (i 1).val = (y 1).val → x2 y = ADJ i)
include h0 h1 h2

/-- The block of attention, at a block index, is the attention matrix at the index o rows further down. -/
theorem blkAttn_at (y : (⟨2, ![200, 10000]⟩ : Shape).Idx) (i : (⟨2, ![10000, 10000]⟩ : Shape).Idx)
    (hi0 : (i 0).val = o + (y 0).val) (hi1 : (i 1).val = (y 1).val) :
    blkAttn x0 x1 x2 y = attnTile S D ADJ i := by
  obtain ⟨p, j, rfl⟩ : ∃ (p : Fin 200) (j : Fin 10000), y = ix2 p j := ⟨y 0, y 1, eq_ix2 y⟩
  obtain ⟨r, j', rfl⟩ : ∃ (r : Fin 10000) (j' : Fin 10000), i = ix2 r j' := ⟨i 0, i 1, eq_ix2 i⟩
  have hr : r.val = o + p.val := hi0
  obtain rfl : j' = j := Fin.ext hi1
  exact blkAttn_row S D ADJ x0 x1 x2 p r (h0 _ _ hr rfl) (fun j => h1 _ _ rfl rfl) (fun j => h2 _ _ hr rfl) j'

/-- The block of the output, at a block index, is the layer's output at the index o rows further down. -/
theorem blkOut_at
    (h3 : ∀ (y : (⟨2, ![10000, 128]⟩ : Shape).Idx) (i : (⟨2, ![10000, 128]⟩ : Shape).Idx),
      (i 0).val = (y 0).val → (i 1).val = (y 1).val → x3 y = VAL i)
    (y : (⟨2, ![200, 128]⟩ : Shape).Idx) (i : (⟨2, ![10000, 128]⟩ : Shape).Idx)
    (hi0 : (i 0).val = o + (y 0).val) (hi1 : (i 1).val = (y 1).val) :
    blkOut x0 x1 x2 x3 y = outTile S D ADJ VAL i := by
  obtain ⟨p, k, rfl⟩ : ∃ (p : Fin 200) (k : Fin 128), y = ix2 p k := ⟨y 0, y 1, eq_ix2 y⟩
  obtain ⟨r, k', rfl⟩ : ∃ (r : Fin 10000) (k' : Fin 128), i = ix2 r k' := ⟨i 0, i 1, eq_ix2 i⟩
  have hr : r.val = o + p.val := hi0
  obtain rfl : k' = k := Fin.ext hi1
  exact blkOut_row S D ADJ VAL x0 x1 x2 x3 p r (h0 _ _ hr rfl) (fun j => h1 _ _ rfl rfl) (fun j => h2 _ _ hr rfl)
    (fun j k => h3 _ _ rfl rfl) k'

end Block

end Cert.KernelIdeal.KernelBlocks

end
-- ==== Proof.KernelBlocks.lean ====
/-
  From the blocks the tiled program writes back to the two whole output arrays.

  The launch walks 50 grid points; at point t it stages rows 200t … 200t + 199 of the source half-scores and of the
  adjacency, the whole row of destination half-scores and the whole value matrix, and writes back rows 200t … 200t + 199
  of the attention matrix and of the output. Given that the body computes the block functions of the specification,
  what point t writes back is the block at those rows of the layer's attention matrix and output; the 50 blocks cover
  all 10000 rows, so after the run each output array is the layer's.
-/
import proofs.«122247_j47983374631488_2_alg».proof.Proof.Gen.KernelIdeal.Value
import proofs.«122247_j47983374631488_2_alg».proof.Proof.KernelBlocksMath

noncomputable section

namespace Cert.KernelIdeal.KernelBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block indices of the six windows at grid point t: the row-blocked ones sit at block row t, the whole-array ones
    at block (0, 0). Decided over the 50 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The staged blocks as rows of the arrays the launch finds -/

/-- The block of source half-scores at point t is rows 200t … 200t + 199 of the column. -/
theorem iblk0_apply (c : Dev nD) (t : Fin cfg0.N) (y : S200x1.Idx) (k : S10000x1.Idx)
    (hk0 : (k 0).val = 200 * t.val + (y 0).val) (hk1 : (k 1).val = (y 1).val) :
    (iblk m c 0 t : Vec Ideal S200x1 .f32) y = (V m c main_v7 : S10000x1.Idx → EReal) k := by
  obtain ⟨e0, e1, -⟩ := idx_facts t
  show (V m c main_v7 : S10000x1.Idx → EReal) (((cfg0.win 0).blk t).view.emb y) = _
  refine congrArg (V m c main_v7 : S10000x1.Idx → EReal) (funext fun a => Fin.ext ?_)
  match a with
  | ⟨0, _⟩ => show win0_0.index t (0 : Fin 2) * 200 + 1 * (y 0).val = (k 0).val; rw [e0, hk0]; omega
  | ⟨1, _⟩ => show win0_0.index t (1 : Fin 2) * 1 + 1 * (y 1).val = (k 1).val; rw [e1, hk1]; omega

/-- The block of destination half-scores is the whole row, at every point. -/
theorem iblk1_apply (c : Dev nD) (t : Fin cfg0.N) (y : S1x10000.Idx) (k : S1x10000.Idx)
    (hk0 : (k 0).val = (y 0).val) (hk1 : (k 1).val = (y 1).val) :
    (iblk m c 1 t : Vec Ideal S1x10000 .f32) y = (V m c main_v11 : S1x10000.Idx → EReal) k := by
  obtain ⟨-, -, e0, e1, -⟩ := idx_facts t
  show (V m c main_v11 : S1x10000.Idx → EReal) (((cfg0.win 1).blk t).view.emb y) = _
  refine congrArg (V m c main_v11 : S1x10000.Idx → EReal) (funext fun a => Fin.ext ?_)
  match a with
  | ⟨0, _⟩ => show win0_1.index t (0 : Fin 2) * 1 + 1 * (y 0).val = (k 0).val; rw [e0, hk0]; omega
  | ⟨1, _⟩ => show win0_1.index t (1 : Fin 2) * 10000 + 1 * (y 1).val = (k 1).val; rw [e1, hk1]; omega

/-- The block of adjacency words at point t is rows 200t … 200t + 199 of the adjacency. -/
theorem iblk2_apply (c : Dev nD) (t : Fin cfg0.N) (y : S200x10000.Idx) (k : S10000x10000.Idx)
    (hk0 : (k 0).val = 200 * t.val + (y 0).val) (hk1 : (k 1).val = (y 1).val) :
    (iblk m c 2 t : Vec Ideal S200x10000 .i32) y = (V m c main_arg1 : S10000x10000.Idx → BitVec 32) k := by
  obtain ⟨-, -, -, -, e0, e1, -⟩ := idx_facts t
  show (V m c main_arg1 : S10000x10000.Idx → BitVec 32) (((cfg0.win 2).blk t).view.emb y) = _
  refine congrArg (V m c main_arg1 : S10000x10000.Idx → BitVec 32) (funext fun a => Fin.ext ?_)
  match a with
  | ⟨0, _⟩ => show win0_2.index t (0 : Fin 2) * 200 + 1 * (y 0).val = (k 0).val; rw [e0, hk0]; omega
  | ⟨1, _⟩ => show win0_2.index t (1 : Fin 2) * 10000 + 1 * (y 1).val = (k 1).val; rw [e1, hk1]; omega

/-- The block of the value matrix is the whole matrix, at every point. -/
theorem iblk3_apply (c : Dev nD) (t : Fin cfg0.N) (y : S10000x128.Idx) (k : S10000x128.Idx)
    (hk0 : (k 0).val = (y 0).val) (hk1 : (k 1).val = (y 1).val) :
    (iblk m c 3 t : Vec Ideal S10000x128 .bf16) y = (V m c main_v12 : S10000x128.Idx → EReal) k := by
  obtain ⟨-, -, -, -, -, -, e0, e1, -⟩ := idx_facts t
  show (V m c main_v12 : S10000x128.Idx → EReal) (((cfg0.win 3).blk t).view.emb y) = _
  refine congrArg (V m c main_v12 : S10000x128.Idx → EReal) (funext fun a => Fin.ext ?_)
  match a with
  | ⟨0, _⟩ => show win0_3.index t (0 : Fin 2) * 10000 + 1 * (y 0).val = (k 0).val; rw [e0, hk0]; omega
  | ⟨1, _⟩ => show win0_3.index t (1 : Fin 2) * 128 + 1 * (y 1).val = (k 1).val; rw [e1, hk1]; omega

/-! ## The two output arrays -/

/-- The attention matrix of the arrays the launch finds on core c. -/
abbrev attnOf (c : Dev nD) : S10000x10000.Idx → EReal :=
  Cert.Attn.attnTile (V m c main_v7) (V m c main_v11) (V m c main_arg1)

/-- The layer's output of the arrays the launch finds on core c. -/
abbrev outOf (c : Dev nD) : S10000x128.Idx → EReal :=
  Cert.Attn.outTile (V m c main_v7) (V m c main_v11) (V m c main_arg1) (V m c main_v12)

section Attn
variable (hb4 : ∀ (c : Dev nD) (i : grid0.Coords) (arg1 : Memref sig .tc .vmem S200x1 .f32) (harg1 : arg1.IsWhole)
    (arg2 : Memref sig .tc .vmem S1x10000 .f32) (harg2 : arg2.IsWhole) (arg3 : Memref sig .tc .vmem S200x10000 .i32) (harg3 : arg3.IsWhole)
    (arg4 : Memref sig .tc .vmem S10000x128 .bf16) (harg4 : arg4.IsWhole) (arg5 : Memref sig .tc .vmem S200x10000 .f32) (harg5 : arg5.IsWhole)
    (arg6 : Memref sig .tc .vmem S200x128 .f32) (harg6 : arg6.IsWhole)
    (x0 : Vec Ideal S200x1 .f32) (x1 : Vec Ideal S1x10000 .f32) (x2 : Vec Ideal S200x10000 .i32) (x3 : Vec Ideal S10000x128 .bf16),
    Gen.out0_A_4 (F := Ideal) c i arg1 harg1 arg2 harg2 arg3 harg3 arg4 harg4 arg5 harg5 arg6 harg6 x0 x1 x2 x3 = Cert.Attn.Block.blkAttn x0 x1 x2)
include hb4

/-- What point t writes back to the attention matrix is its rows 200t … 200t + 199. -/
theorem flushed4_eq (c : Dev nD) (t : Fin cfg0.N) :
    (dats m 0 c).flushed 4 t = ((cfg0.win 4).blk t).view.read (Elt Ideal) (attnOf m c) := by
  refine (Value.flushed4_A m c t).trans ?_
  rw [hb4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)]
  obtain ⟨-, -, -, -, -, -, -, -, e0, e1, -⟩ := idx_facts t
  funext y
  show Cert.Attn.Block.blkAttn (iblk m c 0 t) (iblk m c 1 t) (iblk m c 2 t) y
    = Cert.Attn.attnTile (V m c main_v7) (V m c main_v11) (V m c main_arg1) (((cfg0.win 4).blk t).view.emb y)
  refine blkAttn_at (V m c main_v7) (V m c main_v11) (V m c main_arg1) (iblk m c 0 t) (iblk m c 1 t) (iblk m c 2 t)
    (200 * t.val) (iblk0_apply m c t) (iblk1_apply m c t) (iblk2_apply m c t) y (((cfg0.win 4).blk t).view.emb y) ?_ ?_
  · show win0_4.index t (0 : Fin 2) * 200 + 1 * (y 0).val = 200 * t.val + (y 0).val; rw [e0]; omega
  · show win0_4.index t (1 : Fin 2) * 10000 + 1 * (y 1).val = (y 1).val; rw [e1]; omega

end Attn

section Out
variable (hb5 : ∀ (c : Dev nD) (i : grid0.Coords) (arg1 : Memref sig .tc .vmem S200x1 .f32) (harg1 : arg1.IsWhole)
    (arg2 : Memref sig .tc .vmem S1x10000 .f32) (harg2 : arg2.IsWhole) (arg3 : Memref sig .tc .vmem S200x10000 .i32) (harg3 : arg3.IsWhole)
    (arg4 : Memref sig .tc .vmem S10000x128 .bf16) (harg4 : arg4.IsWhole) (arg5 : Memref sig .tc .vmem S200x10000 .f32) (harg5 : arg5.IsWhole)
    (arg6 : Memref sig .tc .vmem S200x128 .f32) (harg6 : arg6.IsWhole)
    (x0 : Vec Ideal S200x1 .f32) (x1 : Vec Ideal S1x10000 .f32) (x2 : Vec Ideal S200x10000 .i32) (x3 : Vec Ideal S10000x128 .bf16),
    Gen.out0_A_5 (F := Ideal) c i arg1 harg1 arg2 harg2 arg3 harg3 arg4 harg4 arg5 harg5 arg6 harg6 x0 x1 x2 x3 = Cert.Attn.Block.blkOut x0 x1 x2 x3)
include hb5

/-- What point t writes back to the output is its rows 200t … 200t + 199. -/
theorem flushed5_eq (c : Dev nD) (t : Fin cfg0.N) :
    (dats m 0 c).flushed 5 t = ((cfg0.win 5).blk t).view.read (Elt Ideal) (outOf m c) := by
  refine (Value.flushed5_A m c t).trans ?_
  rw [hb5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)]
  obtain ⟨-, -, -, -, -, -, -, -, -, -, e0, e1⟩ := idx_facts t
  funext y
  show Cert.Attn.Block.blkOut (iblk m c 0 t) (iblk m c 1 t) (iblk m c 2 t) (iblk m c 3 t) y
    = Cert.Attn.outTile (V m c main_v7) (V m c main_v11) (V m c main_arg1) (V m c main_v12) (((cfg0.win 5).blk t).view.emb y)
  refine blkOut_at (V m c main_v7) (V m c main_v11) (V m c main_arg1) (V m c main_v12)
    (iblk m c 0 t) (iblk m c 1 t) (iblk m c 2 t) (iblk m c 3 t)
    (200 * t.val) (iblk0_apply m c t) (iblk1_apply m c t) (iblk2_apply m c t) (iblk3_apply m c t) y (((cfg0.win 5).blk t).view.emb y) ?_ ?_
  · show win0_5.index t (0 : Fin 2) * 200 + 1 * (y 0).val = 200 * t.val + (y 0).val; rw [e0]; omega
  · show win0_5.index t (1 : Fin 2) * 128 + 1 * (y 1).val = (y 1).val; rw [e1]; omega

end Out

/-! ## The blocks cover the arrays -/

/-- An index of the attention matrix is in point t's block iff each coordinate is in the block's range on its axis. -/
theorem mem_blk4 (t : Fin cfg0.N) (i : S10000x10000.Idx) :
    i ∈ ((cfg0.win 4).blk t).view.set ↔ ∀ a : Fin 2, win0_4.index t a * S200x10000.size a ≤ (i a).val ∧ (i a).val < win0_4.index t a * S200x10000.size a + S200x10000.size a := by
  show i ∈ ((View.whole main_v13_0).slice (win0_4.rect t)).set ↔ _
  rw [View.set_slice_whole, Rect.mem_set_unit]
  exact Iff.rfl

/-- An index of the output is in point t's block iff each coordinate is in the block's range on its axis. -/
theorem mem_blk5 (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v13_1).slice (win0_5.rect t)).set ↔ _
  rw [View.set_slice_whole, Rect.mem_set_unit]
  exact Iff.rfl

/-- Row r of the attention matrix is in the block of point r / 200. -/
theorem cover4 (i : S10000x10000.Idx) :
    ∃ t : Fin cfg0.N, (cfg0.win 4).flush t = true ∧ i ∈ ((cfg0.win 4).blk t).view.set := by
  have hi0 : (i 0).val < 10000 := (i 0).isLt
  have hi1 : (i 1).val < 10000 := (i 1).isLt
  have hN : cfg0.N = 50 := N_0
  have ht : (i 0).val / 200 < cfg0.N := by rw [hN]; omega
  obtain ⟨-, -, -, -, -, -, -, -, e0, e1, -⟩ := idx_facts ⟨(i 0).val / 200, ht⟩
  refine ⟨⟨(i 0).val / 200, ht⟩, flush0_4 _, ?_⟩
  rw [mem_blk4]
  intro a
  match a with
  | ⟨0, _⟩ =>
    show win0_4.index ⟨(i 0).val / 200, ht⟩ (0 : Fin 2) * 200 ≤ (i 0).val ∧ (i 0).val < win0_4.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_4.index ⟨(i 0).val / 200, ht⟩ (1 : Fin 2) * 10000 ≤ (i 1).val ∧ (i 1).val < win0_4.index ⟨(i 0).val / 200, ht⟩ (1 : Fin 2) * 10000 + 10000
    rw [e1]; omega

/-- Row r of the output is in the block of point r / 200. -/
theorem cover5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 50 := N_0
  have ht : (i 0).val / 200 < cfg0.N := by rw [hN]; omega
  obtain ⟨-, -, -, -, -, -, -, -, -, -, e0, e1⟩ := idx_facts ⟨(i 0).val / 200, ht⟩
  refine ⟨⟨(i 0).val / 200, ht⟩, flush0_5 _, ?_⟩
  rw [mem_blk5]
  intro a
  match a with
  | ⟨0, _⟩ =>
    show win0_5.index ⟨(i 0).val / 200, ht⟩ (0 : Fin 2) * 200 ≤ (i 0).val ∧ (i 0).val < win0_5.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_5.index ⟨(i 0).val / 200, ht⟩ (1 : Fin 2) * 128 ≤ (i 1).val ∧ (i 1).val < win0_5.index ⟨(i 0).val / 200, ht⟩ (1 : Fin 2) * 128 + 128
    rw [e1]; omega

/-! ## The arrays after the run -/

/-- After the run the attention matrix's array holds the layer's attention matrix. -/
theorem final4 (hb4 : ∀ (c : Dev nD) (i : grid0.Coords) (arg1 : Memref sig .tc .vmem S200x1 .f32) (harg1 : arg1.IsWhole)
    (arg2 : Memref sig .tc .vmem S1x10000 .f32) (harg2 : arg2.IsWhole) (arg3 : Memref sig .tc .vmem S200x10000 .i32) (harg3 : arg3.IsWhole)
    (arg4 : Memref sig .tc .vmem S10000x128 .bf16) (harg4 : arg4.IsWhole) (arg5 : Memref sig .tc .vmem S200x10000 .f32) (harg5 : arg5.IsWhole)
    (arg6 : Memref sig .tc .vmem S200x128 .f32) (harg6 : arg6.IsWhole)
    (x0 : Vec Ideal S200x1 .f32) (x1 : Vec Ideal S1x10000 .f32) (x2 : Vec Ideal S200x10000 .i32) (x3 : Vec Ideal S10000x128 .bf16),
    Gen.out0_A_4 (F := Ideal) c i arg1 harg1 arg2 harg2 arg3 harg3 arg4 harg4 arg5 harg5 arg6 harg6 x0 x1 x2 x3 = Cert.Attn.Block.blkAttn x0 x1 x2) (c : Dev nD) :
    (dats m 0 c).arrAt 4 cfg0.N = attnOf m c :=
  (dats m 0 c).arrAt_eq_of_cover 4 (attnOf m c) (fun t _ => flushed4_eq m hb4 c t) cover4

/-- After the run the output's array holds the layer's output. -/
theorem final5 (hb5 : ∀ (c : Dev nD) (i : grid0.Coords) (arg1 : Memref sig .tc .vmem S200x1 .f32) (harg1 : arg1.IsWhole)
    (arg2 : Memref sig .tc .vmem S1x10000 .f32) (harg2 : arg2.IsWhole) (arg3 : Memref sig .tc .vmem S200x10000 .i32) (harg3 : arg3.IsWhole)
    (arg4 : Memref sig .tc .vmem S10000x128 .bf16) (harg4 : arg4.IsWhole) (arg5 : Memref sig .tc .vmem S200x10000 .f32) (harg5 : arg5.IsWhole)
    (arg6 : Memref sig .tc .vmem S200x128 .f32) (harg6 : arg6.IsWhole)
    (x0 : Vec Ideal S200x1 .f32) (x1 : Vec Ideal S1x10000 .f32) (x2 : Vec Ideal S200x10000 .i32) (x3 : Vec Ideal S10000x128 .bf16),
    Gen.out0_A_5 (F := Ideal) c i arg1 harg1 arg2 harg2 arg3 harg3 arg4 harg4 arg5 harg5 arg6 harg6 x0 x1 x2 x3 = Cert.Attn.Block.blkOut x0 x1 x2 x3) (c : Dev nD) :
    (dats m 0 c).arrAt 5 cfg0.N = outOf m c :=
  (dats m 0 c).arrAt_eq_of_cover 5 (outOf m c) (fun t _ => flushed5_eq m hb5 c t) cover5

end Cert.KernelIdeal.KernelBlocks

end
-- ==== Proof.HostPrefixOps.lean ====
/-
  The operations of the tiled program's host prefix, each read at an index.

  The prefix forms Wh = h·W, cuts the 512 attention weights into four runs of 128, and for each half-score adds the
  product of Wh with one run to the product of the embedding with the next run. A plain matrix product read at (i, j) is
  the sum over the contracted coordinate; a cut along the rows from o reads the source o rows further down; the
  10000 × 1 column recast as a 1 × 10000 row keeps the row-major position, so (0, j) reads (j, 0).
-/
import proofs.«122247_j47983374631488_2_alg».proof.KernelIdeal
import proofs.«122247_j47983374631488_2_alg».proof.Proof.Spec
import Idealize.ShloMosaic.Lib.StackMember
import Idealize.ShloMosaic.Lib.ValueLayout

noncomputable section

namespace Cert.KernelIdeal.HostPrefix

open Cert.KernelIdeal Idealize.ShloMosaic Idealize.ShloMosaic.ValueIdx

variable [Facts]
open Facts₀ Facts

/-- Wh = h·W: the 10000 × 256 by 256 × 128 product read at (i, j). -/
theorem dotW_apply (h : FVec Ideal S10000x256 .f32) (W : FVec Ideal S256x128 .f32) (i : Fin 10000) (j : Fin 128) :
    Host.dotGeneral dot_S10000x256_S256x128_S10000x128_1_0_0_1_n_n (some .fp32) h W (ix2 i j)
      = ∑ k : Fin 256, h (ix2 i k) * W (ix2 k j) :=
  StackMember.dotGeneral_plain_apply (some .fp32) h W i j

/-- The whole product is the projection of the specification. -/
theorem dotW_eq (h : FVec Ideal S10000x256 .f32) (W : FVec Ideal S256x128 .f32) :
    Host.dotGeneral dot_S10000x256_S256x128_S10000x128_1_0_0_1_n_n (some .fp32) h W = Cert.Attn.proj h W := by
  funext j
  obtain ⟨a, b, rfl⟩ : ∃ (a : Fin 10000) (b : Fin 128), j = ix2 a b := ⟨j 0, j 1, eq_ix2 j⟩
  rw [dotW_apply]
  rfl

/-- A 10000 × 128 matrix against a 128 × 1 column, read at (i, q). -/
theorem dotCol_apply (X : FVec Ideal S10000x128 .f32) (v : FVec Ideal S128x1 .f32) (i : Fin 10000) (q : Fin 1) :
    Host.dotGeneral dot_S10000x128_S128x1_S10000x1_1_0_0_1_n_n (some .fp32) X v (ix2 i q)
      = ∑ k : Fin 128, X (ix2 i k) * v (ix2 k q) :=
  StackMember.dotGeneral_plain_apply (some .fp32) X v i q

/-- A run of 128 of the 512 weights starting at o, read at (k, q): the weight at row o + k. -/
theorem run_apply (a : FVec Ideal S512x1 .f32) (o : Nat) (hs : S512x1.Slices ![o, 0] S128x1) (k : Fin 128) (q : Fin 1)
    (ho : o + k.val < 512) :
    extractStridedSlice S128x1 ![o, 0] a hs (ix2 k q) = a (ix2 ⟨o + k.val, ho⟩ 0) := by
  rw [slice2_axis0_apply o a hs k q ⟨o + k.val, ho⟩ rfl]
  congr 2
  exact Subsingleton.elim _ _

/-- One half-score: Wh against the run at o plus the embedding against the run at o', where o' = o + 128, read at (i, q). -/
theorem half_apply (Wh emb : FVec Ideal S10000x128 .f32) (a : FVec Ideal S512x1 .f32) (o o' : Nat)
    (hs : S512x1.Slices ![o, 0] S128x1) (hs' : S512x1.Slices ![o', 0] S128x1) (hoff : o + 256 ≤ 512) (ho' : o' = o + 128)
    (i : Fin 10000) (q : Fin 1) :
    addf (Host.dotGeneral dot_S10000x128_S128x1_S10000x1_1_0_0_1_n_n (some .fp32) Wh (extractStridedSlice S128x1 ![o, 0] a hs))
        (Host.dotGeneral dot_S10000x128_S128x1_S10000x1_1_0_0_1_n_n (some .fp32) emb (extractStridedSlice S128x1 ![o', 0] a hs'))
        (ix2 i q)
      = Cert.Attn.half128 Wh emb a o hoff i := by
  subst ho'
  rw [addf_apply, dotCol_apply, dotCol_apply]
  unfold Cert.Attn.half128
  congr 1
  · exact Finset.sum_congr rfl fun k _ => by rw [run_apply a o hs k q (by have := k.isLt; omega)]
  · exact Finset.sum_congr rfl fun k _ => by rw [run_apply a (o + 128) hs' k q (by have := k.isLt; omega)]

/-- The 10000 × 1 column recast as a 1 × 10000 row: (p, j) reads (j, 0). -/
theorem row_of_col_apply (x : FVec Ideal S10000x1 .f32) (hc : S10000x1.ShapeCasts S1x10000) (p : Fin 1) (j : Fin 10000) :
    shapeCast S1x10000 x hc (ix2 p j) = x (ix2 j 0) :=
  shapeCast_apply x hc _ _ (by
    have hp : p.val = 0 := by omega
    rw [Shape.rowMajor_val_two, Shape.rowMajor_val_two]
    show j.val * 1 + 0 = p.val * 10000 + j.val
    rw [hp]; omega)

end Cert.KernelIdeal.HostPrefix

end
-- ==== Proof.HostPrefix.lean ====
/-
  What the tiled program's host prefix leaves in the three arrays the launch stages.

  Before the launch the program forms Wh = h·W, the source half-scores Wh·a[0:128] + emb·a[128:256] as a 10000 × 1
  column, the destination half-scores Wh·a[256:384] + emb·a[384:512] as a 1 × 10000 row, and a copy of Wh in the
  narrower float format, which over the extended reals is Wh itself. Each array the launch finds is therefore the
  specification's column, row and projection of the four float arguments.
-/
import proofs.«122247_j47983374631488_2_alg».proof.Proof.Gen.KernelIdeal.Frame.Runs
import proofs.«122247_j47983374631488_2_alg».proof.Proof.HostPrefixOps

noncomputable section

namespace Cert.KernelIdeal.HostPrefix

open Cert.KernelIdeal Cert.KernelIdeal.Gen Idealize.ShloMosaic Idealize.SL.Sem Idealize.ShloMosaic.ValueIdx

variable [Facts]
open Facts₀ Facts

variable (m : (ℓ : Loc nD τ sig) → Buf (Elt Ideal) ℓ) (c : Dev nD)

/-- The node features h on core c, as launched. -/
abbrev argH : FVec Ideal S10000x256 .f32 := m ((c.tc : Thread nD τ).loc main_arg0)
/-- The embeddings on core c, as launched. -/
abbrev argEmb : FVec Ideal S10000x128 .f32 := m ((c.tc : Thread nD τ).loc main_arg2)
/-- The projection weights W on core c, as launched. -/
abbrev argW : FVec Ideal S256x128 .f32 := m ((c.tc : Thread nD τ).loc main_arg3)
/-- The 512 attention weights on core c, as launched. -/
abbrev argA : FVec Ideal S512x1 .f32 := m ((c.tc : Thread nD τ).loc main_arg4)

/-- The source half-scores, as the launch finds them. -/
theorem V_src :
    (V m c main_v7 : Cert.Attn.Arr2 10000 1 EReal)
      = Cert.Attn.srcCol (m ((c.tc : Thread nD τ).loc main_arg0)) (m ((c.tc : Thread nD τ).loc main_arg2))
          (m ((c.tc : Thread nD τ).loc main_arg3)) (m ((c.tc : Thread nD τ).loc main_arg4)) := by
  have e : (V m c main_v7 : S10000x1.Idx → EReal)
      = (addf (F := Ideal)
          (Host.dotGeneral dot_S10000x128_S128x1_S10000x1_1_0_0_1_n_n (some .fp32)
            (Host.dotGeneral dot_S10000x256_S256x128_S10000x128_1_0_0_1_n_n (some .fp32)
              (argH m c) (argW m c))
            (extractStridedSlice S128x1 ![0, 0] (argA m c) Facts₀.slices_S512x1_S128x1_0_0))
          (Host.dotGeneral dot_S10000x128_S128x1_S10000x1_1_0_0_1_n_n (some .fp32)
            (argEmb m c)
            (extractStridedSlice S128x1 ![128, 0] (argA m c) Facts₀.slices_S512x1_S128x1_128_0)) : FVec Ideal S10000x1 .f32) := by
    dsimp only [Gen.V, Gen.hostOps0]; after_results
  rw [e, dotW_eq]
  funext i
  obtain ⟨p, q, rfl⟩ : ∃ (p : Fin 10000) (q : Fin 1), i = ix2 p q := ⟨i 0, i 1, eq_ix2 i⟩
  rw [half_apply _ _ _ 0 128 _ _ (by omega) rfl p q]
  rfl

/-- The destination half-scores, as the launch finds them. -/
theorem V_dst :
    (V m c main_v11 : Cert.Attn.Arr2 1 10000 EReal)
      = Cert.Attn.dstRow (m ((c.tc : Thread nD τ).loc main_arg0)) (m ((c.tc : Thread nD τ).loc main_arg2))
          (m ((c.tc : Thread nD τ).loc main_arg3)) (m ((c.tc : Thread nD τ).loc main_arg4)) := by
  have e : (V m c main_v11 : S1x10000.Idx → EReal)
      = (shapeCast S1x10000
          (addf (F := Ideal)
            (Host.dotGeneral dot_S10000x128_S128x1_S10000x1_1_0_0_1_n_n (some .fp32)
              (Host.dotGeneral dot_S10000x256_S256x128_S10000x128_1_0_0_1_n_n (some .fp32)
                (argH m c) (argW m c))
              (extractStridedSlice S128x1 ![256, 0] (argA m c) Facts₀.slices_S512x1_S128x1_256_0))
            (Host.dotGeneral dot_S10000x128_S128x1_S10000x1_1_0_0_1_n_n (some .fp32)
              (argEmb m c)
              (extractStridedSlice S128x1 ![384, 0] (argA m c) Facts₀.slices_S512x1_S128x1_384_0)))
          Facts₀.shapeCasts_S10000x1_S1x10000 : FVec Ideal S1x10000 .f32) := by
    dsimp only [Gen.V, Gen.hostOps0]; after_results; rfl
  rw [e, dotW_eq]
  funext i
  obtain ⟨p, q, rfl⟩ : ∃ (p : Fin 1) (q : Fin 10000), i = ix2 p q := ⟨i 0, i 1, eq_ix2 i⟩
  rw [row_of_col_apply, half_apply _ _ _ 256 384 _ _ (by omega) rfl q 0]
  rfl

/-- The value matrix, as the launch finds it: Wh. -/
theorem V_val :
    (V m c main_v12 : Cert.Attn.Arr2 10000 128 EReal)
      = Cert.Attn.proj (m ((c.tc : Thread nD τ).loc main_arg0)) (m ((c.tc : Thread nD τ).loc main_arg3)) := by
  have e : (V m c main_v12 : S10000x128.Idx → EReal)
      = (truncf (F := Ideal) .bf16
          (Host.dotGeneral dot_S10000x256_S256x128_S10000x128_1_0_0_1_n_n (some .fp32)
            (argH m c) (argW m c))
          Facts₀.bitsLt_bf16_f32 : FVec Ideal S10000x128 .bf16) := by
    dsimp only [Gen.V, Gen.hostOps0]; after_results
  rw [e, dotW_eq]
  rfl

end Cert.KernelIdeal.HostPrefix

end
-- ==== Proof.KernelRun.lean ====
/-
  The tiled program's run, read: after it the two result arrays hold the layer's output and attention matrix as the
  specification's tiled spelling states them of the five arguments, and the arguments are unchanged.

  The launch finds the source column, the destination row and the value matrix that the host prefix computed from the
  arguments, and the adjacency as launched; its 50 write-backs assemble the attention matrix and the output of those
  four arrays.
-/
import proofs.«122247_j47983374631488_2_alg».proof.Proof.KernelBlocks
import proofs.«122247_j47983374631488_2_alg».proof.Proof.HostPrefix

noncomputable section

namespace Cert.KernelIdeal.KernelRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The attention matrix of the arrays the launch finds, in terms of the arguments. -/
theorem attn_eq (c : Dev nD) :
    KernelBlocks.attnOf m c = Cert.Attn.attnTile (Cert.Attn.srcCol (m ((c.tc : Thread nD τ).loc main_arg0)) (m ((c.tc : Thread nD τ).loc main_arg2)) (m ((c.tc : Thread nD τ).loc main_arg3)) (m ((c.tc : Thread nD τ).loc main_arg4))) (Cert.Attn.dstRow (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg1)) := by
  show Cert.Attn.attnTile (V m c main_v7) (V m c main_v11) (V m c main_arg1) = _
  rw [HostPrefix.V_src m c, HostPrefix.V_dst m c, V_main_arg1 m c]

/-- The output of the arrays the launch finds, in terms of the arguments. -/
theorem out_eq (c : Dev nD) :
    KernelBlocks.outOf m c = Cert.Attn.outTile (Cert.Attn.srcCol (m ((c.tc : Thread nD τ).loc main_arg0)) (m ((c.tc : Thread nD τ).loc main_arg2)) (m ((c.tc : Thread nD τ).loc main_arg3)) (m ((c.tc : Thread nD τ).loc main_arg4))) (Cert.Attn.dstRow (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg1)) (Cert.Attn.proj (m ((c.tc : Thread nD τ).loc main_arg0)) (m ((c.tc : Thread nD τ).loc main_arg3))) := by
  show Cert.Attn.outTile (V m c main_v7) (V m c main_v11) (V m c main_arg1) (V m c main_v12) = _
  rw [HostPrefix.V_src m c, HostPrefix.V_dst m c, V_main_arg1 m c, HostPrefix.V_val m c]

variable (hb4 : ∀ (c : Dev nD) (i : grid0.Coords) (arg1 : Memref sig .tc .vmem S200x1 .f32) (harg1 : arg1.IsWhole)
    (arg2 : Memref sig .tc .vmem S1x10000 .f32) (harg2 : arg2.IsWhole) (arg3 : Memref sig .tc .vmem S200x10000 .i32) (harg3 : arg3.IsWhole)
    (arg4 : Memref sig .tc .vmem S10000x128 .bf16) (harg4 : arg4.IsWhole) (arg5 : Memref sig .tc .vmem S200x10000 .f32) (harg5 : arg5.IsWhole)
    (arg6 : Memref sig .tc .vmem S200x128 .f32) (harg6 : arg6.IsWhole)
    (x0 : Vec Ideal S200x1 .f32) (x1 : Vec Ideal S1x10000 .f32) (x2 : Vec Ideal S200x10000 .i32) (x3 : Vec Ideal S10000x128 .bf16),
    Gen.out0_A_4 (F := Ideal) c i arg1 harg1 arg2 harg2 arg3 harg3 arg4 harg4 arg5 harg5 arg6 harg6 x0 x1 x2 x3 = Cert.Attn.Block.blkAttn x0 x1 x2)
  (hb5 : ∀ (c : Dev nD) (i : grid0.Coords) (arg1 : Memref sig .tc .vmem S200x1 .f32) (harg1 : arg1.IsWhole)
    (arg2 : Memref sig .tc .vmem S1x10000 .f32) (harg2 : arg2.IsWhole) (arg3 : Memref sig .tc .vmem S200x10000 .i32) (harg3 : arg3.IsWhole)
    (arg4 : Memref sig .tc .vmem S10000x128 .bf16) (harg4 : arg4.IsWhole) (arg5 : Memref sig .tc .vmem S200x10000 .f32) (harg5 : arg5.IsWhole)
    (arg6 : Memref sig .tc .vmem S200x128 .f32) (harg6 : arg6.IsWhole)
    (x0 : Vec Ideal S200x1 .f32) (x1 : Vec Ideal S1x10000 .f32) (x2 : Vec Ideal S200x10000 .i32) (x3 : Vec Ideal S10000x128 .bf16),
    Gen.out0_A_5 (F := Ideal) c i arg1 harg1 arg2 harg2 arg3 harg3 arg4 harg4 arg5 harg5 arg6 harg6 x0 x1 x2 x3 = Cert.Attn.Block.blkOut x0 x1 x2 x3)
include hb4 hb5

/-- The run of the tiled program: the output, the attention matrix, the arguments unchanged. -/
theorem run : θ_run (defs (F := Ideal)) (onTc (τ := τ) (main (F := Ideal))) ⟨m, fun _ => 0, ρ⟩ (fun r => ∀ c : Dev nD,
      r.2.mem ((c.tc : Thread nD τ).loc main_v13_1)
        = Cert.Attn.outTile (Cert.Attn.srcCol (m ((c.tc : Thread nD τ).loc main_arg0)) (m ((c.tc : Thread nD τ).loc main_arg2)) (m ((c.tc : Thread nD τ).loc main_arg3)) (m ((c.tc : Thread nD τ).loc main_arg4))) (Cert.Attn.dstRow (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg1)) (Cert.Attn.proj (m ((c.tc : Thread nD τ).loc main_arg0)) (m ((c.tc : Thread nD τ).loc main_arg3)))
      ∧ r.2.mem ((c.tc : Thread nD τ).loc main_v13_0) = Cert.Attn.attnTile (Cert.Attn.srcCol (m ((c.tc : Thread nD τ).loc main_arg0)) (m ((c.tc : Thread nD τ).loc main_arg2)) (m ((c.tc : Thread nD τ).loc main_arg3)) (m ((c.tc : Thread nD τ).loc main_arg4))) (Cert.Attn.dstRow (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c).2.1.trans ((KernelBlocks.final5 m hb5 c).trans (out_eq m c)),
       (h c).1.trans ((KernelBlocks.final4 m hb4 c).trans (attn_eq m c)),
       (h c).2.2⟩)
    (Value.run_blocks m ρ)

end Cert.KernelIdeal.KernelRun

end
-- ==== Proof.RefRun.lean ====
/-
  The plain array program's @main as one straight line of forty host operations: its own thirty, the rectifier's
  seven (the zero splat, the comparison, the slope's copy and splat, the product, and the inner selection) and the
  masking selection's three (the stand-in's copy and splat, the selection), each callee's operations standing where
  its call stands and writing the buffers that call names. Every weakly fair execution terminates with each buffer
  at the fold of the operations' results over the launch contents.
-/
import proofs.«122247_j47983374631488_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's forty operations in order, the two calls unfolded over their buffer records. -/
abbrev ops : List (HloOp τ sig (Elt F)) :=
  [ binary main_arg0 main_arg3 main_v0 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    binary main_v0 main_arg2 main_v1 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    unary main_arg4 main_v2 ((extractStridedSlice S256x1 ![0, 0] · slices_S512x1_S256x1_0_0) : (⟨S512x1, .f32⟩ : BufTy).Contents (Elt F) → (⟨S256x1, .f32⟩ : BufTy).Contents (Elt F)),
    binary main_v1 main_v2 main_v3 ((fun l r => Host.dotGeneral dot_S10000x256_S256x1_S10000x1_1_0_0_1_n_n none l r) : (⟨S10000x256, .f32⟩ : BufTy).Contents (Elt F) → (⟨S256x1, .f32⟩ : BufTy).Contents (Elt F) → (⟨S10000x1, .f32⟩ : BufTy).Contents (Elt F)),
    unary main_arg4 main_v4 ((extractStridedSlice S256x1 ![256, 0] · slices_S512x1_S256x1_256_0) : (⟨S512x1, .f32⟩ : BufTy).Contents (Elt F) → (⟨S256x1, .f32⟩ : BufTy).Contents (Elt F)),
    binary main_v1 main_v4 main_v5 ((fun l r => Host.dotGeneral dot_S10000x256_S256x1_S10000x1_1_0_0_1_n_n none l r) : (⟨S10000x256, .f32⟩ : BufTy).Contents (Elt F) → (⟨S256x1, .f32⟩ : BufTy).Contents (Elt F) → (⟨S10000x1, .f32⟩ : BufTy).Contents (Elt F)),
    unary main_v5 main_v6 ((transpose S1x10000 [1, 0] · transposes_S10000x1_S1x10000_1_0) : (⟨S10000x1, .f32⟩ : BufTy).Contents (Elt F) → (⟨S1x10000, .f32⟩ : BufTy).Contents (Elt F)),
    unary main_v3 main_v7 (broadcastInDim S10000x10000 ![0, 1] bcast_S10000x1_S10000x10000_0_1 : (⟨S10000x1, .f32⟩ : BufTy).Contents (Elt F) → (⟨S10000x10000, .f32⟩ : BufTy).Contents (Elt F)),
    unary main_v6 main_v8 (broadcastInDim S10000x10000 ![0, 1] bcast_S1x10000_S10000x10000_0_1 : (⟨S1x10000, .f32⟩ : BufTy).Contents (Elt F) → (⟨S10000x10000, .f32⟩ : BufTy).Contents (Elt F)),
    binary main_v7 main_v8 main_v9 (addf : (⟨S10000x10000, .f32⟩ : BufTy).Contents (Elt F) → (⟨S10000x10000, .f32⟩ : BufTy).Contents (Elt F) → (⟨S10000x10000, .f32⟩ : BufTy).Contents (Elt F)),
    nullary main_cst (constant S_ .f32 0x3E4CCCCD#32),
    TRef.nullary main_call0.cst (constant S_ .f32 0x00000000#32),
    TRef.unary main_call0.cst main_call0.v0 (broadcastInDim S10000x10000 ![] bcast_S_S10000x10000),
    TRef.binary (.of main_v9) main_call0.v0 main_call0.v1 (cmpf .oge),
    TRef.unary (.of main_cst) main_call0.v2 id,
    TRef.unary main_call0.v2 main_call0.v3 (broadcastInDim S10000x10000 ![] bcast_S_S10000x10000),
    TRef.binary main_call0.v3 (.of main_v9) main_call0.v4 mulf,
    TRef.ternary main_call0.v1 (.of main_v9) main_call0.v4 main_call0.call0.v0 select,
    nullary main_c (constantI S_ 32 0#32),
    unary main_c main_v11 (broadcastInDim S10000x10000 ![] bcast_S_S10000x10000 : (⟨S_, .i32⟩ : BufTy).Contents (Elt F) → (⟨S10000x10000, .i32⟩ : BufTy).Contents (Elt F)),
    binary main_arg1 main_v11 main_v12 (cmpi .sgt : (⟨S10000x10000, .i32⟩ : BufTy).Contents (Elt F) → (⟨S10000x10000, .i32⟩ : BufTy).Contents (Elt F) → (⟨S10000x10000, .i1⟩ : BufTy).Contents (Elt F)),
    nullary main_cst_0 (constant S_ .f32 0xD9FFCB9E#32),
    TRef.unary (.of main_cst_0) main_call1.v0 id,
    TRef.unary main_call1.v0 main_call1.v1 (broadcastInDim S10000x10000 ![] bcast_S_S10000x10000),
    TRef.ternary (.of main_v12) (.of main_v10) main_call1.v1 main_call1.v2 select,
    nullary main_cst_1 (constant S_ .f32 0xFF800000#32),
    binary main_v13 main_cst_1 main_v14 ((fun x v => Host.reduce FloatOps.maximumf x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    nullary main_cst_2 (constant S_ .f32 0xFF800000#32),
    unary main_cst_2 main_v15 (broadcastInDim S10000 ![] bcast_S_S10000 : (⟨S_, .f32⟩ : BufTy).Contents (Elt F) → (⟨S10000, .f32⟩ : BufTy).Contents (Elt F)),
    binary main_v15 main_v14 main_v16 (maximumf : (⟨S10000, .f32⟩ : BufTy).Contents (Elt F) → (⟨S10000, .f32⟩ : BufTy).Contents (Elt F) → (⟨S10000, .f32⟩ : BufTy).Contents (Elt F)),
    unary main_v16 main_v17 (broadcastInDim S10000x1 ![0] bcast_S10000_S10000x1_0 : (⟨S10000, .f32⟩ : BufTy).Contents (Elt F) → (⟨S10000x1, .f32⟩ : BufTy).Contents (Elt F)),
    unary main_v17 main_v18 (broadcastInDim S10000x10000 ![0, 1] bcast_S10000x1_S10000x10000_0_1 : (⟨S10000x1, .f32⟩ : BufTy).Contents (Elt F) → (⟨S10000x10000, .f32⟩ : BufTy).Contents (Elt F)),
    binary main_v13 main_v18 main_v19 (subf : (⟨S10000x10000, .f32⟩ : BufTy).Contents (Elt F) → (⟨S10000x10000, .f32⟩ : BufTy).Contents (Elt F) → (⟨S10000x10000, .f32⟩ : BufTy).Contents (Elt F)),
    unary main_v19 main_v20 (Host.exp : (⟨S10000x10000, .f32⟩ : BufTy).Contents (Elt F) → (⟨S10000x10000, .f32⟩ : BufTy).Contents (Elt F)),
    nullary main_cst_3 (constant S_ .f32 0x00000000#32),
    binary main_v20 main_cst_3 main_v21 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v21 main_v22 (broadcastInDim S10000x1 ![0] bcast_S10000_S10000x1_0 : (⟨S10000, .f32⟩ : BufTy).Contents (Elt F) → (⟨S10000x1, .f32⟩ : BufTy).Contents (Elt F)),
    unary main_v22 main_v23 (broadcastInDim S10000x10000 ![0, 1] bcast_S10000x1_S10000x10000_0_1 : (⟨S10000x1, .f32⟩ : BufTy).Contents (Elt F) → (⟨S10000x10000, .f32⟩ : BufTy).Contents (Elt F)),
    binary main_v20 main_v23 main_v24 (Host.divf : (⟨S10000x10000, .f32⟩ : BufTy).Contents (Elt F) → (⟨S10000x10000, .f32⟩ : BufTy).Contents (Elt F) → (⟨S10000x10000, .f32⟩ : BufTy).Contents (Elt F)),
    binary main_v24 main_v0 main_v25 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ]

set_option maxRecDepth 2048 in
/-- @main is that straight line: the callees' bodies unfolded at their calls, sequencing reassociated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-- From any memory with zero counters, every weakly fair execution of @main terminates, and in every final state
    each buffer holds the fold of the forty operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefReadSoftmax.lean ====
/-
  The second half of the plain array program, from a matrix of edge scores E on: the row maxima, the shifted
  exponentials, the row sums, the quotient, and the product with the value matrix. Each array is defined here by the
  operations the program applies and read at an index: entry (i, j) of the quotient is
  exp (E i j - max_j E i j) / ∑_j exp (E i j - max_j E i j), and entry (i, q) of the product is ∑_j quotient (i, j) · V (j, q).
-/
import proofs.«122247_j47983374631488_2_alg».proof.Proof.Gen.ReferenceIdeal
import proofs.«122247_j47983374631488_2_alg».proof.Proof.Spec
import Idealize.ShloMosaic.Lib.StackMember
import Idealize.ShloMosaic.Lib.IdealHost
import Idealize.ShloMosaic.Lib.ValueLayout

noncomputable section

namespace Cert.ReferenceIdeal.RefRead

open Cert.ReferenceIdeal Cert.ReferenceIdeal.Gen Idealize.ShloMosaic Idealize.ShloMosaic.ValueIdx Cert.Attn

/-! ### Layout operations of these shapes at an index -/

section Layout
variable {α : Type}

/-- A column copied along the rows reads, at (i, j), the column's entry i. -/
theorem bcastCol_apply (x : S10000x1.Idx → α) (i j : Fin 10000) :
    broadcastInDim S10000x10000 ![0, 1] bcast_S10000x1_S10000x10000_0_1 x (ix2 i j) = x (ix2 i 0) :=
  broadcastInDim_apply _ _ x (ix2 i j) (ix2 i 0) (fun a => match a with | ⟨0, _⟩ => rfl | ⟨1, _⟩ => rfl)

/-- A row copied down the columns reads, at (i, j), the row's entry j. -/
theorem bcastRow_apply (x : S1x10000.Idx → α) (i j : Fin 10000) :
    broadcastInDim S10000x10000 ![0, 1] bcast_S1x10000_S10000x10000_0_1 x (ix2 i j) = x (ix2 0 j) :=
  broadcastInDim_apply _ _ x (ix2 i j) (ix2 0 j) (fun a => match a with | ⟨0, _⟩ => rfl | ⟨1, _⟩ => rfl)

/-- A vector stood up as a column reads, at (i, 0), the vector's entry i. -/
theorem asCol_apply (x : S10000.Idx → α) (i : Fin 10000) :
    broadcastInDim S10000x1 ![0] bcast_S10000_S10000x1_0 x (ix2 i 0) = x (ix1 i) :=
  broadcastInDim_apply _ _ x (ix2 i 0) (ix1 i) (fun a => match a with | ⟨0, _⟩ => rfl)

/-- A product of an m × k by a k × n matrix reads, at (a, b), the sum over the contracted coordinate. -/
theorem dot_apply {m k n : Nat} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (F := Ideal) (⟨[1], [0], [0], [1], [], [], w⟩ : DotDims _ _ _) none A B (ix2 a b)
      = ∑ c : Fin k, A (ix2 a c) * B (ix2 c b) :=
  StackMember.dotGeneral_plain_apply none A B a b

end Layout

/-- The word of -∞ reads as the bottom of the extended reals. -/
theorem ofBits_negInf : Ideal.ofBits .f32 0xFF800000#32 = (⊥ : EReal) := by simp [Ideal.ofBits, Ideal.ieee]

/-- A row index with the column put back is (i, k). -/
theorem lift_row (h : S10000x10000.Reduces [1] S10000) (i : Fin 10000) (k : Fin (S10000x10000.size 1)) :
    h.lift (ix1 i) k = ix2 i (⟨k.val, k.isLt⟩ : Fin 10000) := by
  funext c; apply Fin.ext
  fin_cases c <;> rfl

theorem reduces_row : S10000x10000.Reduces [1] S10000 := by decide

/-! ### The arrays, as the program computes them from the scores -/

/-- The row maxima: the reduction from -∞, then the maximum with a splat of -∞. -/
def rowMaxArr (E : FVec Ideal S10000x10000 .f32) : FVec Ideal S10000 .f32 :=
  maximumf (broadcastInDim S10000 ![] bcast_S_S10000 (constant (F := Ideal) S_ .f32 0xFF800000#32))
    (Host.reduce FloatOps.maximumf E (constant (F := Ideal) S_ .f32 0xFF800000#32) reducesTo_S10000x10000_S10000_d1 h_S_)

/-- The shifted exponentials. -/
def expArr (E : FVec Ideal S10000x10000 .f32) : FVec Ideal S10000x10000 .f32 :=
  Host.exp (subf E (broadcastInDim S10000x10000 ![0, 1] bcast_S10000x1_S10000x10000_0_1
    (broadcastInDim S10000x1 ![0] bcast_S10000_S10000x1_0 (rowMaxArr E))))

/-- The row sums of the shifted exponentials, from 0. -/
def rowSumArr (E : FVec Ideal S10000x10000 .f32) : FVec Ideal S10000 .f32 :=
  Host.reduceAdd (expArr E) (constant (F := Ideal) S_ .f32 0x00000000#32) reducesTo_S10000x10000_S10000_d1 h_S_

/-- The attention matrix: the shifted exponentials over their row sums. -/
def attnArr (E : FVec Ideal S10000x10000 .f32) : FVec Ideal S10000x10000 .f32 :=
  Host.divf (expArr E) (broadcastInDim S10000x10000 ![0, 1] bcast_S10000x1_S10000x10000_0_1
    (broadcastInDim S10000x1 ![0] bcast_S10000_S10000x1_0 (rowSumArr E)))

/-- The output: the attention matrix times the value matrix. -/
def outArr (E : FVec Ideal S10000x10000 .f32) (Vm : FVec Ideal S10000x128 .f32) : FVec Ideal S10000x128 .f32 :=
  Host.dotGeneral dot_S10000x10000_S10000x128_S10000x128_1_0_0_1_n_n none (attnArr E) Vm

/-! ### Read at an index -/

/-- The scores as a function of the two coordinates. -/
abbrev entries (E : FVec Ideal S10000x10000 .f32) : Fin 10000 → Fin 10000 → EReal := fun i j => E (ix2 i j)

theorem rowMaxArr_apply (E : FVec Ideal S10000x10000 .f32) (i : Fin 10000) :
    rowMaxArr E (ix1 i) = rowMax (entries E) i := by
  unfold rowMaxArr
  rw [maximumf_apply, broadcastInDim_scalar_apply, constant_apply, ofBits_negInf, max_bot_left,
    Host.reduce_eq_fold_single FloatOps.maximumf E _ reducesTo_S10000x10000_S10000_d1 reduces_row h_S_]
  have hf : (E ∘ reduces_row.lift (ix1 i)) = fun k : Fin 10000 => E (ix2 i k) :=
    funext fun k => congrArg E (lift_row reduces_row i k)
  have h0 : constant (F := Ideal) S_ .f32 0xFF800000#32 (Shape.Idx.first h_S_) = (⊥ : EReal) := ofBits_negInf
  rw [h0]
  exact congrArg (fun f => Finset.fold max (⊥ : EReal) f (Finset.univ : Finset (Fin 10000))) hf

theorem expArr_apply (E : FVec Ideal S10000x10000 .f32) (i j : Fin 10000) :
    expArr E (ix2 i j) = expo (entries E) i j := by
  unfold expArr expo
  show Ideal.exp (subf E _ (ix2 i j)) = _
  rw [subf_apply, bcastCol_apply, asCol_apply, rowMaxArr_apply]

theorem rowSumArr_apply (E : FVec Ideal S10000x10000 .f32) (i : Fin 10000) :
    rowSumArr E (ix1 i) = rowSum (entries E) i := by
  unfold rowSumArr rowSum
  rw [hostReduceAdd_apply, Ideal.hostReduceAdd_single reducesTo_S10000x10000_S10000_d1 reduces_row, constant_apply,
    Ideal.ofBits_zero_f32, zero_add]
  exact Finset.sum_congr rfl fun k _ => (congrArg (expArr E) (lift_row reduces_row i k)).trans (expArr_apply E i _)

theorem attnArr_apply (E : FVec Ideal S10000x10000 .f32) (i j : Fin 10000) :
    attnArr E (ix2 i j) = Ideal.div (expo (entries E) i j) (rowSum (entries E) i) := by
  unfold attnArr
  rw [hostDivf_apply, expArr_apply, bcastCol_apply, asCol_apply, rowSumArr_apply]

theorem outArr_apply (E : FVec Ideal S10000x10000 .f32) (Vm : FVec Ideal S10000x128 .f32) (i : Fin 10000) (q : Fin 128) :
    outArr E Vm (ix2 i q) = ∑ j : Fin 10000, attnArr E (ix2 i j) * Vm (ix2 j q) :=
  dot_apply _ (attnArr E) Vm i q

end Cert.ReferenceIdeal.RefRead

end
-- ==== Proof.RefReadScore.lean ====
/-
  The first half of the plain array program, from the five arguments to the matrix of edge scores: the projection
  Wh = h·W, the concatenation [Wh | emb], the two half-scores as products of the concatenation with the two halves of
  the attention weights, their sum over all pairs of nodes, the leaky rectifier, and the masking by the adjacency
  matrix. Each array is defined by the operations the program applies and read at an index.
-/
import proofs.«122247_j47983374631488_2_alg».proof.Proof.RefReadSoftmax

noncomputable section

namespace Cert.ReferenceIdeal.RefRead

open Cert.ReferenceIdeal Cert.ReferenceIdeal.Gen Idealize.ShloMosaic Idealize.ShloMosaic.ValueIdx Cert.Attn

/-! ### The arrays, as the program computes them -/

/-- Wh = h·W. -/
def projArr (h : FVec Ideal S10000x256 .f32) (Wm : FVec Ideal S256x128 .f32) : FVec Ideal S10000x128 .f32 :=
  Host.dotGeneral dot_S10000x256_S256x128_S10000x128_1_0_0_1_n_n none h Wm

/-- [Wh | emb], joined along the columns. -/
def catArr (Wh emb : FVec Ideal S10000x128 .f32) : FVec Ideal S10000x256 .f32 :=
  concatenate S10000x256 1 [⟨S10000x128, Wh⟩, ⟨S10000x128, emb⟩] concatenates_S10000x128_S10000x128_S10000x256_d1

/-- The source half-scores: the concatenation times the first 256 attention weights. -/
def srcArr (Wh emb : FVec Ideal S10000x128 .f32) (a : FVec Ideal S512x1 .f32) : FVec Ideal S10000x1 .f32 :=
  Host.dotGeneral dot_S10000x256_S256x1_S10000x1_1_0_0_1_n_n none (catArr Wh emb)
    (extractStridedSlice S256x1 ![0, 0] a slices_S512x1_S256x1_0_0)

/-- The destination half-scores: the concatenation times the last 256 attention weights. -/
def dstArr (Wh emb : FVec Ideal S10000x128 .f32) (a : FVec Ideal S512x1 .f32) : FVec Ideal S10000x1 .f32 :=
  Host.dotGeneral dot_S10000x256_S256x1_S10000x1_1_0_0_1_n_n none (catArr Wh emb)
    (extractStridedSlice S256x1 ![256, 0] a slices_S512x1_S256x1_256_0)

/-- The sum of a source and a destination half-score, for every pair of nodes. -/
def sumArr (Wh emb : FVec Ideal S10000x128 .f32) (a : FVec Ideal S512x1 .f32) : FVec Ideal S10000x10000 .f32 :=
  addf (broadcastInDim S10000x10000 ![0, 1] bcast_S10000x1_S10000x10000_0_1 (srcArr Wh emb a))
    (broadcastInDim S10000x10000 ![0, 1] bcast_S1x10000_S10000x10000_0_1
      (transpose S1x10000 [1, 0] (dstArr Wh emb a) transposes_S10000x1_S1x10000_1_0))

/-- The leaky rectifier, entry by entry: x where x ≥ 0, the slope times x elsewhere. -/
def leakyArr (x : FVec Ideal S10000x10000 .f32) : FVec Ideal S10000x10000 .f32 :=
  select (cmpf .oge x (broadcastInDim S10000x10000 ![] bcast_S_S10000x10000 (constant (F := Ideal) S_ .f32 0x00000000#32)))
    x (mulf (broadcastInDim S10000x10000 ![] bcast_S_S10000x10000 (constant (F := Ideal) S_ .f32 0x3E4CCCCD#32)) x)

/-- The masking: x on the edges (adjacency > 0), the finite stand-in elsewhere. -/
def scoreArr (adj : IVec S10000x10000 32) (x : FVec Ideal S10000x10000 .f32) : FVec Ideal S10000x10000 .f32 :=
  select (cmpi .sgt adj (broadcastInDim S10000x10000 ![] bcast_S_S10000x10000 (constantI S_ 32 0#32)))
    x (broadcastInDim S10000x10000 ![] bcast_S_S10000x10000 (constant (F := Ideal) S_ .f32 0xD9FFCB9E#32))

/-! ### Read at an index -/

theorem projArr_eq (h : FVec Ideal S10000x256 .f32) (Wm : FVec Ideal S256x128 .f32) : projArr h Wm = proj h Wm := by
  funext idx
  obtain ⟨p, q, rfl⟩ : ∃ (p : Fin 10000) (q : Fin 128), idx = ix2 p q := ⟨idx 0, idx 1, eq_ix2 idx⟩
  exact dot_apply _ h Wm p q

theorem catArr_apply (Wh emb : FVec Ideal S10000x128 .f32) (i : Fin 10000) (k : Fin 256) :
    catArr Wh emb (ix2 i k) = cat Wh emb i k := by
  unfold catArr cat
  split
  · next hk =>
    exact concatenate_pair_apply_left (1 : Fin 2) Wh emb _ (ix2 i k) rfl (ix2 i ⟨k.val, hk⟩)
      (fun b => match b with | ⟨0, _⟩ => rfl | ⟨1, _⟩ => rfl)
  · next hk =>
    exact concatenate_pair_apply_right (1 : Fin 2) Wh emb _ (ix2 i k) rfl rfl (ix2 i ⟨k.val - 128, by omega⟩)
      (fun b => match b with | ⟨0, _⟩ => fun _ => rfl | ⟨1, _⟩ => fun hb => absurd rfl hb)
      (by show (k.val - 128) + 128 = k.val; omega)

theorem srcArr_apply (Wh emb : FVec Ideal S10000x128 .f32) (a : FVec Ideal S512x1 .f32) (i : Fin 10000) :
    srcArr Wh emb a (ix2 i 0) = half256 Wh emb a 0 (by omega) i := by
  unfold srcArr half256
  refine (dot_apply _ (catArr Wh emb) _ i 0).trans ?_
  refine Finset.sum_congr rfl fun k _ => ?_
  rw [catArr_apply, slice2_axis0_apply 0 a _ k 0 ⟨0 + k.val, by omega⟩ rfl]

theorem dstArr_apply (Wh emb : FVec Ideal S10000x128 .f32) (a : FVec Ideal S512x1 .f32) (i : Fin 10000) :
    dstArr Wh emb a (ix2 i 0) = half256 Wh emb a 256 (by omega) i := by
  unfold dstArr half256
  refine (dot_apply _ (catArr Wh emb) _ i 0).trans ?_
  refine Finset.sum_congr rfl fun k _ => ?_
  rw [catArr_apply, slice2_axis0_apply 256 a _ k 0 ⟨256 + k.val, by omega⟩ rfl]

theorem sumArr_apply (Wh emb : FVec Ideal S10000x128 .f32) (a : FVec Ideal S512x1 .f32) (i j : Fin 10000) :
    sumArr Wh emb a (ix2 i j) = half256 Wh emb a 0 (by omega) i + half256 Wh emb a 256 (by omega) j := by
  unfold sumArr
  rw [addf_apply, bcastCol_apply, bcastRow_apply, transpose_ix2_apply, srcArr_apply, dstArr_apply]

theorem leakyArr_apply (x : FVec Ideal S10000x10000 .f32) (idx : S10000x10000.Idx) :
    leakyArr x idx = leakyGe (x idx) := by
  unfold leakyArr leakyGe Cert.Attn.slope
  rw [select_apply, cmpf_apply, mulf_apply, broadcastInDim_scalar_apply, broadcastInDim_scalar_apply, constant_apply,
    constant_apply, Ideal.ofBits_zero_f32]
  rfl

theorem scoreArr_apply (adj : IVec S10000x10000 32) (x : FVec Ideal S10000x10000 .f32) (idx : S10000x10000.Idx) :
    scoreArr adj x idx = Scalar.select (IntOp.cmpi .sgt (adj idx) 0#32) (x idx) masked := by
  unfold scoreArr Cert.Attn.masked
  rw [select_apply, broadcastInDim_scalar_apply, constant_apply]
  rfl

/-- The scores the program computes are the specification's. -/
theorem scoreArr_eq_scoreRef (h : FVec Ideal S10000x256 .f32) (adj : IVec S10000x10000 32) (emb : FVec Ideal S10000x128 .f32)
    (Wm : FVec Ideal S256x128 .f32) (a : FVec Ideal S512x1 .f32) :
    entries (scoreArr adj (leakyArr (sumArr (projArr h Wm) emb a))) = scoreRef h adj emb Wm a := by
  funext i j
  show scoreArr adj (leakyArr (sumArr (projArr h Wm) emb a)) (ix2 i j) = _
  rw [scoreArr_apply, leakyArr_apply, sumArr_apply, projArr_eq]
  rfl

end Cert.ReferenceIdeal.RefRead

end
-- ==== Proof.RefValue.lean ====
/-
  The plain array program's two results as functions of its five arguments. After the forty operations the score
  buffer holds the masked, rectified sums of half-scores; the attention buffer the row-wise softmax of the scores; the
  output buffer the attention matrix times Wh; the arguments are untouched. Read index by index these are the
  specification's scoreRef, attnRef and outRef.
-/
import proofs.«122247_j47983374631488_2_alg».proof.Proof.RefRun
import proofs.«122247_j47983374631488_2_alg».proof.Proof.RefReadScore

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Attn Cert.ReferenceIdeal.RefRun Cert.ReferenceIdeal.RefRead

/-! ### The buffers after the run, as the arrays of the two halves -/

theorem proj_eq (V : Valuation τ sig (Elt Ideal)) :
    after (ops (F := Ideal)) V (main_v0 : DevRef τ sig) = projArr (V (main_arg0 : DevRef τ sig)) (V (main_arg3 : DevRef τ sig)) := by
  unfold projArr
  after_results_simp

theorem score_eq (V : Valuation τ sig (Elt Ideal)) :
    after (ops (F := Ideal)) V (main_v13 : DevRef τ sig)
      = scoreArr (V (main_arg1 : DevRef τ sig)) (leakyArr (sumArr (projArr (V (main_arg0 : DevRef τ sig)) (V (main_arg3 : DevRef τ sig))) (V (main_arg2 : DevRef τ sig)) (V (main_arg4 : DevRef τ sig)))) := by
  after_results_simp
  rfl

theorem attn_eq (V : Valuation τ sig (Elt Ideal)) :
    after (ops (F := Ideal)) V (main_v24 : DevRef τ sig) = attnArr (after (ops (F := Ideal)) V (main_v13 : DevRef τ sig)) := by
  unfold attnArr rowSumArr expArr rowMaxArr
  after_results_simp

theorem out_eq (V : Valuation τ sig (Elt Ideal)) :
    after (ops (F := Ideal)) V (main_v25 : DevRef τ sig)
      = outArr (after (ops (F := Ideal)) V (main_v13 : DevRef τ sig)) (after (ops (F := Ideal)) V (main_v0 : DevRef τ sig)) := by
  unfold outArr attnArr rowSumArr expArr rowMaxArr
  after_results_simp

theorem arg0_eq (V : Valuation τ sig (Elt Ideal)) :
    after (ops (F := Ideal)) V (main_arg0 : DevRef τ sig) = (V (main_arg0 : DevRef τ sig)) := by
  after_results_simp

theorem arg1_eq (V : Valuation τ sig (Elt Ideal)) :
    after (ops (F := Ideal)) V (main_arg1 : DevRef τ sig) = (V (main_arg1 : DevRef τ sig)) := by
  after_results_simp

theorem arg2_eq (V : Valuation τ sig (Elt Ideal)) :
    after (ops (F := Ideal)) V (main_arg2 : DevRef τ sig) = (V (main_arg2 : DevRef τ sig)) := by
  after_results_simp

theorem arg3_eq (V : Valuation τ sig (Elt Ideal)) :
    after (ops (F := Ideal)) V (main_arg3 : DevRef τ sig) = (V (main_arg3 : DevRef τ sig)) := by
  after_results_simp

theorem arg4_eq (V : Valuation τ sig (Elt Ideal)) :
    after (ops (F := Ideal)) V (main_arg4 : DevRef τ sig) = (V (main_arg4 : DevRef τ sig)) := by
  after_results_simp

/-! ### The two results as the specification's functions -/

theorem attn_value (V : Valuation τ sig (Elt Ideal)) :
    after (ops (F := Ideal)) V (main_v24 : DevRef τ sig) = attnRef (V (main_arg0 : DevRef τ sig)) (V (main_arg1 : DevRef τ sig)) (V (main_arg2 : DevRef τ sig)) (V (main_arg3 : DevRef τ sig)) (V (main_arg4 : DevRef τ sig)) := by
  rw [attn_eq, score_eq]
  funext idx
  obtain ⟨i, j, rfl⟩ : ∃ (i j : Fin 10000), idx = ix2 i j := ⟨idx 0, idx 1, eq_ix2 idx⟩
  rw [attnArr_apply, scoreArr_eq_scoreRef]
  rfl

theorem out_value (V : Valuation τ sig (Elt Ideal)) :
    after (ops (F := Ideal)) V (main_v25 : DevRef τ sig) = outRef (V (main_arg0 : DevRef τ sig)) (V (main_arg1 : DevRef τ sig)) (V (main_arg2 : DevRef τ sig)) (V (main_arg3 : DevRef τ sig)) (V (main_arg4 : DevRef τ sig)) := by
  rw [out_eq, score_eq, proj_eq]
  funext idx
  obtain ⟨i, q, rfl⟩ : ∃ (i : Fin 10000) (q : Fin 128), idx = ix2 i q := ⟨idx 0, idx 1, eq_ix2 idx⟩
  rw [outArr_apply]
  unfold outRef attnRef
  refine Finset.sum_congr rfl fun j _ => ?_
  rw [attnArr_apply, scoreArr_eq_scoreRef, projArr_eq]

/-- From any memory with zero counters, every weakly fair execution of the plain array program terminates with the
    output buffer at outRef of the five arguments, the attention buffer at attnRef of them, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = Cert.Attn.outRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v24) = Cert.Attn.attnRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c =>
      ⟨(h c main_v25).trans (out_value (launchContents m c)),
       (h c main_v24).trans (attn_value (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c))⟩)
    (RefRun.run m ρ)

end Cert.ReferenceIdeal.RefValue

end
-- ==== Proof.LibIdealReal.lean ====
/-
  Real-valued extended reals under the exact float operations.

  At the exact instance a float is an extended real and an operation may leave the reals only at a corner: a sum or a
  product never does, the exponential of a real is a positive real, a quotient stays real when the divisor is a
  nonzero real (`x / 0` is an infinity), and the reciprocal square root stays real when its argument is a POSITIVE
  real (`rsqrt 0 = ⊤`, and a negative argument reads `⊥`). So a value computed from real inputs by sums, products,
  exponentials, quotients by positive quantities and reciprocal square roots of positive quantities is again real:
  the fact a layer of a normalised attention network needs before the distributive law may be used on its output.
-/
import Idealize.ShloMosaic.PureOps.Ideal
import Mathlib.Data.EReal.Inv

namespace IdealReal

open Idealize.ShloMosaic

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

/-- A finite sum of real values is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exponential of a real is the real exponential. -/
theorem exp_coe (r : ℝ) : Ideal.exp (r : EReal) = ((Real.exp r : ℝ) : EReal) := rfl

theorem isReal_exp {x : EReal} (hx : IsReal x) : IsReal (Ideal.exp x) := by
  obtain ⟨a, rfl⟩ := hx
  exact ⟨Real.exp a, exp_coe a⟩

/-- The exponential of a real is strictly positive. -/
theorem exp_pos {x : EReal} (hx : IsReal x) : 0 < Ideal.exp x := by
  obtain ⟨a, rfl⟩ := hx
  rw [exp_coe]
  exact_mod_cast Real.exp_pos a

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The reciprocal square root of a positive real is the real one. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

theorem isReal_rsqrt {x : EReal} (hx : IsReal x) (hpos : 0 < x) : IsReal (Ideal.rsqrt x) := by
  obtain ⟨a, rfl⟩ := hx
  exact ⟨(Real.sqrt a)⁻¹, rsqrt_coe_pos (by exact_mod_cast hpos)⟩

/-- A real value plus a positive real value is positive when the first is nonnegative: the softmax denominator
    `∑ exp + ε` and the variance `var + ε` never vanish. -/
theorem add_pos_of_nonneg_of_pos {x e : EReal} (hx : 0 ≤ x) (he : 0 < e) : 0 < x + e :=
  lt_of_lt_of_le he (le_add_of_nonneg_left hx)

/-- A finite sum of nonnegative values is nonnegative. -/
theorem sum_nonneg {ι : Type*} (s : Finset ι) (f : ι → EReal) (h : ∀ i ∈ s, 0 ≤ f i) : 0 ≤ ∑ i ∈ s, f i :=
  Finset.sum_nonneg h

/-- The square of a real value is nonnegative. -/
theorem mul_self_nonneg {x : EReal} (hx : IsReal x) : 0 ≤ x * x := by
  obtain ⟨a, rfl⟩ := hx
  rw [← EReal.coe_mul]
  exact_mod_cast _root_.mul_self_nonneg a

end IdealReal
-- ==== Proof.LibERealSums.lean ====
/-
  Finite sums of real-valued extended reals.

  An extended real that is the image of a real number adds and multiplies as the real does, so a finite sum of
  products of such values is the image of the real sum of products. Two consequences are stated here: the
  coercion commutes with finite sums, and the product of a row vector with the product of two matrices may be
  bracketed either way, so that a score `(x · A) · p` can be computed as `x · (A · p)`.
  Neither survives an infinite entry (`⊤ + ⊥ = ⊥` and `0 · ⊤ = 0` break distributivity), which is why both are
  stated over real entries.
-/
import Mathlib.Data.EReal.Inv
import Mathlib.Analysis.SpecialFunctions.Pow.Real

namespace ERealSums

open Finset

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real-valued extended reals is the coercion of the real sum of products. -/
theorem sum_coe_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- Associativity of a row vector times two matrices, entry by entry: contracting `x` with `a` first and the
    result with `p`, or `a` with `p` first and `x` with the result, gives the same extended real when every
    entry is real. Over the reals this is `∑ₖ (∑ⱼ xⱼ aⱼₖ) pₖ = ∑ⱼ xⱼ (∑ₖ aⱼₖ pₖ)`: distribute, swap the two sums. -/
theorem row_mul_assoc {J K : Type*} [Fintype J] [Fintype K] (x : J → ℝ) (a : J → K → ℝ) (p : K → ℝ) :
    ∑ k, (∑ j, (x j : EReal) * (a j k : EReal)) * (p k : EReal)
      = ∑ j, (x j : EReal) * ∑ k, (a j k : EReal) * (p k : EReal) := by
  have hl : ∀ k, (∑ j, (x j : EReal) * (a j k : EReal)) * (p k : EReal)
      = (((∑ j, x j * a j k) * p k : ℝ) : EReal) := fun k => by
    rw [sum_coe_mul_coe, EReal.coe_mul]
  have hr : ∀ j, (x j : EReal) * ∑ k, (a j k : EReal) * (p k : EReal)
      = ((x j * ∑ k, a j k * p k : ℝ) : EReal) := fun j => by
    rw [sum_coe_mul_coe, EReal.coe_mul]
  simp only [hl, hr, ← coe_sum]
  congr 1
  simp only [Finset.sum_mul, Finset.mul_sum]
  rw [Finset.sum_comm]
  exact Finset.sum_congr rfl fun j _ => Finset.sum_congr rfl fun k _ => by ring

end ERealSums
-- ==== Proof.AgreeScalar.lean ====
/-
  Scalar facts behind the agreement of the two spellings of the attention layer.

  The two leaky rectifiers differ only in which branch they take at 0, where both branches give 0; a rectified real
  is real; the score of an edge or a non-edge is real when the rectified sum is; and multiplying a real by the
  reciprocal of a nonzero real is dividing by it.
-/
import proofs.«122247_j47983374631488_2_alg».proof.Proof.Spec
import proofs.«122247_j47983374631488_2_alg».proof.Proof.LibIdealReal
import proofs.«122247_j47983374631488_2_alg».proof.Proof.LibERealSums

namespace Cert.Attn

open Idealize.ShloMosaic IdealReal

/-- The negative slope is a real number: its word has exponent field 124, neither 0 nor 255. -/
theorem isReal_slope : IsReal slope := by
  unfold slope Ideal.ofBits Ideal.ieee
  simp only []
  rw [if_neg (by decide), if_neg (by decide)]
  exact ⟨_, rfl⟩

/-- The stand-in score of a non-edge is a real number: its word has exponent field 179. -/
theorem isReal_masked : IsReal masked := by
  unfold masked Ideal.ofBits Ideal.ieee
  simp only []
  rw [if_neg (by decide), if_neg (by decide)]
  exact ⟨_, rfl⟩

/-- The two rectifiers agree everywhere: they can differ only at 0, where one returns 0 and the other slope · 0 = 0. -/
theorem leakyGt_eq_leakyGe (x : EReal) : leakyGt x = leakyGe x := by
  unfold leakyGt leakyGe Scalar.select Ideal.cmp
  rcases lt_trichotomy x 0 with h | h | h
  · have h1 : ¬ (0 : EReal) < x := not_lt.mpr h.le
    have h2 : ¬ (0 : EReal) ≤ x := not_le.mpr h
    simp [h1, h2]
  · subst h
    simp
  · have h2 : (0 : EReal) ≤ x := h.le
    simp [h, h2]

/-- A rectified real is real. -/
theorem isReal_leakyGe {x : EReal} (hx : IsReal x) : IsReal (leakyGe x) := by
  unfold leakyGe Scalar.select
  split
  · exact hx
  · exact isReal_slope.mul hx

/-- A score is real when the rectified sums are. -/
theorem isReal_score (adj : Arr2 10000 10000 (BitVec 32)) (act : EReal → EReal) (s d : Fin 10000 → EReal)
    (hact : ∀ x, IsReal x → IsReal (act x)) (hs : ∀ i, IsReal (s i)) (hd : ∀ j, IsReal (d j)) (i j : Fin 10000) :
    IsReal (score adj act s d i j) := by
  unfold score Scalar.select
  split
  · exact hact _ ((hs i).add (hd j))
  · exact isReal_masked

/-- Multiplying a real by the reciprocal of a nonzero real is dividing by it. -/
theorem mul_div_one {p l : EReal} (hp : IsReal p) (hl : IsReal l) (h0 : l ≠ 0) :
    p * Ideal.div 1 l = Ideal.div p l := by
  obtain ⟨a, rfl⟩ := hp
  obtain ⟨b, rfl⟩ := hl
  have hb : b ≠ 0 := by exact_mod_cast h0
  rw [← EReal.coe_one, div_coe_coe 1 hb, div_coe_coe a hb, ← EReal.coe_mul, mul_one_div]

/-- A row of reals times a column of reals, then times the reciprocal of a nonzero real, is the row divided entry by
    entry and then multiplied by the column: over the reals, (∑ⱼ pⱼ vⱼ) · (1/l) = ∑ⱼ (pⱼ/l) vⱼ. -/
theorem sum_mul_div_one {ι : Type*} [Fintype ι] (p v : ι → EReal) {l : EReal}
    (hp : ∀ j, IsReal (p j)) (hv : ∀ j, IsReal (v j)) (hl : IsReal l) (h0 : l ≠ 0) :
    (∑ j, p j * v j) * Ideal.div 1 l = ∑ j, Ideal.div (p j) l * v j := by
  choose P hP using hp
  choose V hV using hv
  obtain ⟨b, rfl⟩ := hl
  have hb : b ≠ 0 := by exact_mod_cast h0
  have hL : (∑ j, p j * v j) * Ideal.div 1 (b : EReal) = (((∑ j, P j * V j) * (1 / b) : ℝ) : EReal) := by
    rw [← EReal.coe_one, div_coe_coe 1 hb, EReal.coe_mul, ← ERealSums.sum_coe_mul_coe]
    congr 1
    exact Finset.sum_congr rfl fun j _ => by rw [hP j, hV j]
  have hR : ∀ j, Ideal.div (p j) (b : EReal) * v j = ((P j / b * V j : ℝ) : EReal) := fun j => by
    rw [hP j, hV j, div_coe_coe (P j) hb, EReal.coe_mul]
  rw [hL]
  simp only [hR]
  rw [← ERealSums.coe_sum]
  congr 1
  rw [Finset.sum_mul]
  exact Finset.sum_congr rfl fun j _ => by ring

end Cert.Attn
-- ==== Proof.AgreeHalf.lean ====
/-
  The projected features are real, and the two spellings of a half-score agree.

  A half-score is a sum over the 256 columns of [Wh | emb] against a run of 256 attention weights. Cutting the sum
  at column 128 gives the sum over the columns of Wh against the first 128 weights of the run plus the sum over the
  columns of emb against the last 128: only a re-bracketing of a finite sum, valid for any entries.
-/
import proofs.«122247_j47983374631488_2_alg».proof.Proof.Spec
import proofs.«122247_j47983374631488_2_alg».proof.Proof.LibIdealReal
import Mathlib.Algebra.BigOperators.Fin

namespace Cert.Attn

open Idealize.ShloMosaic Idealize.ShloMosaic.ValueIdx IdealReal

/-- Wh = h·W is real when h and W are. -/
theorem isReal_proj (h : Arr2 10000 256 EReal) (W : Arr2 256 128 EReal)
    (hh : ∀ i, IsReal (h i)) (hW : ∀ i, IsReal (W i)) (i) : IsReal (proj h W i) := by
  unfold proj
  exact isReal_sum _ _ fun k _ => (hh _).mul (hW _)

/-- Column k < 128 of [Wh | emb] is column k of Wh. -/
theorem cat_lo (Wh emb : Arr2 10000 128 EReal) (i : Fin 10000) (k : Fin 128) (hk : k.val < 256) :
    cat Wh emb i ⟨k.val, hk⟩ = Wh (ix2 i k) := by
  unfold cat
  rw [dif_pos k.isLt]

/-- Column 128 + k of [Wh | emb] is column k of emb. -/
theorem cat_hi (Wh emb : Arr2 10000 128 EReal) (i : Fin 10000) (k : Fin 128) (hk : 128 + k.val < 256) :
    cat Wh emb i ⟨128 + k.val, hk⟩ = emb (ix2 i k) := by
  unfold cat
  have h1 : ¬ (128 + k.val < 128) := by omega
  rw [dif_neg h1]
  simp only [Nat.add_sub_cancel_left, Fin.eta]

/-- A sum over 256 columns is the sum over the first 128 plus the sum over the last 128. -/
theorem sum_256_split {M : Type*} [AddCommMonoid M] (F : Fin 256 → M) :
    ∑ k : Fin 256, F k
      = (∑ k : Fin 128, F ⟨k.val, by omega⟩) + ∑ k : Fin 128, F ⟨128 + k.val, by omega⟩ :=
  Fin.sum_univ_add (a := 128) (b := 128) F

/-- The two spellings of a half-score agree, for any entries and either offset. -/
theorem half128_eq_half256 (Wh emb : Arr2 10000 128 EReal) (a : Arr2 512 1 EReal) (off : Nat)
    (hoff : off + 256 ≤ 512) (i : Fin 10000) :
    half128 Wh emb a off hoff i = half256 Wh emb a off hoff i := by
  unfold half128 half256
  rw [sum_256_split]
  refine congrArg₂ (· + ·) (Finset.sum_congr rfl fun k _ => ?_) (Finset.sum_congr rfl fun k _ => ?_)
  · rw [cat_lo]
  · have e : ∀ p1 p2, (⟨off + 128 + k.val, p1⟩ : Fin 512) = ⟨off + (128 + k.val), p2⟩ :=
      fun _ _ => Fin.ext (Nat.add_assoc off 128 k.val)
    rw [cat_hi]
    exact congrArg (fun t => emb (ix2 i k) * a (ix2 t 0)) (e _ _)

/-- A half-score of real entries is real. -/
theorem isReal_half256 (Wh emb : Arr2 10000 128 EReal) (a : Arr2 512 1 EReal) (off : Nat)
    (hoff : off + 256 ≤ 512) (hWh : ∀ i, IsReal (Wh i)) (he : ∀ i, IsReal (emb i)) (ha : ∀ i, IsReal (a i))
    (i : Fin 10000) : IsReal (half256 Wh emb a off hoff i) := by
  unfold half256
  refine isReal_sum _ _ fun k _ => IsReal.mul ?_ (ha _)
  unfold cat
  split
  · exact hWh _
  · exact he _

end Cert.Attn
-- ==== Proof.AgreeRow.lean ====
/-
  Rows of real scores: the row maximum, the shifted exponentials and their sum.

  The greatest of a nonempty finite family of reals is one of them, so the maximum of a row of 10000 real scores is
  real; each shifted exponential is then the exponential of a real, a positive real; and the row sum, a finite sum of
  positive reals over a nonempty index set, is a positive real, in particular not 0.
-/
import proofs.«122247_j47983374631488_2_alg».proof.Proof.Spec
import proofs.«122247_j47983374631488_2_alg».proof.Proof.LibIdealReal

namespace Cert.Attn

open Idealize.ShloMosaic IdealReal

/-- The greatest of a nonempty finite family of reals is one of them, hence real. -/
theorem isReal_fold_max {ι : Type*} (s : Finset ι) (hs : s.Nonempty) (f : ι → EReal) (hf : ∀ j, IsReal (f j)) :
    IsReal (s.fold max ⊥ f) := by
  obtain ⟨j, _, hj⟩ := Finset.exists_mem_eq_sup s hs f
  show IsReal (s.sup f)
  rw [hj]
  exact hf j

variable (e : Fin 10000 → Fin 10000 → EReal)

/-- Every entry of a row is at most the row maximum. -/
theorem le_rowMax (i j : Fin 10000) : e i j ≤ rowMax e i :=
  Finset.le_sup (f := e i) (Finset.mem_univ j)

variable (he : ∀ i j, IsReal (e i j))
include he

theorem isReal_rowMax (i : Fin 10000) : IsReal (rowMax e i) :=
  isReal_fold_max _ ⟨⟨0, by omega⟩, Finset.mem_univ _⟩ (e i) (he i)

theorem isReal_expo (i j : Fin 10000) : IsReal (expo e i j) :=
  isReal_exp ((he i j).sub (isReal_rowMax e he i))

theorem expo_pos (i j : Fin 10000) : 0 < expo e i j :=
  exp_pos ((he i j).sub (isReal_rowMax e he i))

theorem isReal_rowSum (i : Fin 10000) : IsReal (rowSum e i) :=
  isReal_sum _ _ fun j _ => isReal_expo e he i j

theorem rowSum_pos (i : Fin 10000) : 0 < rowSum e i :=
  lt_of_lt_of_le (expo_pos e he i ⟨0, by omega⟩)
    (Finset.single_le_sum (f := fun j => expo e i j) (fun j _ => (expo_pos e he i j).le) (Finset.mem_univ _))

theorem rowSum_ne_zero (i : Fin 10000) : rowSum e i ≠ 0 :=
  (rowSum_pos e he i).ne'

end Cert.Attn
-- ==== Proof.Agree.lean ====
/-
  On real inputs the tiled spelling of the attention layer is the plain one.

  The half-scores agree for any entries (a sum over 256 columns cut at 128) and the two rectifiers agree everywhere,
  so the two score matrices are equal. On real inputs every score is real, hence so are the row maxima, the shifted
  exponentials and the row sums, and a row sum is positive. Then multiplying by the reciprocal of the row sum is
  dividing by it, entry by entry for the attention matrix, and after distributing over the finite sum for the output.
-/
import proofs.«122247_j47983374631488_2_alg».proof.Proof.AgreeScalar
import proofs.«122247_j47983374631488_2_alg».proof.Proof.AgreeHalf
import proofs.«122247_j47983374631488_2_alg».proof.Proof.AgreeRow

namespace Cert.Attn

open Idealize.ShloMosaic Idealize.ShloMosaic.ValueIdx IdealReal

variable (h : Arr2 10000 256 EReal) (adj : Arr2 10000 10000 (BitVec 32)) (emb : Arr2 10000 128 EReal)
  (W : Arr2 256 128 EReal) (a : Arr2 512 1 EReal)

/-- The two score matrices are equal, for any entries. -/
theorem scoreTile_eq_scoreRef :
    scoreTile (srcCol h emb W a) (dstRow h emb W a) adj = scoreRef h adj emb W a := by
  funext i j
  have e1 : srcCol h emb W a (ix2 i 0) = half256 (proj h W) emb a 0 (by omega) i :=
    half128_eq_half256 (proj h W) emb a 0 (by omega) i
  have e2 : dstRow h emb W a (ix2 0 j) = half256 (proj h W) emb a 256 (by omega) j :=
    half128_eq_half256 (proj h W) emb a 256 (by omega) j
  unfold scoreTile scoreRef score
  beta_reduce
  rw [leakyGt_eq_leakyGe, e1, e2]

variable (hh : ∀ i, IsReal (h i)) (he : ∀ i, IsReal (emb i)) (hW : ∀ i, IsReal (W i)) (ha : ∀ i, IsReal (a i))
include hh he hW ha

/-- Every score is real on real inputs. -/
theorem isReal_scoreRef (i j : Fin 10000) : IsReal (scoreRef h adj emb W a i j) :=
  isReal_score adj leakyGe _ _ (fun _ hx => isReal_leakyGe hx)
    (isReal_half256 (proj h W) emb a 0 (by omega) (isReal_proj h W hh hW) he ha)
    (isReal_half256 (proj h W) emb a 256 (by omega) (isReal_proj h W hh hW) he ha) i j

/-- The attention matrices agree on real inputs. -/
theorem attn_agree :
    attnTile (srcCol h emb W a) (dstRow h emb W a) adj = attnRef h adj emb W a := by
  funext idx
  have hS := isReal_scoreRef h adj emb W a hh he hW ha
  unfold attnTile attnRef
  rw [scoreTile_eq_scoreRef]
  exact mul_div_one (isReal_expo _ hS _ _) (isReal_rowSum _ hS _) (rowSum_ne_zero _ hS _)

/-- The layer outputs agree on real inputs. -/
theorem out_agree :
    outTile (srcCol h emb W a) (dstRow h emb W a) adj (proj h W) = outRef h adj emb W a := by
  funext idx
  have hS := isReal_scoreRef h adj emb W a hh he hW ha
  unfold outTile outRef attnRef
  rw [scoreTile_eq_scoreRef]
  exact sum_mul_div_one (fun j => expo (scoreRef h adj emb W a) (idx 0) j) (fun j => proj h W (ix2 j (idx 1)))
    (fun j => isReal_expo _ hS _ j) (fun j => isReal_proj h W hh hW _) (isReal_rowSum _ hS _) (rowSum_ne_zero _ hS _)

end Cert.Attn
-- ==== Proof.Finite.lean ====
/-
  The inputs are finite: from the precondition to "every entry is a real number".

  The precondition computes, for each of the four float arguments, whether every entry x satisfies |x| < +∞, and joins
  the four answers by "and". Over the extended reals |x| is max x (-x), so |x| < +∞ rules out both infinities and leaves
  the image of a real number.
-/
import proofs.«122247_j47983374631488_2_alg».proof.Defs
import proofs.«122247_j47983374631488_2_alg».proof.Proof.LibIdealReal
import proofs.«122247_j47983374631488_2_alg».proof.Proof.Spec
import Idealize.ShloMosaic.Lib.ReduceAll
import Idealize.ShloMosaic.Lib.ValueIdx

namespace Cert.KernelIdeal.Finite

open Idealize.ShloMosaic Idealize.SL.Sem Cert.KernelIdeal

/-- The rank-0 shape has one index. -/
instance : Subsingleton Cert.Pre_finite_inputs.S_.Idx := ⟨fun a b => funext fun d => d.elim0⟩

/-- The f32 word 0x7F800000 is +∞. -/
theorem inf_word : Ideal.ofBits .f32 0x7F800000#32 = (⊤ : EReal) := by
  simp [Ideal.ofBits, Ideal.ieee]

/-- An extended real whose absolute value max x (-x) lies strictly below +∞ is a real. -/
theorem isReal_of_abs_lt_top (x : EReal) (h : max x (-x) < ⊤) : IdealReal.IsReal x := by
  induction x using EReal.rec with
  | bot => simp at h
  | coe r => exact ⟨r, rfl⟩
  | top => simp at h

/-- The comparison |x| < +∞ answering 1 says x is real. -/
theorem isReal_of_cmp (x : EReal)
    (h : Ideal.cmp .olt (max x (-x)) (Ideal.ofBits .f32 0x7F800000#32) = 1#1) : IdealReal.IsReal x := by
  rw [inf_word] at h
  refine isReal_of_abs_lt_top x ?_
  by_contra hn
  simp [Ideal.cmp, hn] at h

/-- One jnp.all(|x| < +∞) that answers 1 makes every entry of x real. -/
theorem all_real {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf x) (broadcastInDim S ![] hb (constant (F := Ideal) Cert.Pre_finite_inputs.S_ .f32 0x7F800000#32)))
      init hr hu j = 1#1) (i : S.Idx) : IdealReal.IsReal (x i) :=
  isReal_of_cmp (x i) (Host.reduce_andi_all _ init hr hu j e i)

/-- The precondition makes every entry of the four float arguments a real number, on every core. -/
theorem finite_of_pre [Cert.Pre_finite_inputs.Facts]
    (m : (ℓ : Loc nD τ sig) → Buf (Elt Ideal) ℓ) (h : Cert.Pre_KernelIdeal m) (c : Dev nD) :
    (∀ i, IdealReal.IsReal ((m ((c.tc : Thread nD τ).loc main_arg0) : Cert.Attn.Arr2 10000 256 EReal) i))
    ∧ (∀ i, IdealReal.IsReal ((m ((c.tc : Thread nD τ).loc main_arg2) : Cert.Attn.Arr2 10000 128 EReal) i))
    ∧ (∀ i, IdealReal.IsReal ((m ((c.tc : Thread nD τ).loc main_arg3) : Cert.Attn.Arr2 256 128 EReal) i))
    ∧ (∀ i, IdealReal.IsReal ((m ((c.tc : Thread nD τ).loc main_arg4) : Cert.Attn.Arr2 512 1 EReal) i)) := by
  have e := congrFun (h c) ValueIdx.ix0
  dsimp only [Cert.Pre_finite_inputs.fn, Cert.Pre_finite_inputs.fn_part1] at e
  obtain ⟨e012, e4⟩ := IntOp.andi_eq_one.1 (show IntOp.andi _ _ = 1#1 from e)
  obtain ⟨e01, e3⟩ := IntOp.andi_eq_one.1 (show IntOp.andi _ _ = 1#1 from e012)
  obtain ⟨e0, e2⟩ := IntOp.andi_eq_one.1 (show IntOp.andi _ _ = 1#1 from e01)
  exact ⟨all_real _ _ _ _ _ _ e0, all_real _ _ _ _ _ _ e2, all_real _ _ _ _ _ _ e3, all_real _ _ _ _ _ _ e4⟩

end Cert.KernelIdeal.Finite
-- ==== Proof.Chunks.lean ====
/-
  A row of 10000 entries read as ten consecutive runs: nine of width 1024 at offsets 0, 1024, …, 8192 and a last one
  of width 784 at offset 9216.

  A sum over the row is the sum of the ten run sums, and the greatest entry of the row is the greatest of the ten run
  maxima. Both are instances of one fact about a sequence `G : ℕ → α`: the aggregate over the first `o + w` terms is
  the aggregate over the first `o` terms combined with the aggregate over the `w` terms `G o, …, G (o + w - 1)`.
  The row is extended to a sequence by a neutral value (0 for sums, -∞ for maxima) so that this fact can be applied
  ten times, peeling one run at a time off the end.
-/
import Mathlib.Algebra.BigOperators.Fin
import Mathlib.Algebra.BigOperators.Intervals
import Mathlib.Data.EReal.Basic

namespace Cert.Attn.Chunks

open Finset

/-- The run of width `w` starting at offset `o` of a row of 10000 entries. -/
def run {α : Type*} (o w : Nat) (h : o + w ≤ 10000) (f : Fin 10000 → α) : Fin w → α :=
  fun j => f ⟨o + j.val, by omega⟩

/-- The row continued by the constant `z` past its last entry. -/
def ext {α : Type*} (z : α) (f : Fin 10000 → α) (j : ℕ) : α :=
  if h : j < 10000 then f ⟨j, h⟩ else z

theorem ext_val {α : Type*} (z : α) (f : Fin 10000 → α) (j : Fin 10000) : ext z f j.val = f j := by
  unfold ext
  rw [dif_pos j.isLt]

theorem ext_run {α : Type*} (z : α) (f : Fin 10000 → α) (o w : Nat) (h : o + w ≤ 10000) (j : Fin w) :
    ext z f (o + j.val) = run o w h f j := by
  unfold ext run
  rw [dif_pos (by omega)]

/-! ### Sums -/

theorem sum_eq_range {M : Type*} [AddCommMonoid M] (f : Fin 10000 → M) :
    ∑ j, f j = ∑ j ∈ range 10000, ext 0 f j := by
  rw [← Fin.sum_univ_eq_sum_range]
  exact Finset.sum_congr rfl fun j _ => (ext_val 0 f j).symm

/-- The first `o + w` terms are the first `o` terms and then the run of width `w` at offset `o`. -/
theorem sum_step {M : Type*} [AddCommMonoid M] (f : Fin 10000 → M) (o w : Nat) (h : o + w ≤ 10000) :
    ∑ j ∈ range (o + w), ext 0 f j = ∑ j ∈ range o, ext 0 f j + ∑ j, run o w h f j := by
  rw [Finset.sum_range_add, ← Fin.sum_univ_eq_sum_range (fun j => ext 0 f (o + j))]
  congr 1
  exact Finset.sum_congr rfl fun j _ => ext_run 0 f o w h j

/-- A sum over the row is the sum of its ten run sums, accumulated from the left starting at 0. -/
theorem sum_runs {M : Type*} [AddCommMonoid M] (f : Fin 10000 → M) :
    ∑ j : Fin 10000, f j =
      ((((((((((0 + ∑ j, run 0 1024 (by omega) f j) + ∑ j, run 1024 1024 (by omega) f j)
        + ∑ j, run 2048 1024 (by omega) f j) + ∑ j, run 3072 1024 (by omega) f j)
        + ∑ j, run 4096 1024 (by omega) f j) + ∑ j, run 5120 1024 (by omega) f j)
        + ∑ j, run 6144 1024 (by omega) f j) + ∑ j, run 7168 1024 (by omega) f j)
        + ∑ j, run 8192 1024 (by omega) f j) + ∑ j, run 9216 784 (by omega) f j) := by
  have e0 : ∑ j ∈ range 0, ext 0 f j = 0 := Finset.sum_range_zero _
  have e1 : ∑ j ∈ range 1024, ext 0 f j = ∑ j ∈ range 0, ext 0 f j + ∑ j, run 0 1024 (by omega) f j :=
    sum_step f 0 1024 (by omega)
  have e2 : ∑ j ∈ range 2048, ext 0 f j = ∑ j ∈ range 1024, ext 0 f j + ∑ j, run 1024 1024 (by omega) f j :=
    sum_step f 1024 1024 (by omega)
  have e3 : ∑ j ∈ range 3072, ext 0 f j = ∑ j ∈ range 2048, ext 0 f j + ∑ j, run 2048 1024 (by omega) f j :=
    sum_step f 2048 1024 (by omega)
  have e4 : ∑ j ∈ range 4096, ext 0 f j = ∑ j ∈ range 3072, ext 0 f j + ∑ j, run 3072 1024 (by omega) f j :=
    sum_step f 3072 1024 (by omega)
  have e5 : ∑ j ∈ range 5120, ext 0 f j = ∑ j ∈ range 4096, ext 0 f j + ∑ j, run 4096 1024 (by omega) f j :=
    sum_step f 4096 1024 (by omega)
  have e6 : ∑ j ∈ range 6144, ext 0 f j = ∑ j ∈ range 5120, ext 0 f j + ∑ j, run 5120 1024 (by omega) f j :=
    sum_step f 5120 1024 (by omega)
  have e7 : ∑ j ∈ range 7168, ext 0 f j = ∑ j ∈ range 6144, ext 0 f j + ∑ j, run 6144 1024 (by omega) f j :=
    sum_step f 6144 1024 (by omega)
  have e8 : ∑ j ∈ range 8192, ext 0 f j = ∑ j ∈ range 7168, ext 0 f j + ∑ j, run 7168 1024 (by omega) f j :=
    sum_step f 7168 1024 (by omega)
  have e9 : ∑ j ∈ range 9216, ext 0 f j = ∑ j ∈ range 8192, ext 0 f j + ∑ j, run 8192 1024 (by omega) f j :=
    sum_step f 8192 1024 (by omega)
  have e10 : ∑ j ∈ range 10000, ext 0 f j = ∑ j ∈ range 9216, ext 0 f j + ∑ j, run 9216 784 (by omega) f j :=
    sum_step f 9216 784 (by omega)
  rw [sum_eq_range, e10, e9, e8, e7, e6, e5, e4, e3, e2, e1, e0]

/-! ### Maxima -/

/-- The fold of `max` from -∞ is the finite supremum. -/
theorem fold_max_eq_sup {ι : Type*} (s : Finset ι) (f : ι → EReal) : s.fold max ⊥ f = s.sup f := rfl

theorem sup_eq_range (f : Fin 10000 → EReal) :
    (univ : Finset (Fin 10000)).sup f = (range 10000).sup (ext ⊥ f) := by
  apply le_antisymm
  · refine Finset.sup_le fun j _ => ?_
    rw [← ext_val ⊥ f j]
    exact Finset.le_sup (f := ext ⊥ f) (mem_range.2 j.isLt)
  · refine Finset.sup_le fun j hj => ?_
    have hj' : j < 10000 := mem_range.1 hj
    have : ext ⊥ f j = f ⟨j, hj'⟩ := ext_val ⊥ f ⟨j, hj'⟩
    rw [this]
    exact Finset.le_sup (f := f) (mem_univ _)

/-- The greatest of the first `o + w` terms is the greater of the greatest of the first `o` terms and the greatest of
    the run of width `w` at offset `o`. -/
theorem sup_step (f : Fin 10000 → EReal) (o w : Nat) (h : o + w ≤ 10000) :
    (range (o + w)).sup (ext ⊥ f) = max ((range o).sup (ext ⊥ f)) ((univ : Finset (Fin w)).sup (run o w h f)) := by
  apply le_antisymm
  · refine Finset.sup_le fun j hj => ?_
    have hj' : j < o + w := mem_range.1 hj
    rcases lt_or_ge j o with h1 | h1
    · exact le_max_of_le_left (Finset.le_sup (f := ext ⊥ f) (mem_range.2 h1))
    · have hw : j - o < w := by omega
      have e : ext ⊥ f j = run o w h f ⟨j - o, hw⟩ := by
        rw [← ext_run ⊥ f o w h ⟨j - o, hw⟩]
        congr 1
        show j = o + (j - o)
        omega
      rw [e]
      exact le_max_of_le_right (Finset.le_sup (f := run o w h f) (mem_univ _))
  · refine max_le (Finset.sup_mono (range_mono (Nat.le_add_right o w))) (Finset.sup_le fun j _ => ?_)
    rw [← ext_run ⊥ f o w h j]
    exact Finset.le_sup (f := ext ⊥ f) (mem_range.2 (by omega))

/-- The greatest entry of the row is the greatest of its ten run maxima, accumulated from the left starting at -∞. -/
theorem max_runs (f : Fin 10000 → EReal) :
    (univ : Finset (Fin 10000)).fold max ⊥ f =
      max (max (max (max (max (max (max (max (max (max ⊥
        (univ.fold max ⊥ (run 0 1024 (by omega) f)))
        (univ.fold max ⊥ (run 1024 1024 (by omega) f)))
        (univ.fold max ⊥ (run 2048 1024 (by omega) f)))
        (univ.fold max ⊥ (run 3072 1024 (by omega) f)))
        (univ.fold max ⊥ (run 4096 1024 (by omega) f)))
        (univ.fold max ⊥ (run 5120 1024 (by omega) f)))
        (univ.fold max ⊥ (run 6144 1024 (by omega) f)))
        (univ.fold max ⊥ (run 7168 1024 (by omega) f)))
        (univ.fold max ⊥ (run 8192 1024 (by omega) f)))
        (univ.fold max ⊥ (run 9216 784 (by omega) f)) := by
  have e0 : (range 0).sup (ext ⊥ f) = ⊥ := by rw [Finset.range_zero, Finset.sup_empty]
  have e1 : (range 1024).sup (ext ⊥ f) = max ((range 0).sup (ext ⊥ f)) (univ.sup (run 0 1024 (by omega) f)) :=
    sup_step f 0 1024 (by omega)
  have e2 : (range 2048).sup (ext ⊥ f) = max ((range 1024).sup (ext ⊥ f)) (univ.sup (run 1024 1024 (by omega) f)) :=
    sup_step f 1024 1024 (by omega)
  have e3 : (range 3072).sup (ext ⊥ f) = max ((range 2048).sup (ext ⊥ f)) (univ.sup (run 2048 1024 (by omega) f)) :=
    sup_step f 2048 1024 (by omega)
  have e4 : (range 4096).sup (ext ⊥ f) = max ((range 3072).sup (ext ⊥ f)) (univ.sup (run 3072 1024 (by omega) f)) :=
    sup_step f 3072 1024 (by omega)
  have e5 : (range 5120).sup (ext ⊥ f) = max ((range 4096).sup (ext ⊥ f)) (univ.sup (run 4096 1024 (by omega) f)) :=
    sup_step f 4096 1024 (by omega)
  have e6 : (range 6144).sup (ext ⊥ f) = max ((range 5120).sup (ext ⊥ f)) (univ.sup (run 5120 1024 (by omega) f)) :=
    sup_step f 5120 1024 (by omega)
  have e7 : (range 7168).sup (ext ⊥ f) = max ((range 6144).sup (ext ⊥ f)) (univ.sup (run 6144 1024 (by omega) f)) :=
    sup_step f 6144 1024 (by omega)
  have e8 : (range 8192).sup (ext ⊥ f) = max ((range 7168).sup (ext ⊥ f)) (univ.sup (run 7168 1024 (by omega) f)) :=
    sup_step f 7168 1024 (by omega)
  have e9 : (range 9216).sup (ext ⊥ f) = max ((range 8192).sup (ext ⊥ f)) (univ.sup (run 8192 1024 (by omega) f)) :=
    sup_step f 8192 1024 (by omega)
  have e10 : (range 10000).sup (ext ⊥ f) = max ((range 9216).sup (ext ⊥ f)) (univ.sup (run 9216 784 (by omega) f)) :=
    sup_step f 9216 784 (by omega)
  simp only [fold_max_eq_sup]
  rw [sup_eq_range, e10, e9, e8, e7, e6, e5, e4, e3, e2, e1, e0]

end Cert.Attn.Chunks
-- ==== Proof.BodyMax.lean ====
/-
  The first pass of the tiled program's body: the running row maximum.  The body walks the row in ten runs, keeping
  m ← max m (max of the run's scores), from m = -∞.  After the tenth run m is the maximum of the whole row: the fold of
  max over a row cut into consecutive runs is the nested max of the runs' folds.
-/
import proofs.«122247_j47983374631488_2_alg».proof.Proof.Gen.KernelIdeal.Frame
import proofs.«122247_j47983374631488_2_alg».proof.Proof.BlockSpec
import proofs.«122247_j47983374631488_2_alg».proof.Proof.Chunks

noncomputable section

namespace Cert.KernelIdeal.Body

open Cert.KernelIdeal Cert.KernelIdeal.Gen Idealize.ShloMosaic Idealize.ShloMosaic.ValueIdx Idealize.ShloMosaic.TcCoe
open Cert.Attn Cert.Attn.BodyOps Cert.Attn.Block

variable (c : Dev nD) (arg1 : Memref sig .tc .vmem S200x1 .f32) (harg1 : arg1.IsWhole) (arg2 : Memref sig .tc .vmem S1x10000 .f32) (harg2 : arg2.IsWhole)
  (arg3 : Memref sig .tc .vmem S200x10000 .i32) (harg3 : arg3.IsWhole) (arg4 : Memref sig .tc .vmem S10000x128 .bf16) (harg4 : arg4.IsWhole)
  (arg5 : Memref sig .tc .vmem S200x10000 .f32) (harg5 : arg5.IsWhole) (arg6 : Memref sig .tc .vmem S200x128 .f32) (harg6 : arg6.IsWhole)
  (x0 : Vec Ideal S200x1 .f32) (x1 : Vec Ideal S1x10000 .f32) (x2 : Vec Ideal S200x10000 .i32) (x3 : Vec Ideal S10000x128 .bf16)

/-- The block's source half-scores as the body holds them: the staged column itself. -/
theorem wh1_apply (p : Fin 200) (u : Fin 1) :
    kernelRun0_A.sl.r (F := Ideal) c arg1 harg1 x0 (ix2 p u) = x0 (ix2 p u) := by
  unfold kernelRun0_A.sl.r k0_pay4
  simp only [readAt_ix2, harg1.read_unread, shapeCast_self, Nat.zero_add, Fin.eta]

set_option backward.isDefEq.respectTransparency.types false in
/-- After the tenth run the running maximum of row `p` is the maximum of the whole row of scores. -/
theorem m_apply (p : Fin 200) (u : Fin 1) :
    kernelRun0_A.sl.r_11 (F := Ideal) c arg1 harg1 arg2 harg2 arg3 harg3 x0 x1 x2 (ix2 p u) = bmax x0 x1 x2 p := by
  unfold bmax
  rw [Chunks.max_runs]
  unfold kernelRun0_A.sl.r_11 kernelRun0_A.sl.r_8 kernelRun0_A.sl.r_5 kernelRun0_A.sl.r_3 kernelRun0_A.sl.r_1 kernelRun0_A.sl.r_2
    kernelRun0_A.sl.r kernelRun0_A.sl.r_4 kernelRun0_A.sl.r_7 kernelRun0_A.sl.r_10 kernelRun0_A.sl.r_9 kernelRun0_A.sl.r_6 kernelRun0_A.sl.cst_52
  unfold k0_pay13 k0_pay12 k0_pay11 k0_pay10 k0_pay9 k0_pay8 k0_pay7 k0_pay6 k0_pay5 k0_pay4
  simp only [readAt_ix2, harg1.read_unread, harg2.read_unread, harg3.read_unread, shapeCast_self,
    maximumf_apply, rowMaxCol_apply (a := 200) (b := 1024), rowMaxCol_apply (a := 200) (b := 784), broadcast_apply, select_apply, cmpi_apply, cmpf_apply, addf_apply, mulf_apply,
    broadcastTo_a1_ab_apply, broadcastTo_1b_ab_apply, Nat.zero_add, Fin.eta, Ideal.ofBits_def, ofBits_negInf,
    Ideal.ofBits_zero_f32, Ideal.cmpf_def, wh1_apply, Chunks.run, bsc, esc, leakyGt, Cert.Attn.slope, Cert.Attn.masked]

end Cert.KernelIdeal.Body

end
-- ==== Proof.BodyExp.lean ====
/-
  The second pass of the tiled program's body, first half: the shifted exponentials it stores.

  With the row maximum m in hand the body walks the row again in the same ten runs and stores, for the run at column
  offset o, exp(e(p, o + q) − m(p)), where e is the masked, rectified sum of the source half-score of row p and the
  destination half-score of column o + q. Each stored run is therefore the run at o of the block's shifted exponentials.
-/
import proofs.«122247_j47983374631488_2_alg».proof.Proof.BodyMax

noncomputable section

namespace Cert.KernelIdeal.Body

open Cert.KernelIdeal Cert.KernelIdeal.Gen Idealize.ShloMosaic Idealize.ShloMosaic.ValueIdx Idealize.ShloMosaic.TcCoe
open Cert.Attn Cert.Attn.BodyOps Cert.Attn.Block

variable (c : Dev nD) (arg1 : Memref sig .tc .vmem S200x1 .f32) (harg1 : arg1.IsWhole) (arg2 : Memref sig .tc .vmem S1x10000 .f32) (harg2 : arg2.IsWhole)
  (arg3 : Memref sig .tc .vmem S200x10000 .i32) (harg3 : arg3.IsWhole) (arg4 : Memref sig .tc .vmem S10000x128 .bf16) (harg4 : arg4.IsWhole)
  (arg5 : Memref sig .tc .vmem S200x10000 .f32) (harg5 : arg5.IsWhole) (arg6 : Memref sig .tc .vmem S200x128 .f32) (harg6 : arg6.IsWhole)
  (x0 : Vec Ideal S200x1 .f32) (x1 : Vec Ideal S1x10000 .f32) (x2 : Vec Ideal S200x10000 .i32) (x3 : Vec Ideal S10000x128 .bf16)

/-- The stored exponentials of the first run. -/
theorem expRun0 (p : Fin 200) (q : Fin 1024) :
    k0_pay18 (kernelRun0_A.sl.r_11 (F := Ideal) c arg1 harg1 arg2 harg2 arg3 harg3 x0 x1 x2) (kernelRun0_A.sl.r_12 (F := Ideal) c arg3 harg3 x2) (kernelRun0_A.sl.r_13 (F := Ideal) c arg1 harg1 arg2 harg2 x0 x1) k0_pay17 (ix2 p q)
      = bexp x0 x1 x2 p ⟨0 + q.val, by omega⟩ := by
  unfold k0_pay18 kernelRun0_A.sl.r_12 kernelRun0_A.sl.r_13 k0_pay17
  unfold k0_pay16
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 1024. -/
theorem expRun1 (p : Fin 200) (q : Fin 1024) :
    k0_pay20 (kernelRun0_A.sl.r (F := Ideal) c arg1 harg1 x0) (kernelRun0_A.sl.r_11 (F := Ideal) c arg1 harg1 arg2 harg2 arg3 harg3 x0 x1 x2) (View.readAt (Elt Ideal) arg2.view (Rect.unit (s := S1x10000) ![0, 1024] S1x1024.size inb_S1x10000_S1x1024_0_1024).toLoadRect (harg2.unread x1)) (View.readAt (Elt Ideal) arg3.view (Rect.unit (s := S200x10000) ![0, 1024] S200x1024.size inb_S200x10000_S200x1024_0_1024).toLoadRect (harg3.unread x2)) (ix2 p q)
      = bexp x0 x1 x2 p ⟨1024 + q.val, by omega⟩ := by
  unfold k0_pay20
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 2048. -/
theorem expRun2 (p : Fin 200) (q : Fin 1024) :
    k0_pay22 (kernelRun0_A.sl.r (F := Ideal) c arg1 harg1 x0) (kernelRun0_A.sl.r_11 (F := Ideal) c arg1 harg1 arg2 harg2 arg3 harg3 x0 x1 x2) (View.readAt (Elt Ideal) arg2.view (Rect.unit (s := S1x10000) ![0, 2048] S1x1024.size inb_S1x10000_S1x1024_0_2048).toLoadRect (harg2.unread x1)) (View.readAt (Elt Ideal) arg3.view (Rect.unit (s := S200x10000) ![0, 2048] S200x1024.size inb_S200x10000_S200x1024_0_2048).toLoadRect (harg3.unread x2)) (ix2 p q)
      = bexp x0 x1 x2 p ⟨2048 + q.val, by omega⟩ := by
  unfold k0_pay22
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 3072. -/
theorem expRun3 (p : Fin 200) (q : Fin 1024) :
    k0_pay27 (kernelRun0_A.sl.r_11 (F := Ideal) c arg1 harg1 arg2 harg2 arg3 harg3 x0 x1 x2) (kernelRun0_A.sl.r_20 (F := Ideal) c arg3 harg3 x2) (kernelRun0_A.sl.r_21 (F := Ideal) c arg1 harg1 arg2 harg2 x0 x1) (kernelRun0_A.sl.r_22 (F := Ideal) c arg1 harg1 arg2 harg2 x0 x1) (ix2 p q)
      = bexp x0 x1 x2 p ⟨3072 + q.val, by omega⟩ := by
  unfold k0_pay27 kernelRun0_A.sl.r_20 kernelRun0_A.sl.r_21 kernelRun0_A.sl.r_22
  unfold k0_pay26
  unfold k0_pay25
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 4096. -/
theorem expRun4 (p : Fin 200) (q : Fin 1024) :
    kernelRun0_A.sl.r_24 (F := Ideal) c arg1 harg1 arg2 harg2 arg3 harg3 x0 x1 x2 (ix2 p q)
      = bexp x0 x1 x2 p ⟨4096 + q.val, by omega⟩ := by
  unfold kernelRun0_A.sl.r_24
  unfold k0_pay29
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 5120. -/
theorem expRun5 (p : Fin 200) (q : Fin 1024) :
    k0_pay31 (kernelRun0_A.sl.r (F := Ideal) c arg1 harg1 x0) (kernelRun0_A.sl.r_11 (F := Ideal) c arg1 harg1 arg2 harg2 arg3 harg3 x0 x1 x2) (View.readAt (Elt Ideal) arg2.view (Rect.unit (s := S1x10000) ![0, 5120] S1x1024.size inb_S1x10000_S1x1024_0_5120).toLoadRect (harg2.unread x1)) (View.readAt (Elt Ideal) arg3.view (Rect.unit (s := S200x10000) ![0, 5120] S200x1024.size inb_S200x10000_S200x1024_0_5120).toLoadRect (harg3.unread x2)) (ix2 p q)
      = bexp x0 x1 x2 p ⟨5120 + q.val, by omega⟩ := by
  unfold k0_pay31
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 6144. -/
theorem expRun6 (p : Fin 200) (q : Fin 1024) :
    k0_pay35 (kernelRun0_A.sl.r (F := Ideal) c arg1 harg1 x0) (kernelRun0_A.sl.r_11 (F := Ideal) c arg1 harg1 arg2 harg2 arg3 harg3 x0 x1 x2) (kernelRun0_A.sl.r_28 (F := Ideal) c arg2 harg2 x1) (kernelRun0_A.sl.r_6 (F := Ideal) c arg3 harg3 x2) (ix2 p q)
      = bexp x0 x1 x2 p ⟨6144 + q.val, by omega⟩ := by
  unfold k0_pay35 kernelRun0_A.sl.r_28 kernelRun0_A.sl.r_6
  unfold k0_pay34
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 7168. -/
theorem expRun7 (p : Fin 200) (q : Fin 1024) :
    k0_pay39 (kernelRun0_A.sl.r_31 (F := Ideal) c arg1 harg1 arg2 harg2 arg3 harg3 x0 x1 x2) (ix2 p q)
      = bexp x0 x1 x2 p ⟨7168 + q.val, by omega⟩ := by
  unfold k0_pay39 kernelRun0_A.sl.r_31
  unfold k0_pay38
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 8192. -/
theorem expRun8 (p : Fin 200) (q : Fin 1024) :
    k0_pay40 (kernelRun0_A.sl.r (F := Ideal) c arg1 harg1 x0) (kernelRun0_A.sl.r_11 (F := Ideal) c arg1 harg1 arg2 harg2 arg3 harg3 x0 x1 x2) (View.readAt (Elt Ideal) arg2.view (Rect.unit (s := S1x10000) ![0, 8192] S1x1024.size inb_S1x10000_S1x1024_0_8192).toLoadRect (harg2.unread x1)) (View.readAt (Elt Ideal) arg3.view (Rect.unit (s := S200x10000) ![0, 8192] S200x1024.size inb_S200x10000_S200x1024_0_8192).toLoadRect (harg3.unread x2)) (ix2 p q)
      = bexp x0 x1 x2 p ⟨8192 + q.val, by omega⟩ := by
  unfold k0_pay40
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

/-- The stored exponentials of the run at column offset 9216. -/
theorem expRun9 (p : Fin 200) (q : Fin 784) :
    k0_pay43 (kernelRun0_A.sl.r (F := Ideal) c arg1 harg1 x0) (kernelRun0_A.sl.r_11 (F := Ideal) c arg1 harg1 arg2 harg2 arg3 harg3 x0 x1 x2) (View.readAt (Elt Ideal) arg2.view (Rect.unit (s := S1x10000) ![0, 9216] S1x784.size inb_S1x10000_S1x784_0_9216).toLoadRect (harg2.unread x1)) (View.readAt (Elt Ideal) arg3.view (Rect.unit (s := S200x10000) ![0, 9216] S200x784.size inb_S200x10000_S200x784_0_9216).toLoadRect (harg3.unread x2)) (ix2 p q)
      = bexp x0 x1 x2 p ⟨9216 + q.val, by omega⟩ := by
  unfold k0_pay43
  simp only [readAt_ix2, harg1.read_unread, harg2.read_unread, harg3.read_unread, shapeCast_self,
    maximumf_apply, addf_apply, subf_apply, mulf_apply, exp_apply, broadcast_apply, select_apply, cmpi_apply, cmpf_apply,
    broadcastTo_a1_ab_apply, broadcastTo_1b_ab_apply, Nat.zero_add, Fin.eta, Ideal.ofBits_def, ofBits_negInf,
    Ideal.ofBits_zero_f32, Ideal.cmpf_def, Ideal.exp_def, wh1_apply, m_apply, bexp, bsc, esc, leakyGt, Cert.Attn.slope, Cert.Attn.masked]

end Cert.KernelIdeal.Body

end
-- ==== Proof.LibPieces.lean ====
/-
  What a list of stores leaves in a buffer, read through its leading stores.

  The contents a list of unmasked stores (last first) leaves are, at each index, the payload of the FIRST piece of the
  list whose rectangle holds the index.  Two consequences for a list `L₁ ++ L₂`: where every piece of `L₁` is a block of
  one function `G` of the buffer's index, the contents at any index some piece of `L₁` holds are `G` there, whatever
  `L₂` stored earlier (a buffer rewritten in place, run by run: the later stores decide); and at an index no piece of
  `L₁` holds the contents are those of `L₂` alone (a read-back of a run the later stores have not reached yet).
  With them, for rank two: membership of an index given by coordinates in a unit-stride rectangle, and the
  rectangle's own index placed in the buffer.
-/
import Idealize.ShloMosaic.Lib.Pipeline.Value
import Idealize.ShloMosaic.Lib.ValueIdx

namespace Idealize.ShloMosaic.View

variable {Val : EltTy → Type} {s : Shape} {e : EltTy}

/-- Leading pieces that are all blocks of one function `G` decide every index they cover. -/
theorem canon_append_of_pieces [∀ e, Nonempty (Val e)] (G : s.Idx → Val e) :
    ∀ (L₁ L₂ : List (Piece Val s e)) (_ : ∀ p ∈ L₁, ∀ x : p.1.shape.Idx, p.2 x = G (p.1.emb x)) (y : s.Idx)
      (_ : ∃ p ∈ L₁, y ∈ p.1.set), canon (L₁ ++ L₂) y = G y
  | [], _, _, _, hy => by obtain ⟨p, hp, _⟩ := hy; simp at hp
  | p :: L₁, L₂, hL, y, hy => by
    by_cases hm : y ∈ p.1.set
    · obtain ⟨x, rfl⟩ := p.1.exists_idx_of_mem hm
      rw [List.cons_append, show p.1.idx x = p.1.emb x from rfl, canon_cons_emb]
      exact hL p (by simp) x
    · rw [List.cons_append, canon_cons_of_not_mem _ _ hm]
      refine canon_append_of_pieces G L₁ L₂ (fun q hq => hL q (by simp [hq])) y ?_
      obtain ⟨q, hq, hyq⟩ := hy
      rcases List.mem_cons.mp hq with rfl | hq'
      · exact absurd hyq hm
      · exact ⟨q, hq', hyq⟩

/-- Leading pieces that all miss an index leave it to the earlier stores. -/
theorem canon_append_of_forall_not_mem [∀ e, Nonempty (Val e)] :
    ∀ (L₁ L₂ : List (Piece Val s e)) (y : s.Idx) (_ : ∀ p ∈ L₁, y ∉ p.1.set), canon (L₁ ++ L₂) y = canon L₂ y
  | [], _, _, _ => rfl
  | p :: L₁, L₂, y, h => by
    rw [List.cons_append, canon_cons_of_not_mem _ _ (h p (by simp))]
    exact canon_append_of_forall_not_mem L₁ L₂ y fun q hq => h q (by simp [hq])

end Idealize.ShloMosaic.View

namespace Idealize.ShloMosaic.ValueIdx

/-- An index `(i, j)` lies in the unit-stride rectangle of `m0 × m1` entries at `(o0, o1)` exactly when each coordinate
    lies in its run. -/
theorem mem_unit_ix2 {n0 n1 m0 m1 o0 o1 : ℕ}
    (inb : ∀ a, (![o0, o1] : Fin 2 → ℕ) a + (![m0, m1] : Fin 2 → ℕ) a ≤ (⟨2, ![n0, n1]⟩ : Shape).size a)
    (i : Fin n0) (j : Fin n1) :
    ix2 i j ∈ (Rect.unit (s := ⟨2, ![n0, n1]⟩) ![o0, o1] ![m0, m1] inb).set
      ↔ (o0 ≤ i.val ∧ i.val < o0 + m0) ∧ (o1 ≤ j.val ∧ j.val < o1 + m1) := by
  rw [Rect.mem_set_unit]
  constructor
  · intro h; exact ⟨h 0, h 1⟩
  · intro h a
    match a with
    | ⟨0, _⟩ => exact h.1
    | ⟨1, _⟩ => exact h.2

/-- The rectangle's own index `(p, q)` sits at `(o0 + p, o1 + q)` in the buffer. -/
theorem emb_unit_ix2 {n0 n1 m0 m1 o0 o1 : ℕ}
    (inb : ∀ a, (![o0, o1] : Fin 2 → ℕ) a + (![m0, m1] : Fin 2 → ℕ) a ≤ (⟨2, ![n0, n1]⟩ : Shape).size a)
    (p : Fin m0) (q : Fin m1) :
    (Rect.unit (s := ⟨2, ![n0, n1]⟩) ![o0, o1] ![m0, m1] inb).emb (ix2 p q)
      = ix2 ⟨o0 + p.val, lt_of_lt_of_le (Nat.add_lt_add_left p.isLt o0) (inb 0)⟩
            ⟨o1 + q.val, lt_of_lt_of_le (Nat.add_lt_add_left q.isLt o1) (inb 1)⟩ := by
  funext a
  apply Fin.ext
  match a with
  | ⟨0, _⟩ => show o0 + 1 * p.val = o0 + p.val; omega
  | ⟨1, _⟩ => show o1 + 1 * q.val = o1 + q.val; omega

/-- The same for a rectangle of full height starting at row 0: `(p, q)` sits at `(p, o1 + q)`. -/
theorem emb_unit_ix2_fullRows {n0 n1 m1 o1 : ℕ}
    (inb : ∀ a, (![0, o1] : Fin 2 → ℕ) a + (![n0, m1] : Fin 2 → ℕ) a ≤ (⟨2, ![n0, n1]⟩ : Shape).size a)
    (p : Fin n0) (q : Fin m1) :
    (Rect.unit (s := ⟨2, ![n0, n1]⟩) ![0, o1] ![n0, m1] inb).emb (ix2 p q)
      = ix2 p ⟨o1 + q.val, lt_of_lt_of_le (Nat.add_lt_add_left q.isLt o1) (inb 1)⟩ := by
  funext a
  apply Fin.ext
  match a with
  | ⟨0, _⟩ => show 0 + 1 * p.val = p.val; omega
  | ⟨1, _⟩ => show o1 + 1 * q.val = o1 + q.val; omega

end Idealize.ShloMosaic.ValueIdx
-- ==== Proof.BodyReload.lean ====
/-
  The third pass of the tiled program's body reads back what the second pass stored.

  The second pass leaves, in the 200 × 10000 output block, ten runs of shifted exponentials that together hold
  exp(e(p, j) − m(p)) at every (p, j). The third pass goes over the runs from the left: it reloads run k and stores it
  back scaled. The store of run k touches only the columns of run k, so when run k is reloaded — after the stores of
  runs 0 … k − 1 — every column from run k on still holds the exponential the second pass stored there.
-/
import proofs.«122247_j47983374631488_2_alg».proof.Proof.BodyExp
import proofs.«122247_j47983374631488_2_alg».proof.Proof.LibPieces

noncomputable section

namespace Cert.KernelIdeal.Body

open Cert.KernelIdeal Cert.KernelIdeal.Gen Idealize.ShloMosaic Idealize.ShloMosaic.ValueIdx Idealize.ShloMosaic.TcCoe
open Cert.Attn Cert.Attn.BodyOps Cert.Attn.Block

variable (c : Dev nD) (arg1 : Memref sig .tc .vmem S200x1 .f32) (harg1 : arg1.IsWhole) (arg2 : Memref sig .tc .vmem S1x10000 .f32) (harg2 : arg2.IsWhole)
  (arg3 : Memref sig .tc .vmem S200x10000 .i32) (harg3 : arg3.IsWhole) (arg4 : Memref sig .tc .vmem S10000x128 .bf16) (harg4 : arg4.IsWhole)
  (arg5 : Memref sig .tc .vmem S200x10000 .f32) (harg5 : arg5.IsWhole) (arg6 : Memref sig .tc .vmem S200x128 .f32) (harg6 : arg6.IsWhole)
  (x0 : Vec Ideal S200x1 .f32) (x1 : Vec Ideal S1x10000 .f32) (x2 : Vec Ideal S200x10000 .i32) (x3 : Vec Ideal S10000x128 .bf16)

/-- What the second pass leaves in the output block: the shifted exponential at every index. -/
def stored : Cert.Attn.Arr2 200 10000 EReal := fun y => bexp x0 x1 x2 (y 0) (y 1)

theorem stored_ix2 (p : Fin 200) (j : Fin 10000) : stored x0 x1 x2 (ix2 p j) = bexp x0 x1 x2 p j := rfl

/-- Each of the ten stored runs is the block of `stored` at its rectangle. -/
theorem passB_blocks : ∀ pc ∈ (kernelRun0_A.sl.H4_10 (F := Ideal) c arg1 harg1 arg2 harg2 arg3 harg3 x0 x1 x2),
    ∀ x : pc.1.shape.Idx, pc.2 x = stored x0 x1 x2 (pc.1.emb x) := by
  unfold kernelRun0_A.sl.H4_10
  intro pc hpc
  rcases List.mem_cons.mp hpc with rfl | hpc
  · intro (x : (⟨2, ![200, 784]⟩ : Shape).Idx)
    obtain ⟨p, q, rfl⟩ : ∃ (p : Fin 200) (q : Fin 784), x = ix2 p q := ⟨x 0, x 1, eq_ix2 x⟩
    exact (expRun9 c arg1 harg1 arg2 harg2 arg3 harg3 x0 x1 x2 p q).trans
      ((congrArg (stored x0 x1 x2) (emb_unit_ix2_fullRows inb_S200x10000_S200x784_0_9216 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun8 c arg1 harg1 arg2 harg2 arg3 harg3 x0 x1 x2 p q).trans
      ((congrArg (stored x0 x1 x2) (emb_unit_ix2_fullRows inb_S200x10000_S200x1024_0_8192 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun7 c arg1 harg1 arg2 harg2 arg3 harg3 x0 x1 x2 p q).trans
      ((congrArg (stored x0 x1 x2) (emb_unit_ix2_fullRows inb_S200x10000_S200x1024_0_7168 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun6 c arg1 harg1 arg2 harg2 arg3 harg3 x0 x1 x2 p q).trans
      ((congrArg (stored x0 x1 x2) (emb_unit_ix2_fullRows inb_S200x10000_S200x1024_0_6144 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun5 c arg1 harg1 arg2 harg2 arg3 harg3 x0 x1 x2 p q).trans
      ((congrArg (stored x0 x1 x2) (emb_unit_ix2_fullRows inb_S200x10000_S200x1024_0_5120 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun4 c arg1 harg1 arg2 harg2 arg3 harg3 x0 x1 x2 p q).trans
      ((congrArg (stored x0 x1 x2) (emb_unit_ix2_fullRows inb_S200x10000_S200x1024_0_4096 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun3 c arg1 harg1 arg2 harg2 arg3 harg3 x0 x1 x2 p q).trans
      ((congrArg (stored x0 x1 x2) (emb_unit_ix2_fullRows inb_S200x10000_S200x1024_0_3072 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun2 c arg1 harg1 arg2 harg2 arg3 harg3 x0 x1 x2 p q).trans
      ((congrArg (stored x0 x1 x2) (emb_unit_ix2_fullRows inb_S200x10000_S200x1024_0_2048 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun1 c arg1 harg1 arg2 harg2 arg3 harg3 x0 x1 x2 p q).trans
      ((congrArg (stored x0 x1 x2) (emb_unit_ix2_fullRows inb_S200x10000_S200x1024_0_1024 p q)).trans
        (stored_ix2 x0 x1 x2 p _)).symm
  rcases List.mem_cons.mp hpc with rfl | hpc
  · intro (x : (⟨2, ![200, 1024]⟩ : Shape).Idx)
    obtain ⟨p, q, rfl⟩ : ∃ (p : Fin 200) (q : Fin 1024), x = ix2 p q := ⟨x 0, x 1, eq_ix2 x⟩
    exact (expRun0 c arg1 harg1 arg2 harg2 arg3 harg3 x0 x1 x2 p q).trans
      ((congrArg (stored x0 x1 x2) (emb_unit_ix2_fullRows inb_S200x10000_S200x1024_0_0 p q)).trans
        (stored_ix2 x0 x1 x2 p _)).symm
  exact absurd hpc List.not_mem_nil

/-- After the second pass the block holds `stored` everywhere: the ten runs cover the row. -/
theorem keep0 (p : Fin 200) (j : Fin 10000) :
    View.canon (kernelRun0_A.sl.H4_10 (F := Ideal) c arg1 harg1 arg2 harg2 arg3 harg3 x0 x1 x2) (ix2 p j) = stored x0 x1 x2 (ix2 p j) := by
  refine View.canon_apply_of_pieces (Val := Elt Ideal) (S := S200x10000) (e := .f32) (stored x0 x1 x2) _ (passB_blocks c arg1 harg1 arg2 harg2 arg3 harg3 x0 x1 x2) (ix2 p j) ?_
  unfold kernelRun0_A.sl.H4_10
  have hj : j.val < 10000 := j.isLt
  by_cases h0 : j.val < 1024
  · exact ⟨_, (List.Mem.tail _ (List.Mem.tail _ (List.Mem.tail _ (List.Mem.tail _ (List.Mem.tail _ (List.Mem.tail _ (List.Mem.tail _ (List.Mem.tail _ (List.Mem.tail _ (List.Mem.head _)))))))))), (mem_unit_ix2 inb_S200x10000_S200x1024_0_0 p j).mpr ⟨⟨by omega, by omega⟩, by omega, by omega⟩⟩
  by_cases h1 : j.val < 2048
  · exact ⟨_, (List.Mem.tail _ (List.Mem.tail _ (List.Mem.tail _ (List.Mem.tail _ (List.Mem.tail _ (List.Mem.tail _ (List.Mem.tail _ (List.Mem.tail _ (List.Mem.head _))))))))), (mem_unit_ix2 inb_S200x10000_S200x1024_0_1024 p j).mpr ⟨⟨by omega, by omega⟩, by omega, by omega⟩⟩
  by_cases h2 : j.val < 3072
  · exact ⟨_, (List.Mem.tail _ (List.Mem.tail _ (List.Mem.tail _ (List.Mem.tail _ (List.Mem.tail _ (List.Mem.tail _ (List.Mem.tail _ (List.Mem.head _)))))))), (mem_unit_ix2 inb_S200x10000_S200x1024_0_2048 p j).mpr ⟨⟨by omega, by omega⟩, by omega, by omega⟩⟩
  by_cases h3 : j.val < 4096
  · exact ⟨_, (List.Mem.tail _ (List.Mem.tail _ (List.Mem.tail _ (List.Mem.tail _ (List.Mem.tail _ (List.Mem.tail _ (List.Mem.head _))))))), (mem_unit_ix2 inb_S200x10000_S200x1024_0_3072 p j).mpr ⟨⟨by omega, by omega⟩, by omega, by omega⟩⟩
  by_cases h4 : j.val < 5120
  · exact ⟨_, (List.Mem.tail _ (List.Mem.tail _ (List.Mem.tail _ (List.Mem.tail _ (List.Mem.tail _ (List.Mem.head _)))))), (mem_unit_ix2 inb_S200x10000_S200x1024_0_4096 p j).mpr ⟨⟨by omega, by omega⟩, by omega, by omega⟩⟩
  by_cases h5 : j.val < 6144
  · exact ⟨_, (List.Mem.tail _ (List.Mem.tail _ (List.Mem.tail _ (List.Mem.tail _ (List.Mem.head _))))), (mem_unit_ix2 inb_S200x10000_S200x1024_0_5120 p j).mpr ⟨⟨by omega, by omega⟩, by omega, by omega⟩⟩
  by_cases h6 : j.val < 7168
  · exact ⟨_, (List.Mem.tail _ (List.Mem.tail _ (List.Mem.tail _ (List.Mem.head _)))), (mem_unit_ix2 inb_S200x10000_S200x1024_0_6144 p j).mpr ⟨⟨by omega, by omega⟩, by omega, by omega⟩⟩
  by_cases h7 : j.val < 8192
  · exact ⟨_, (List.Mem.tail _ (List.Mem.tail _ (List.Mem.head _))), (mem_unit_ix2 inb_S200x10000_S200x1024_0_7168 p j).mpr ⟨⟨by omega, by omega⟩, by omega, by omega⟩⟩
  by_cases h8 : j.val < 9216
  · exact ⟨_, (List.Mem.tail _ (List.Mem.head _)), (mem_unit_ix2 inb_S200x10000_S200x1024_0_8192 p j).mpr ⟨⟨by omega, by omega⟩, by omega, by omega⟩⟩
  exact ⟨_, (List.Mem.head _), (mem_unit_ix2 inb_S200x10000_S200x784_0_9216 p j).mpr ⟨⟨by omega, by omega⟩, by omega, by omega⟩⟩

/-- The stores of runs 0 … 0 leave the columns from 1024 on as the second pass stored them. -/
theorem keep1 (p : Fin 200) (j : Fin 10000) (hj : 1024 ≤ j.val) :
    View.canon (kernelRun0_A.sl.H4_11 (F := Ideal) c arg1 harg1 arg2 harg2 arg3 harg3 arg5 x0 x1 x2) (ix2 p j) = stored x0 x1 x2 (ix2 p j) := by
  unfold kernelRun0_A.sl.H4_11
  refine (View.canon_cons_of_not_mem _ _ ?_).trans (keep0 c arg1 harg1 arg2 harg2 arg3 harg3 x0 x1 x2 p j)
  intro h
  have := (mem_unit_ix2 inb_S200x10000_S200x1024_0_0 p j).mp h
  omega

/-- The stores of runs 0 … 1 leave the columns from 2048 on as the second pass stored them. -/
theorem keep2 (p : Fin 200) (j : Fin 10000) (hj : 2048 ≤ j.val) :
    View.canon (kernelRun0_A.sl.H4_12 (F := Ideal) c arg1 harg1 arg2 harg2 arg3 harg3 arg5 x0 x1 x2) (ix2 p j) = stored x0 x1 x2 (ix2 p j) := by
  unfold kernelRun0_A.sl.H4_12
  refine (View.canon_cons_of_not_mem _ _ ?_).trans (keep1 c arg1 harg1 arg2 harg2 arg3 harg3 arg5 x0 x1 x2 p j (by omega))
  intro h
  have := (mem_unit_ix2 inb_S200x10000_S200x1024_0_1024 p j).mp h
  omega

/-- The stores of runs 0 … 2 leave the columns from 3072 on as the second pass stored them. -/
theorem keep3 (p : Fin 200) (j : Fin 10000) (hj : 3072 ≤ j.val) :
    View.canon (kernelRun0_A.sl.H4_13 (F := Ideal) c arg1 harg1 arg2 harg2 arg3 harg3 arg5 x0 x1 x2) (ix2 p j) = stored x0 x1 x2 (ix2 p j) := by
  unfold kernelRun0_A.sl.H4_13
  refine (View.canon_cons_of_not_mem _ _ ?_).trans (keep2 c arg1 harg1 arg2 harg2 arg3 harg3 arg5 x0 x1 x2 p j (by omega))
  intro h
  have := (mem_unit_ix2 inb_S200x10000_S200x1024_0_2048 p j).mp h
  omega

/-- The stores of runs 0 … 3 leave the columns from 4096 on as the second pass stored them. -/
theorem keep4 (p : Fin 200) (j : Fin 10000) (hj : 4096 ≤ j.val) :
    View.canon (kernelRun0_A.sl.H4_14 (F := Ideal) c arg1 harg1 arg2 harg2 arg3 harg3 arg5 x0 x1 x2) (ix2 p j) = stored x0 x1 x2 (ix2 p j) := by
  unfold kernelRun0_A.sl.H4_14
  refine (View.canon_cons_of_not_mem _ _ ?_).trans (keep3 c arg1 harg1 arg2 harg2 arg3 harg3 arg5 x0 x1 x2 p j (by omega))
  intro h
  have := (mem_unit_ix2 inb_S200x10000_S200x1024_0_3072 p j).mp h
  omega

/-- The stores of runs 0 … 4 leave the columns from 5120 on as the second pass stored them. -/
theorem keep5 (p : Fin 200) (j : Fin 10000) (hj : 5120 ≤ j.val) :
    View.canon (kernelRun0_A.sl.H4_15 (F := Ideal) c arg1 harg1 arg2 harg2 arg3 harg3 arg5 x0 x1 x2) (ix2 p j) = stored x0 x1 x2 (ix2 p j) := by
  unfold kernelRun0_A.sl.H4_15
  refine (View.canon_cons_of_not_mem _ _ ?_).trans (keep4 c arg1 harg1 arg2 harg2 arg3 harg3 arg5 x0 x1 x2 p j (by omega))
  intro h
  have := (mem_unit_ix2 inb_S200x10000_S200x1024_0_4096 p j).mp h
  omega

/-- The stores of runs 0 … 5 leave the columns from 6144 on as the second pass stored them. -/
theorem keep6 (p : Fin 200) (j : Fin 10000) (hj : 6144 ≤ j.val) :
    View.canon (kernelRun0_A.sl.H4_16 (F := Ideal) c arg1 harg1 arg2 harg2 arg3 harg3 arg5 x0 x1 x2) (ix2 p j) = stored x0 x1 x2 (ix2 p j) := by
  unfold kernelRun0_A.sl.H4_16
  refine (View.canon_cons_of_not_mem _ _ ?_).trans (keep5 c arg1 harg1 arg2 harg2 arg3 harg3 arg5 x0 x1 x2 p j (by omega))
  intro h
  have := (mem_unit_ix2 inb_S200x10000_S200x1024_0_5120 p j).mp h
  omega

/-- The stores of runs 0 … 6 leave the columns from 7168 on as the second pass stored them. -/
theorem keep7 (p : Fin 200) (j : Fin 10000) (hj : 7168 ≤ j.val) :
    View.canon (kernelRun0_A.sl.H4_17 (F := Ideal) c arg1 harg1 arg2 harg2 arg3 harg3 arg5 x0 x1 x2) (ix2 p j) = stored x0 x1 x2 (ix2 p j) := by
  unfold kernelRun0_A.sl.H4_17
  refine (View.canon_cons_of_not_mem _ _ ?_).trans (keep6 c arg1 harg1 arg2 harg2 arg3 harg3 arg5 x0 x1 x2 p j (by omega))
  intro h
  have := (mem_unit_ix2 inb_S200x10000_S200x1024_0_6144 p j).mp h
  omega

/-- The stores of runs 0 … 7 leave the columns from 8192 on as the second pass stored them. -/
theorem keep8 (p : Fin 200) (j : Fin 10000) (hj : 8192 ≤ j.val) :
    View.canon (kernelRun0_A.sl.H4_18 (F := Ideal) c arg1 harg1 arg2 harg2 arg3 harg3 arg5 x0 x1 x2) (ix2 p j) = stored x0 x1 x2 (ix2 p j) := by
  unfold kernelRun0_A.sl.H4_18
  refine (View.canon_cons_of_not_mem _ _ ?_).trans (keep7 c arg1 harg1 arg2 harg2 arg3 harg3 arg5 x0 x1 x2 p j (by omega))
  intro h
  have := (mem_unit_ix2 inb_S200x10000_S200x1024_0_7168 p j).mp h
  omega

/-- The stores of runs 0 … 8 leave the columns from 9216 on as the second pass stored them. -/
theorem keep9 (p : Fin 200) (j : Fin 10000) (hj : 9216 ≤ j.val) :
    View.canon (kernelRun0_A.sl.H4_19 (F := Ideal) c arg1 harg1 arg2 harg2 arg3 harg3 arg5 x0 x1 x2) (ix2 p j) = stored x0 x1 x2 (ix2 p j) := by
  unfold kernelRun0_A.sl.H4_19
  refine (View.canon_cons_of_not_mem _ _ ?_).trans (keep8 c arg1 harg1 arg2 harg2 arg3 harg3 arg5 x0 x1 x2 p j (by omega))
  intro h
  have := (mem_unit_ix2 inb_S200x10000_S200x1024_0_8192 p j).mp h
  omega

/-- The reload of run 0 reads the exponentials the second pass stored at columns 0 … 1023. -/
theorem reload0 (p : Fin 200) (q : Fin 1024) :
    kernelRun0_A.sl.v457 (F := Ideal) c arg1 harg1 arg2 harg2 arg3 harg3 arg5 x0 x1 x2 (ix2 p q) = bexp x0 x1 x2 p ⟨0 + q.val, by omega⟩ := by
  unfold kernelRun0_A.sl.v457
  rw [View.readCov_eq_canon']
  show View.canon _ ((Rect.unit (s := S200x10000) ![0, 0] ![200, 1024] inb_S200x10000_S200x1024_0_0).emb (ix2 p q)) = _
  rw [emb_unit_ix2_fullRows]
  exact keep0 c arg1 harg1 arg2 harg2 arg3 harg3 x0 x1 x2 p ⟨0 + q.val, by omega⟩

/-- The reload of run 1 reads the exponentials the second pass stored at columns 1024 … 2047. -/
theorem reload1 (p : Fin 200) (q : Fin 1024) :
    kernelRun0_A.sl.v462 (F := Ideal) c arg1 harg1 arg2 harg2 arg3 harg3 arg5 x0 x1 x2 (ix2 p q) = bexp x0 x1 x2 p ⟨1024 + q.val, by omega⟩ := by
  unfold kernelRun0_A.sl.v462
  rw [View.readCov_eq_canon']
  show View.canon _ ((Rect.unit (s := S200x10000) ![0, 1024] ![200, 1024] inb_S200x10000_S200x1024_0_1024).emb (ix2 p q)) = _
  rw [emb_unit_ix2_fullRows]
  exact keep1 c arg1 harg1 arg2 harg2 arg3 harg3 arg5 x0 x1 x2 p ⟨1024 + q.val, by omega⟩ (by show 1024 ≤ 1024 + q.val; omega)

/-- The reload of run 2 reads the exponentials the second pass stored at columns 2048 … 3071. -/
theorem reload2 (p : Fin 200) (q : Fin 1024) :
    kernelRun0_A.sl.v467 (F := Ideal) c arg1 harg1 arg2 harg2 arg3 harg3 arg5 x0 x1 x2 (ix2 p q) = bexp x0 x1 x2 p ⟨2048 + q.val, by omega⟩ := by
  unfold kernelRun0_A.sl.v467
  rw [View.readCov_eq_canon']
  show View.canon _ ((Rect.unit (s := S200x10000) ![0, 2048] ![200, 1024] inb_S200x10000_S200x1024_0_2048).emb (ix2 p q)) = _
  rw [emb_unit_ix2_fullRows]
  exact keep2 c arg1 harg1 arg2 harg2 arg3 harg3 arg5 x0 x1 x2 p ⟨2048 + q.val, by omega⟩ (by show 2048 ≤ 2048 + q.val; omega)

/-- The reload of run 3 reads the exponentials the second pass stored at columns 3072 … 4095. -/
theorem reload3 (p : Fin 200) (q : Fin 1024) :
    kernelRun0_A.sl.v472 (F := Ideal) c arg1 harg1 arg2 harg2 arg3 harg3 arg5 x0 x1 x2 (ix2 p q) = bexp x0 x1 x2 p ⟨3072 + q.val, by omega⟩ := by
  unfold kernelRun0_A.sl.v472
  rw [View.readCov_eq_canon']
  show View.canon _ ((Rect.unit (s := S200x10000) ![0, 3072] ![200, 1024] inb_S200x10000_S200x1024_0_3072).emb (ix2 p q)) = _
  rw [emb_unit_ix2_fullRows]
  exact keep3 c arg1 harg1 arg2 harg2 arg3 harg3 arg5 x0 x1 x2 p ⟨3072 + q.val, by omega⟩ (by show 3072 ≤ 3072 + q.val; omega)

/-- The reload of run 4 reads the exponentials the second pass stored at columns 4096 … 5119. -/
theorem reload4 (p : Fin 200) (q : Fin 1024) :
    kernelRun0_A.sl.v477 (F := Ideal) c arg1 harg1 arg2 harg2 arg3 harg3 arg5 x0 x1 x2 (ix2 p q) = bexp x0 x1 x2 p ⟨4096 + q.val, by omega⟩ := by
  unfold kernelRun0_A.sl.v477
  rw [View.readCov_eq_canon']
  show View.canon _ ((Rect.unit (s := S200x10000) ![0, 4096] ![200, 1024] inb_S200x10000_S200x1024_0_4096).emb (ix2 p q)) = _
  rw [emb_unit_ix2_fullRows]
  exact keep4 c arg1 harg1 arg2 harg2 arg3 harg3 arg5 x0 x1 x2 p ⟨4096 + q.val, by omega⟩ (by show 4096 ≤ 4096 + q.val; omega)

/-- The reload of run 5 reads the exponentials the second pass stored at columns 5120 … 6143. -/
theorem reload5 (p : Fin 200) (q : Fin 1024) :
    kernelRun0_A.sl.v482 (F := Ideal) c arg1 harg1 arg2 harg2 arg3 harg3 arg5 x0 x1 x2 (ix2 p q) = bexp x0 x1 x2 p ⟨5120 + q.val, by omega⟩ := by
  unfold kernelRun0_A.sl.v482
  rw [View.readCov_eq_canon']
  show View.canon _ ((Rect.unit (s := S200x10000) ![0, 5120] ![200, 1024] inb_S200x10000_S200x1024_0_5120).emb (ix2 p q)) = _
  rw [emb_unit_ix2_fullRows]
  exact keep5 c arg1 harg1 arg2 harg2 arg3 harg3 arg5 x0 x1 x2 p ⟨5120 + q.val, by omega⟩ (by show 5120 ≤ 5120 + q.val; omega)

/-- The reload of run 6 reads the exponentials the second pass stored at columns 6144 … 7167. -/
theorem reload6 (p : Fin 200) (q : Fin 1024) :
    kernelRun0_A.sl.v487 (F := Ideal) c arg1 harg1 arg2 harg2 arg3 harg3 arg5 x0 x1 x2 (ix2 p q) = bexp x0 x1 x2 p ⟨6144 + q.val, by omega⟩ := by
  unfold kernelRun0_A.sl.v487
  rw [View.readCov_eq_canon']
  show View.canon _ ((Rect.unit (s := S200x10000) ![0, 6144] ![200, 1024] inb_S200x10000_S200x1024_0_6144).emb (ix2 p q)) = _
  rw [emb_unit_ix2_fullRows]
  exact keep6 c arg1 harg1 arg2 harg2 arg3 harg3 arg5 x0 x1 x2 p ⟨6144 + q.val, by omega⟩ (by show 6144 ≤ 6144 + q.val; omega)

/-- The reload of run 7 reads the exponentials the second pass stored at columns 7168 … 8191. -/
theorem reload7 (p : Fin 200) (q : Fin 1024) :
    kernelRun0_A.sl.v492 (F := Ideal) c arg1 harg1 arg2 harg2 arg3 harg3 arg5 x0 x1 x2 (ix2 p q) = bexp x0 x1 x2 p ⟨7168 + q.val, by omega⟩ := by
  unfold kernelRun0_A.sl.v492
  rw [View.readCov_eq_canon']
  show View.canon _ ((Rect.unit (s := S200x10000) ![0, 7168] ![200, 1024] inb_S200x10000_S200x1024_0_7168).emb (ix2 p q)) = _
  rw [emb_unit_ix2_fullRows]
  exact keep7 c arg1 harg1 arg2 harg2 arg3 harg3 arg5 x0 x1 x2 p ⟨7168 + q.val, by omega⟩ (by show 7168 ≤ 7168 + q.val; omega)

/-- The reload of run 8 reads the exponentials the second pass stored at columns 8192 … 9215. -/
theorem reload8 (p : Fin 200) (q : Fin 1024) :
    kernelRun0_A.sl.v497 (F := Ideal) c arg1 harg1 arg2 harg2 arg3 harg3 arg5 x0 x1 x2 (ix2 p q) = bexp x0 x1 x2 p ⟨8192 + q.val, by omega⟩ := by
  unfold kernelRun0_A.sl.v497
  rw [View.readCov_eq_canon']
  show View.canon _ ((Rect.unit (s := S200x10000) ![0, 8192] ![200, 1024] inb_S200x10000_S200x1024_0_8192).emb (ix2 p q)) = _
  rw [emb_unit_ix2_fullRows]
  exact keep8 c arg1 harg1 arg2 harg2 arg3 harg3 arg5 x0 x1 x2 p ⟨8192 + q.val, by omega⟩ (by show 8192 ≤ 8192 + q.val; omega)

/-- The reload of run 9 reads the exponentials the second pass stored at columns 9216 … 9999. -/
theorem reload9 (p : Fin 200) (q : Fin 784) :
    kernelRun0_A.sl.v502 (F := Ideal) c arg1 harg1 arg2 harg2 arg3 harg3 arg5 x0 x1 x2 (ix2 p q) = bexp x0 x1 x2 p ⟨9216 + q.val, by omega⟩ := by
  unfold kernelRun0_A.sl.v502
  rw [View.readCov_eq_canon']
  show View.canon _ ((Rect.unit (s := S200x10000) ![0, 9216] ![200, 784] inb_S200x10000_S200x784_0_9216).emb (ix2 p q)) = _
  rw [emb_unit_ix2_fullRows]
  exact keep9 c arg1 harg1 arg2 harg2 arg3 harg3 arg5 x0 x1 x2 p ⟨9216 + q.val, by omega⟩ (by show 9216 ≤ 9216 + q.val; omega)

end Cert.KernelIdeal.Body

end
-- ==== Proof.BodySum.lean ====
/-
  The second pass of the tiled program's body, as far as the row sum goes: l ← l + (sum of the run's shifted
  exponentials), from l = 0, over the ten runs of a row; then the reciprocal 1 / l, and the third pass's products of a
  stored run of exponentials with that reciprocal. A sum over a row cut into consecutive runs is the left-nested sum
  of the runs' sums, so after the tenth run l is the whole row's sum of shifted exponentials.
-/
import proofs.«122247_j47983374631488_2_alg».proof.Proof.BodyMax

noncomputable section

namespace Cert.KernelIdeal.Body

open Cert.KernelIdeal Cert.KernelIdeal.Gen Idealize.ShloMosaic Idealize.ShloMosaic.ValueIdx Idealize.ShloMosaic.TcCoe
open Cert.Attn Cert.Attn.BodyOps Cert.Attn.Block

variable (c : Dev nD) (arg1 : Memref sig .tc .vmem S200x1 .f32) (harg1 : arg1.IsWhole) (arg2 : Memref sig .tc .vmem S1x10000 .f32) (harg2 : arg2.IsWhole)
  (arg3 : Memref sig .tc .vmem S200x10000 .i32) (harg3 : arg3.IsWhole) (arg4 : Memref sig .tc .vmem S10000x128 .bf16) (harg4 : arg4.IsWhole)
  (arg5 : Memref sig .tc .vmem S200x10000 .f32) (harg5 : arg5.IsWhole) (arg6 : Memref sig .tc .vmem S200x128 .f32) (harg6 : arg6.IsWhole)
  (x0 : Vec Ideal S200x1 .f32) (x1 : Vec Ideal S1x10000 .f32) (x2 : Vec Ideal S200x10000 .i32) (x3 : Vec Ideal S10000x128 .bf16)

/-- The word 0x3F800000 is 1. -/
theorem ofBits_one : Ideal.ofBits .f32 0x3F800000#32 = (1 : EReal) := by
  simp [Ideal.ofBits, Ideal.ieee]
  rw [← EReal.coe_mul]
  norm_num

set_option backward.isDefEq.respectTransparency.types false in
/-- After the ninth run the running sum of row `p` is the sum of the nine full runs' shifted exponentials. -/
theorem l9_apply (p : Fin 200) (u : Fin 1) :
    kernelRun0_A.sl.r_32 (F := Ideal) c arg1 harg1 arg2 harg2 arg3 harg3 x0 x1 x2 (ix2 p u)
      = (((((((((0 + ∑ q, Chunks.run 0 1024 (by omega) (bexp x0 x1 x2 p) q) + ∑ q, Chunks.run 1024 1024 (by omega) (bexp x0 x1 x2 p) q) + ∑ q, Chunks.run 2048 1024 (by omega) (bexp x0 x1 x2 p) q) + ∑ q, Chunks.run 3072 1024 (by omega) (bexp x0 x1 x2 p) q) + ∑ q, Chunks.run 4096 1024 (by omega) (bexp x0 x1 x2 p) q) + ∑ q, Chunks.run 5120 1024 (by omega) (bexp x0 x1 x2 p) q) + ∑ q, Chunks.run 6144 1024 (by omega) (bexp x0 x1 x2 p) q) + ∑ q, Chunks.run 7168 1024 (by omega) (bexp x0 x1 x2 p) q) + ∑ q, Chunks.run 8192 1024 (by omega) (bexp x0 x1 x2 p) q) := by
  unfold kernelRun0_A.sl.r_32 kernelRun0_A.sl.r_29 kernelRun0_A.sl.r_31 kernelRun0_A.sl.r_26 kernelRun0_A.sl.r_28 kernelRun0_A.sl.r_6
    kernelRun0_A.sl.r_25 kernelRun0_A.sl.r_18 kernelRun0_A.sl.r_20 kernelRun0_A.sl.r_21 kernelRun0_A.sl.r_22 kernelRun0_A.sl.r_16
    kernelRun0_A.sl.r_12 kernelRun0_A.sl.r_13
  unfold k0_pay41 k0_pay39 k0_pay40 k0_pay38 k0_pay36 k0_pay35 k0_pay34 k0_pay32 k0_pay31 k0_pay30 k0_pay29 k0_pay27 k0_pay26 k0_pay25
    k0_pay23 k0_pay22 k0_pay21 k0_pay20 k0_pay18 k0_pay17 k0_pay16 k0_pay14
  simp only [readAt_ix2, harg1.read_unread, harg2.read_unread, harg3.read_unread, shapeCast_self,
    maximumf_apply, addf_apply, subf_apply, mulf_apply, divf_apply, exp_apply, truncf_apply, broadcast_apply, select_apply, cmpi_apply, cmpf_apply,
    constant_apply, rowMaxCol_apply (a := 200) (b := 1024), rowMaxCol_apply (a := 200) (b := 784),
    rowSumCol_apply (a := 200) (b := 1024), rowSumCol_apply (a := 200) (b := 784), broadcastTo_a1_ab_apply, broadcastTo_1b_ab_apply,
    Nat.zero_add, Fin.eta, Ideal.ofBits_def, ofBits_negInf, Ideal.ofBits_zero_f32, Ideal.cmpf_def, Ideal.exp_def, Ideal.divf_def,
    wh1_apply, m_apply, zero_add, Chunks.run, bexp, bsc, esc, leakyGt, Cert.Attn.slope, Cert.Attn.masked]

set_option backward.isDefEq.respectTransparency.types false in
/-- The reciprocal of the row sum as the body computes it from the nine-run sum and the last run. -/
theorem invl_core (p : Fin 200) (u : Fin 1) :
    k0_pay45 (F := Ideal) (kernelRun0_A.sl.r (F := Ideal) c arg1 harg1 x0) (kernelRun0_A.sl.r_11 (F := Ideal) c arg1 harg1 arg2 harg2 arg3 harg3 x0 x1 x2)
      (kernelRun0_A.sl.r_32 (F := Ideal) c arg1 harg1 arg2 harg2 arg3 harg3 x0 x1 x2)
      (View.readAt (Elt Ideal) arg2.view (Rect.unit (s := S1x10000) ![0, 9216] S1x784.size inb_S1x10000_S1x784_0_9216).toLoadRect (harg2.unread x1))
      (View.readAt (Elt Ideal) arg3.view (Rect.unit (s := S200x10000) ![0, 9216] S200x784.size inb_S200x10000_S200x784_0_9216).toLoadRect (harg3.unread x2)) (ix2 p u) = Ideal.div 1 (bsum x0 x1 x2 p) := by
  unfold bsum
  rw [Chunks.sum_runs]
  unfold k0_pay45 k0_pay43
  simp only [readAt_ix2, harg1.read_unread, harg2.read_unread, harg3.read_unread, shapeCast_self,
    maximumf_apply, addf_apply, subf_apply, mulf_apply, divf_apply, exp_apply, truncf_apply, broadcast_apply, select_apply, cmpi_apply, cmpf_apply,
    constant_apply, rowMaxCol_apply (a := 200) (b := 1024), rowMaxCol_apply (a := 200) (b := 784),
    rowSumCol_apply (a := 200) (b := 1024), rowSumCol_apply (a := 200) (b := 784), broadcastTo_a1_ab_apply, broadcastTo_1b_ab_apply,
    Nat.zero_add, Fin.eta, Ideal.ofBits_def, ofBits_negInf, Ideal.ofBits_zero_f32, Ideal.cmpf_def, Ideal.exp_def, Ideal.divf_def,
    wh1_apply, m_apply, l9_apply, ofBits_one, zero_add, Chunks.run, bexp, bsc, esc, leakyGt, Cert.Attn.slope, Cert.Attn.masked]

/-- After the tenth run the body holds the reciprocal of the whole row's sum of shifted exponentials. -/
theorem invl_apply (p : Fin 200) (u : Fin 1) :
    kernelRun0_A.sl.r_35 (F := Ideal) c arg1 harg1 arg2 harg2 arg3 harg3 x0 x1 x2 (ix2 p u) = Ideal.div 1 (bsum x0 x1 x2 p) := by
  unfold kernelRun0_A.sl.r_35
  exact invl_core c arg1 harg1 arg2 harg2 arg3 harg3 x0 x1 x2 p u

/-- The third pass on the first run: the stored exponentials times the reciprocal of the row sum. -/
theorem normRun0 (v : Vec Ideal S200x1024 .f32) (p : Fin 200) (q : Fin 1024) :
    k0_pay46 (F := Ideal) (kernelRun0_A.sl.r (F := Ideal) c arg1 harg1 x0) (kernelRun0_A.sl.r_11 (F := Ideal) c arg1 harg1 arg2 harg2 arg3 harg3 x0 x1 x2)
      (kernelRun0_A.sl.r_32 (F := Ideal) c arg1 harg1 arg2 harg2 arg3 harg3 x0 x1 x2)
      (View.readAt (Elt Ideal) arg2.view (Rect.unit (s := S1x10000) ![0, 9216] S1x784.size inb_S1x10000_S1x784_0_9216).toLoadRect (harg2.unread x1))
      (View.readAt (Elt Ideal) arg3.view (Rect.unit (s := S200x10000) ![0, 9216] S200x784.size inb_S200x10000_S200x784_0_9216).toLoadRect (harg3.unread x2))
      v (ix2 p q) = v (ix2 p q) * Ideal.div 1 (bsum x0 x1 x2 p) := by
  unfold k0_pay46
  simp only [shapeCast_self, mulf_apply, broadcastTo_a1_ab_apply]
  exact congrArg (fun t => v (ix2 p q) * t) (invl_core c arg1 harg1 arg2 harg2 arg3 harg3 x0 x1 x2 p 0)

/-- The third pass on the second run: the stored exponentials times the reciprocal of the row sum. -/
theorem normRun1 (v : Vec Ideal S200x1024 .f32) (p : Fin 200) (q : Fin 1024) :
    k0_pay47 (F := Ideal) (kernelRun0_A.sl.r (F := Ideal) c arg1 harg1 x0) (kernelRun0_A.sl.r_11 (F := Ideal) c arg1 harg1 arg2 harg2 arg3 harg3 x0 x1 x2)
      (kernelRun0_A.sl.r_32 (F := Ideal) c arg1 harg1 arg2 harg2 arg3 harg3 x0 x1 x2)
      (View.readAt (Elt Ideal) arg2.view (Rect.unit (s := S1x10000) ![0, 9216] S1x784.size inb_S1x10000_S1x784_0_9216).toLoadRect (harg2.unread x1))
      (View.readAt (Elt Ideal) arg3.view (Rect.unit (s := S200x10000) ![0, 9216] S200x784.size inb_S200x10000_S200x784_0_9216).toLoadRect (harg3.unread x2))
      v (ix2 p q) = v (ix2 p q) * Ideal.div 1 (bsum x0 x1 x2 p) := by
  unfold k0_pay47
  simp only [shapeCast_self, mulf_apply, broadcastTo_a1_ab_apply]
  exact congrArg (fun t => v (ix2 p q) * t) (invl_core c arg1 harg1 arg2 harg2 arg3 harg3 x0 x1 x2 p 0)

/-- The third pass on the third run: the stored exponentials times the reciprocal of the row sum. -/
theorem normRun2 (v : Vec Ideal S200x1024 .f32) (p : Fin 200) (q : Fin 1024) :
    k0_pay48 (F := Ideal) (kernelRun0_A.sl.r_35 (F := Ideal) c arg1 harg1 arg2 harg2 arg3 harg3 x0 x1 x2) v (ix2 p q) = v (ix2 p q) * Ideal.div 1 (bsum x0 x1 x2 p) := by
  unfold k0_pay48
  simp only [shapeCast_self, mulf_apply, broadcastTo_a1_ab_apply, invl_apply]

/-- The third pass on the fourth run: the stored exponentials times the reciprocal of the row sum. -/
theorem normRun3 (v : Vec Ideal S200x1024 .f32) (p : Fin 200) (q : Fin 1024) :
    k0_pay49 (F := Ideal) (kernelRun0_A.sl.r_35 (F := Ideal) c arg1 harg1 arg2 harg2 arg3 harg3 x0 x1 x2) v (ix2 p q) = v (ix2 p q) * Ideal.div 1 (bsum x0 x1 x2 p) := by
  unfold k0_pay49
  simp only [shapeCast_self, mulf_apply, broadcastTo_a1_ab_apply, invl_apply]

/-- The third pass on the fifth run: the stored exponentials times the reciprocal of the row sum. -/
theorem normRun4 (v : Vec Ideal S200x1024 .f32) (p : Fin 200) (q : Fin 1024) :
    k0_pay50 (F := Ideal) (kernelRun0_A.sl.r_35 (F := Ideal) c arg1 harg1 arg2 harg2 arg3 harg3 x0 x1 x2) v (ix2 p q) = v (ix2 p q) * Ideal.div 1 (bsum x0 x1 x2 p) := by
  unfold k0_pay50
  simp only [shapeCast_self, mulf_apply, broadcastTo_a1_ab_apply, invl_apply]

/-- The third pass on the sixth run: the stored exponentials times the reciprocal of the row sum. -/
theorem normRun5 (v : Vec Ideal S200x1024 .f32) (p : Fin 200) (q : Fin 1024) :
    k0_pay51 (F := Ideal) (kernelRun0_A.sl.r_35 (F := Ideal) c arg1 harg1 arg2 harg2 arg3 harg3 x0 x1 x2) v (ix2 p q) = v (ix2 p q) * Ideal.div 1 (bsum x0 x1 x2 p) := by
  unfold k0_pay51
  simp only [shapeCast_self, mulf_apply, broadcastTo_a1_ab_apply, invl_apply]

/-- The third pass on the seventh run: the stored exponentials times the reciprocal of the row sum. -/
theorem normRun6 (v : Vec Ideal S200x1024 .f32) (p : Fin 200) (q : Fin 1024) :
    k0_pay52 (F := Ideal) (kernelRun0_A.sl.r_35 (F := Ideal) c arg1 harg1 arg2 harg2 arg3 harg3 x0 x1 x2) v (ix2 p q) = v (ix2 p q) * Ideal.div 1 (bsum x0 x1 x2 p) := by
  unfold k0_pay52
  simp only [shapeCast_self, mulf_apply, broadcastTo_a1_ab_apply, invl_apply]

/-- The third pass on the eighth run: the stored exponentials times the reciprocal of the row sum. -/
theorem normRun7 (v : Vec Ideal S200x1024 .f32) (p : Fin 200) (q : Fin 1024) :
    k0_pay53 (F := Ideal) (kernelRun0_A.sl.r_35 (F := Ideal) c arg1 harg1 arg2 harg2 arg3 harg3 x0 x1 x2) v (ix2 p q) = v (ix2 p q) * Ideal.div 1 (bsum x0 x1 x2 p) := by
  unfold k0_pay53
  simp only [shapeCast_self, mulf_apply, broadcastTo_a1_ab_apply, invl_apply]

/-- The third pass on the ninth run: the stored exponentials times the reciprocal of the row sum. -/
theorem normRun8 (v : Vec Ideal S200x1024 .f32) (p : Fin 200) (q : Fin 1024) :
    k0_pay1 (F := Ideal) (kernelRun0_A.sl.r_35 (F := Ideal) c arg1 harg1 arg2 harg2 arg3 harg3 x0 x1 x2) v (ix2 p q) = v (ix2 p q) * Ideal.div 1 (bsum x0 x1 x2 p) := by
  unfold k0_pay1
  simp only [shapeCast_self, mulf_apply, broadcastTo_a1_ab_apply, invl_apply]

/-- The third pass on the last run, of width 784: the stored exponentials times the reciprocal of the row sum. -/
theorem normRun9 (v : Vec Ideal S200x784 .f32) (p : Fin 200) (q : Fin 784) :
    k0_pay2 (F := Ideal) (kernelRun0_A.sl.r_35 (F := Ideal) c arg1 harg1 arg2 harg2 arg3 harg3 x0 x1 x2) v (ix2 p q) = v (ix2 p q) * Ideal.div 1 (bsum x0 x1 x2 p) := by
  unfold k0_pay2
  simp only [shapeCast_self, mulf_apply, broadcastTo_a1_ab_apply, invl_apply]

end Cert.KernelIdeal.Body

end
-- ==== Proof.BodyMatmul.lean ====
/-
  The two block products of the tiled program read at an index: a 200 × k run of unnormalised attention weights times
  the matching k × 128 rows of the value matrix, added into a 200 × 128 accumulator (k = 1024 for the nine full runs,
  784 for the last).  At the exact instance each is the accumulator plus a plain sum over the k contracted columns: the
  contraction index has one axis, which is re-indexed by its coordinate; the left operand's index at output (p, c) and
  contraction coordinate q is (p, q) and the right operand's is (q, c).
-/
import proofs.«122247_j47983374631488_2_alg».proof.Proof.Gen.KernelIdeal
import proofs.«122247_j47983374631488_2_alg».proof.Proof.BodyOps

noncomputable section

namespace Cert.KernelIdeal.Body

open Cert.KernelIdeal Cert.KernelIdeal.Gen Idealize.ShloMosaic Idealize.ShloMosaic.ValueIdx

/-- The block product [200,1024]·[1024,128] into an accumulator, read at `(p, c)`: the accumulator there plus the sum over
    the 1024 contracted columns. -/
theorem mm1024_apply (lhs : FVec Ideal S200x1024 .bf16) (rhs : FVec Ideal S1024x128 .bf16) (acc : FVec Ideal S200x128 .f32)
    (p : Fin 200) (c : Fin 128) :
    matmul dot_S200x1024_S1024x128_S200x128_1_0_0_1_n_n none lhs rhs acc (ix2 p c)
      = acc (ix2 p c) + ∑ q : Fin 1024, lhs (ix2 p q) * rhs (ix2 q c) := by
  have l0 : ∀ (i : S200x128.Idx) (q : dot_S200x1024_S1024x128_S200x128_1_0_0_1_n_n.contr.Idx),
      (dot_S200x1024_S1024x128_S200x128_1_0_0_1_n_n.lhsIdx i q 0).val = (i 0).val := fun i q => by
    unfold DotDims.lhsIdx
    rw [dif_neg (show ¬(0 : Fin S200x1024.rank) ∈ dot_S200x1024_S1024x128_S200x128_1_0_0_1_n_n.lhsBatch by decide),
      dif_pos (show (0 : Fin S200x1024.rank) ∈ dot_S200x1024_S1024x128_S200x128_1_0_0_1_n_n.lhsNonContracting by decide)]
    rfl
  have l1 : ∀ (i : S200x128.Idx) (q : dot_S200x1024_S1024x128_S200x128_1_0_0_1_n_n.contr.Idx),
      (dot_S200x1024_S1024x128_S200x128_1_0_0_1_n_n.lhsIdx i q 1).val = (q ⟨0, by decide⟩).val := fun i q =>
    dot_S200x1024_S1024x128_S200x128_1_0_0_1_n_n.lhsIdx_val_of_single rfl i q
  have r0 : ∀ (i : S200x128.Idx) (q : dot_S200x1024_S1024x128_S200x128_1_0_0_1_n_n.contr.Idx),
      (dot_S200x1024_S1024x128_S200x128_1_0_0_1_n_n.rhsIdx i q 0).val = (q ⟨0, by decide⟩).val := fun i q =>
    dot_S200x1024_S1024x128_S200x128_1_0_0_1_n_n.rhsIdx_val_of_single rfl i q
  have r1 : ∀ (i : S200x128.Idx) (q : dot_S200x1024_S1024x128_S200x128_1_0_0_1_n_n.contr.Idx),
      (dot_S200x1024_S1024x128_S200x128_1_0_0_1_n_n.rhsIdx i q 1).val = (i 1).val := fun i q => by
    unfold DotDims.rhsIdx
    rw [dif_neg (show ¬(1 : Fin S1024x128.rank) ∈ dot_S200x1024_S1024x128_S200x128_1_0_0_1_n_n.rhsBatch by decide),
      dif_pos (show (1 : Fin S1024x128.rank) ∈ dot_S200x1024_S1024x128_S200x128_1_0_0_1_n_n.rhsNonContracting by decide)]
    rfl
  simp only [matmul]
  rw [Ideal.matmul_apply, ← Equiv.sum_comp (contrEquiv1 dot_S200x1024_S1024x128_S200x128_1_0_0_1_n_n 1024 rfl rfl).symm]
  refine congrArg (acc (ix2 p c) + ·) (Finset.sum_congr rfl fun k _ => ?_)
  have hk := contrEquiv1_symm_val dot_S200x1024_S1024x128_S200x128_1_0_0_1_n_n 1024 rfl rfl k
  have el : dot_S200x1024_S1024x128_S200x128_1_0_0_1_n_n.lhsIdx (ix2 p c)
      ((contrEquiv1 dot_S200x1024_S1024x128_S200x128_1_0_0_1_n_n 1024 rfl rfl).symm k) = ix2 p k :=
    funext fun a => Fin.ext (by
      match a with
      | ⟨0, _⟩ => exact l0 _ _
      | ⟨1, _⟩ => exact (l1 _ _).trans hk)
  have er : dot_S200x1024_S1024x128_S200x128_1_0_0_1_n_n.rhsIdx (ix2 p c)
      ((contrEquiv1 dot_S200x1024_S1024x128_S200x128_1_0_0_1_n_n 1024 rfl rfl).symm k) = ix2 k c :=
    funext fun a => Fin.ext (by
      match a with
      | ⟨0, _⟩ => exact (r0 _ _).trans hk
      | ⟨1, _⟩ => exact r1 _ _)
  rw [el, er]

/-- The last run's product [200,784]·[784,128], likewise. -/
theorem mm784_apply (lhs : FVec Ideal S200x784 .bf16) (rhs : FVec Ideal S784x128 .bf16) (acc : FVec Ideal S200x128 .f32)
    (p : Fin 200) (c : Fin 128) :
    matmul dot_S200x784_S784x128_S200x128_1_0_0_1_n_n none lhs rhs acc (ix2 p c)
      = acc (ix2 p c) + ∑ q : Fin 784, lhs (ix2 p q) * rhs (ix2 q c) := by
  have l0 : ∀ (i : S200x128.Idx) (q : dot_S200x784_S784x128_S200x128_1_0_0_1_n_n.contr.Idx),
      (dot_S200x784_S784x128_S200x128_1_0_0_1_n_n.lhsIdx i q 0).val = (i 0).val := fun i q => by
    unfold DotDims.lhsIdx
    rw [dif_neg (show ¬(0 : Fin S200x784.rank) ∈ dot_S200x784_S784x128_S200x128_1_0_0_1_n_n.lhsBatch by decide),
      dif_pos (show (0 : Fin S200x784.rank) ∈ dot_S200x784_S784x128_S200x128_1_0_0_1_n_n.lhsNonContracting by decide)]
    rfl
  have l1 : ∀ (i : S200x128.Idx) (q : dot_S200x784_S784x128_S200x128_1_0_0_1_n_n.contr.Idx),
      (dot_S200x784_S784x128_S200x128_1_0_0_1_n_n.lhsIdx i q 1).val = (q ⟨0, by decide⟩).val := fun i q =>
    dot_S200x784_S784x128_S200x128_1_0_0_1_n_n.lhsIdx_val_of_single rfl i q
  have r0 : ∀ (i : S200x128.Idx) (q : dot_S200x784_S784x128_S200x128_1_0_0_1_n_n.contr.Idx),
      (dot_S200x784_S784x128_S200x128_1_0_0_1_n_n.rhsIdx i q 0).val = (q ⟨0, by decide⟩).val := fun i q =>
    dot_S200x784_S784x128_S200x128_1_0_0_1_n_n.rhsIdx_val_of_single rfl i q
  have r1 : ∀ (i : S200x128.Idx) (q : dot_S200x784_S784x128_S200x128_1_0_0_1_n_n.contr.Idx),
      (dot_S200x784_S784x128_S200x128_1_0_0_1_n_n.rhsIdx i q 1).val = (i 1).val := fun i q => by
    unfold DotDims.rhsIdx
    rw [dif_neg (show ¬(1 : Fin S784x128.rank) ∈ dot_S200x784_S784x128_S200x128_1_0_0_1_n_n.rhsBatch by decide),
      dif_pos (show (1 : Fin S784x128.rank) ∈ dot_S200x784_S784x128_S200x128_1_0_0_1_n_n.rhsNonContracting by decide)]
    rfl
  simp only [matmul]
  rw [Ideal.matmul_apply, ← Equiv.sum_comp (contrEquiv1 dot_S200x784_S784x128_S200x128_1_0_0_1_n_n 784 rfl rfl).symm]
  refine congrArg (acc (ix2 p c) + ·) (Finset.sum_congr rfl fun k _ => ?_)
  have hk := contrEquiv1_symm_val dot_S200x784_S784x128_S200x128_1_0_0_1_n_n 784 rfl rfl k
  have el : dot_S200x784_S784x128_S200x128_1_0_0_1_n_n.lhsIdx (ix2 p c)
      ((contrEquiv1 dot_S200x784_S784x128_S200x128_1_0_0_1_n_n 784 rfl rfl).symm k) = ix2 p k :=
    funext fun a => Fin.ext (by
      match a with
      | ⟨0, _⟩ => exact l0 _ _
      | ⟨1, _⟩ => exact (l1 _ _).trans hk)
  have er : dot_S200x784_S784x128_S200x128_1_0_0_1_n_n.rhsIdx (ix2 p c)
      ((contrEquiv1 dot_S200x784_S784x128_S200x128_1_0_0_1_n_n 784 rfl rfl).symm k) = ix2 k c :=
    funext fun a => Fin.ext (by
      match a with
      | ⟨0, _⟩ => exact (r0 _ _).trans hk
      | ⟨1, _⟩ => exact r1 _ _)
  rw [el, er]

end Cert.KernelIdeal.Body

end
-- ==== Proof.BodyAcc.lean ====
/-
  The accumulated product of the tiled program's body and its 200 × 128 output block.

  In the second pass the body walks row p of the block in ten runs; for each run it forms the shifted exponentials
  exp(e(p, j) − m(p)) of the run's scores, casts them to the value matrix's format (exactly, at the exact instance),
  multiplies them into the matching rows of the value matrix and adds the product to a 200 × 128 accumulator that
  starts at 0.  After the tenth run the accumulator at (p, k) is the sum of the ten run sums, which is the sum over
  the whole row of exp(e(p, j) − m(p)) · V(j, k): a sum over a row cut into consecutive runs is the sum of the run sums.
  The output block is that accumulator times the reciprocal of the row's sum of exponentials, spread along the row.
-/
import proofs.«122247_j47983374631488_2_alg».proof.Proof.BodyMax
import proofs.«122247_j47983374631488_2_alg».proof.Proof.BodyMatmul

noncomputable section

namespace Cert.KernelIdeal.Body

open Cert.KernelIdeal Cert.KernelIdeal.Gen Idealize.ShloMosaic Idealize.ShloMosaic.ValueIdx Idealize.ShloMosaic.TcCoe
open Cert.Attn Cert.Attn.BodyOps Cert.Attn.Block

variable (c : Dev nD) (arg1 : Memref sig .tc .vmem S200x1 .f32) (harg1 : arg1.IsWhole) (arg2 : Memref sig .tc .vmem S1x10000 .f32) (harg2 : arg2.IsWhole)
  (arg3 : Memref sig .tc .vmem S200x10000 .i32) (harg3 : arg3.IsWhole) (arg4 : Memref sig .tc .vmem S10000x128 .bf16) (harg4 : arg4.IsWhole)
  (arg5 : Memref sig .tc .vmem S200x10000 .f32) (harg5 : arg5.IsWhole) (arg6 : Memref sig .tc .vmem S200x128 .f32) (harg6 : arg6.IsWhole)
  (x0 : Vec Ideal S200x1 .f32) (x1 : Vec Ideal S1x10000 .f32) (x2 : Vec Ideal S200x10000 .i32) (x3 : Vec Ideal S10000x128 .bf16)

/-- After the first run the accumulator of row `p`, column `k` is the first run's exponentials against the first 1024 rows of the value matrix. -/
theorem acc14_apply (p : Fin 200) (k : Fin 128) :
    kernelRun0_A.sl.r_14 (F := Ideal) c arg1 harg1 arg2 harg2 arg3 harg3 arg4 harg4 x0 x1 x2 x3 (ix2 p k)
      = ∑ q : Fin 1024, Chunks.run 0 1024 (by omega) (fun j => bexp x0 x1 x2 p j * x3 (ix2 j k)) q := by
  unfold kernelRun0_A.sl.r_14 kernelRun0_A.sl.r_12 kernelRun0_A.sl.r_13
  unfold k0_pay19 k0_pay18 k0_pay17 k0_pay16 k0_pay15
  simp only [readAt_ix2, harg1.read_unread, harg2.read_unread, harg3.read_unread, harg4.read_unread, shapeCast_self,
    maximumf_apply, addf_apply, subf_apply, mulf_apply, exp_apply, truncf_apply, broadcast_apply, select_apply, cmpi_apply, cmpf_apply,
    constant_apply, broadcastTo_a1_ab_apply, broadcastTo_1b_ab_apply, mm1024_apply, mm784_apply, Nat.zero_add, Fin.eta,
    Ideal.ofBits_def, ofBits_negInf, Ideal.ofBits_zero_f32, Ideal.cmpf_def, Ideal.exp_def, wh1_apply, m_apply, zero_add,
    Chunks.run, bexp, bsc, esc, leakyGt, Cert.Attn.slope, Cert.Attn.masked]

/-- After the third run: the second and third runs' products added. -/
theorem acc19_apply (p : Fin 200) (k : Fin 128) :
    kernelRun0_A.sl.r_19 (F := Ideal) c arg1 harg1 arg2 harg2 arg3 harg3 arg4 harg4 x0 x1 x2 x3 (ix2 p k)
      = ((∑ q : Fin 1024, Chunks.run 0 1024 (by omega) (fun j => bexp x0 x1 x2 p j * x3 (ix2 j k)) q)
        + ∑ q : Fin 1024, Chunks.run 1024 1024 (by omega) (fun j => bexp x0 x1 x2 p j * x3 (ix2 j k)) q)
        + ∑ q : Fin 1024, Chunks.run 2048 1024 (by omega) (fun j => bexp x0 x1 x2 p j * x3 (ix2 j k)) q := by
  unfold kernelRun0_A.sl.r_19 kernelRun0_A.sl.r_15 kernelRun0_A.sl.r_17
  unfold k0_pay24 k0_pay22 k0_pay20
  simp only [readAt_ix2, harg1.read_unread, harg2.read_unread, harg3.read_unread, harg4.read_unread, shapeCast_self,
    maximumf_apply, addf_apply, subf_apply, mulf_apply, exp_apply, truncf_apply, broadcast_apply, select_apply, cmpi_apply, cmpf_apply,
    constant_apply, broadcastTo_a1_ab_apply, broadcastTo_1b_ab_apply, mm1024_apply, mm784_apply, Nat.zero_add, Fin.eta,
    Ideal.ofBits_def, ofBits_negInf, Ideal.ofBits_zero_f32, Ideal.cmpf_def, Ideal.exp_def, wh1_apply, m_apply, zero_add,
    Chunks.run, bexp, bsc, esc, leakyGt, Cert.Attn.slope, Cert.Attn.masked, acc14_apply]

/-- After the fourth run. -/
theorem acc23_apply (p : Fin 200) (k : Fin 128) :
    kernelRun0_A.sl.r_23 (F := Ideal) c arg1 harg1 arg2 harg2 arg3 harg3 arg4 harg4 x0 x1 x2 x3 (ix2 p k)
      = (((∑ q : Fin 1024, Chunks.run 0 1024 (by omega) (fun j => bexp x0 x1 x2 p j * x3 (ix2 j k)) q)
        + ∑ q : Fin 1024, Chunks.run 1024 1024 (by omega) (fun j => bexp x0 x1 x2 p j * x3 (ix2 j k)) q)
        + ∑ q : Fin 1024, Chunks.run 2048 1024 (by omega) (fun j => bexp x0 x1 x2 p j * x3 (ix2 j k)) q)
        + ∑ q : Fin 1024, Chunks.run 3072 1024 (by omega) (fun j => bexp x0 x1 x2 p j * x3 (ix2 j k)) q := by
  unfold kernelRun0_A.sl.r_23 kernelRun0_A.sl.r_20 kernelRun0_A.sl.r_21 kernelRun0_A.sl.r_22
  unfold k0_pay28 k0_pay27 k0_pay26 k0_pay25
  simp only [readAt_ix2, harg1.read_unread, harg2.read_unread, harg3.read_unread, harg4.read_unread, shapeCast_self,
    maximumf_apply, addf_apply, subf_apply, mulf_apply, exp_apply, truncf_apply, broadcast_apply, select_apply, cmpi_apply, cmpf_apply,
    constant_apply, broadcastTo_a1_ab_apply, broadcastTo_1b_ab_apply, mm1024_apply, mm784_apply, Nat.zero_add, Fin.eta,
    Ideal.ofBits_def, ofBits_negInf, Ideal.ofBits_zero_f32, Ideal.cmpf_def, Ideal.exp_def, wh1_apply, m_apply, zero_add,
    Chunks.run, bexp, bsc, esc, leakyGt, Cert.Attn.slope, Cert.Attn.masked, acc19_apply]

/-- After the sixth run. -/
theorem acc27_apply (p : Fin 200) (k : Fin 128) :
    kernelRun0_A.sl.r_27 (F := Ideal) c arg1 harg1 arg2 harg2 arg3 harg3 arg4 harg4 x0 x1 x2 x3 (ix2 p k)
      = (((((∑ q : Fin 1024, Chunks.run 0 1024 (by omega) (fun j => bexp x0 x1 x2 p j * x3 (ix2 j k)) q)
        + ∑ q : Fin 1024, Chunks.run 1024 1024 (by omega) (fun j => bexp x0 x1 x2 p j * x3 (ix2 j k)) q)
        + ∑ q : Fin 1024, Chunks.run 2048 1024 (by omega) (fun j => bexp x0 x1 x2 p j * x3 (ix2 j k)) q)
        + ∑ q : Fin 1024, Chunks.run 3072 1024 (by omega) (fun j => bexp x0 x1 x2 p j * x3 (ix2 j k)) q)
        + ∑ q : Fin 1024, Chunks.run 4096 1024 (by omega) (fun j => bexp x0 x1 x2 p j * x3 (ix2 j k)) q)
        + ∑ q : Fin 1024, Chunks.run 5120 1024 (by omega) (fun j => bexp x0 x1 x2 p j * x3 (ix2 j k)) q := by
  unfold kernelRun0_A.sl.r_27 kernelRun0_A.sl.r_24
  unfold k0_pay33 k0_pay31 k0_pay29
  simp only [readAt_ix2, harg1.read_unread, harg2.read_unread, harg3.read_unread, harg4.read_unread, shapeCast_self,
    maximumf_apply, addf_apply, subf_apply, mulf_apply, exp_apply, truncf_apply, broadcast_apply, select_apply, cmpi_apply, cmpf_apply,
    constant_apply, broadcastTo_a1_ab_apply, broadcastTo_1b_ab_apply, mm1024_apply, mm784_apply, Nat.zero_add, Fin.eta,
    Ideal.ofBits_def, ofBits_negInf, Ideal.ofBits_zero_f32, Ideal.cmpf_def, Ideal.exp_def, wh1_apply, m_apply, zero_add,
    Chunks.run, bexp, bsc, esc, leakyGt, Cert.Attn.slope, Cert.Attn.masked, acc23_apply]

/-- After the seventh run. -/
theorem acc30_apply (p : Fin 200) (k : Fin 128) :
    kernelRun0_A.sl.r_30 (F := Ideal) c arg1 harg1 arg2 harg2 arg3 harg3 arg4 harg4 x0 x1 x2 x3 (ix2 p k)
      = ((((((∑ q : Fin 1024, Chunks.run 0 1024 (by omega) (fun j => bexp x0 x1 x2 p j * x3 (ix2 j k)) q)
        + ∑ q : Fin 1024, Chunks.run 1024 1024 (by omega) (fun j => bexp x0 x1 x2 p j * x3 (ix2 j k)) q)
        + ∑ q : Fin 1024, Chunks.run 2048 1024 (by omega) (fun j => bexp x0 x1 x2 p j * x3 (ix2 j k)) q)
        + ∑ q : Fin 1024, Chunks.run 3072 1024 (by omega) (fun j => bexp x0 x1 x2 p j * x3 (ix2 j k)) q)
        + ∑ q : Fin 1024, Chunks.run 4096 1024 (by omega) (fun j => bexp x0 x1 x2 p j * x3 (ix2 j k)) q)
        + ∑ q : Fin 1024, Chunks.run 5120 1024 (by omega) (fun j => bexp x0 x1 x2 p j * x3 (ix2 j k)) q)
        + ∑ q : Fin 1024, Chunks.run 6144 1024 (by omega) (fun j => bexp x0 x1 x2 p j * x3 (ix2 j k)) q := by
  unfold kernelRun0_A.sl.r_30 kernelRun0_A.sl.r_28 kernelRun0_A.sl.r_6
  unfold k0_pay37 k0_pay35 k0_pay34
  simp only [readAt_ix2, harg1.read_unread, harg2.read_unread, harg3.read_unread, harg4.read_unread, shapeCast_self,
    maximumf_apply, addf_apply, subf_apply, mulf_apply, exp_apply, truncf_apply, broadcast_apply, select_apply, cmpi_apply, cmpf_apply,
    constant_apply, broadcastTo_a1_ab_apply, broadcastTo_1b_ab_apply, mm1024_apply, mm784_apply, Nat.zero_add, Fin.eta,
    Ideal.ofBits_def, ofBits_negInf, Ideal.ofBits_zero_f32, Ideal.cmpf_def, Ideal.exp_def, wh1_apply, m_apply, zero_add,
    Chunks.run, bexp, bsc, esc, leakyGt, Cert.Attn.slope, Cert.Attn.masked, acc27_apply]

/-- After the ninth run. -/
theorem acc33_apply (p : Fin 200) (k : Fin 128) :
    kernelRun0_A.sl.r_33 (F := Ideal) c arg1 harg1 arg2 harg2 arg3 harg3 arg4 harg4 x0 x1 x2 x3 (ix2 p k)
      = ((((((((∑ q : Fin 1024, Chunks.run 0 1024 (by omega) (fun j => bexp x0 x1 x2 p j * x3 (ix2 j k)) q)
        + ∑ q : Fin 1024, Chunks.run 1024 1024 (by omega) (fun j => bexp x0 x1 x2 p j * x3 (ix2 j k)) q)
        + ∑ q : Fin 1024, Chunks.run 2048 1024 (by omega) (fun j => bexp x0 x1 x2 p j * x3 (ix2 j k)) q)
        + ∑ q : Fin 1024, Chunks.run 3072 1024 (by omega) (fun j => bexp x0 x1 x2 p j * x3 (ix2 j k)) q)
        + ∑ q : Fin 1024, Chunks.run 4096 1024 (by omega) (fun j => bexp x0 x1 x2 p j * x3 (ix2 j k)) q)
        + ∑ q : Fin 1024, Chunks.run 5120 1024 (by omega) (fun j => bexp x0 x1 x2 p j * x3 (ix2 j k)) q)
        + ∑ q : Fin 1024, Chunks.run 6144 1024 (by omega) (fun j => bexp x0 x1 x2 p j * x3 (ix2 j k)) q)
        + ∑ q : Fin 1024, Chunks.run 7168 1024 (by omega) (fun j => bexp x0 x1 x2 p j * x3 (ix2 j k)) q)
        + ∑ q : Fin 1024, Chunks.run 8192 1024 (by omega) (fun j => bexp x0 x1 x2 p j * x3 (ix2 j k)) q := by
  unfold kernelRun0_A.sl.r_33 kernelRun0_A.sl.r_31
  unfold k0_pay42 k0_pay40 k0_pay39 k0_pay38
  simp only [readAt_ix2, harg1.read_unread, harg2.read_unread, harg3.read_unread, harg4.read_unread, shapeCast_self,
    maximumf_apply, addf_apply, subf_apply, mulf_apply, exp_apply, truncf_apply, broadcast_apply, select_apply, cmpi_apply, cmpf_apply,
    constant_apply, broadcastTo_a1_ab_apply, broadcastTo_1b_ab_apply, mm1024_apply, mm784_apply, Nat.zero_add, Fin.eta,
    Ideal.ofBits_def, ofBits_negInf, Ideal.ofBits_zero_f32, Ideal.cmpf_def, Ideal.exp_def, wh1_apply, m_apply, zero_add,
    Chunks.run, bexp, bsc, esc, leakyGt, Cert.Attn.slope, Cert.Attn.masked, acc30_apply]

/-- After the tenth run (of width 784): all ten runs' products, accumulated from the left. -/
theorem acc34_apply (p : Fin 200) (k : Fin 128) :
    kernelRun0_A.sl.r_34 (F := Ideal) c arg1 harg1 arg2 harg2 arg3 harg3 arg4 harg4 x0 x1 x2 x3 (ix2 p k)
      = (((((((((∑ q : Fin 1024, Chunks.run 0 1024 (by omega) (fun j => bexp x0 x1 x2 p j * x3 (ix2 j k)) q)
        + ∑ q : Fin 1024, Chunks.run 1024 1024 (by omega) (fun j => bexp x0 x1 x2 p j * x3 (ix2 j k)) q)
        + ∑ q : Fin 1024, Chunks.run 2048 1024 (by omega) (fun j => bexp x0 x1 x2 p j * x3 (ix2 j k)) q)
        + ∑ q : Fin 1024, Chunks.run 3072 1024 (by omega) (fun j => bexp x0 x1 x2 p j * x3 (ix2 j k)) q)
        + ∑ q : Fin 1024, Chunks.run 4096 1024 (by omega) (fun j => bexp x0 x1 x2 p j * x3 (ix2 j k)) q)
        + ∑ q : Fin 1024, Chunks.run 5120 1024 (by omega) (fun j => bexp x0 x1 x2 p j * x3 (ix2 j k)) q)
        + ∑ q : Fin 1024, Chunks.run 6144 1024 (by omega) (fun j => bexp x0 x1 x2 p j * x3 (ix2 j k)) q)
        + ∑ q : Fin 1024, Chunks.run 7168 1024 (by omega) (fun j => bexp x0 x1 x2 p j * x3 (ix2 j k)) q)
        + ∑ q : Fin 1024, Chunks.run 8192 1024 (by omega) (fun j => bexp x0 x1 x2 p j * x3 (ix2 j k)) q)
        + ∑ q : Fin 784, Chunks.run 9216 784 (by omega) (fun j => bexp x0 x1 x2 p j * x3 (ix2 j k)) q := by
  unfold kernelRun0_A.sl.r_34
  unfold k0_pay44 k0_pay43
  simp only [readAt_ix2, harg1.read_unread, harg2.read_unread, harg3.read_unread, harg4.read_unread, shapeCast_self,
    maximumf_apply, addf_apply, subf_apply, mulf_apply, exp_apply, truncf_apply, broadcast_apply, select_apply, cmpi_apply, cmpf_apply,
    constant_apply, broadcastTo_a1_ab_apply, broadcastTo_1b_ab_apply, mm1024_apply, mm784_apply, Nat.zero_add, Fin.eta,
    Ideal.ofBits_def, ofBits_negInf, Ideal.ofBits_zero_f32, Ideal.cmpf_def, Ideal.exp_def, wh1_apply, m_apply, zero_add,
    Chunks.run, bexp, bsc, esc, leakyGt, Cert.Attn.slope, Cert.Attn.masked, acc33_apply]

/-- The accumulator after the second pass: row `p` of shifted exponentials against column `k` of the value matrix. -/
theorem acc_apply (p : Fin 200) (k : Fin 128) :
    kernelRun0_A.sl.r_34 (F := Ideal) c arg1 harg1 arg2 harg2 arg3 harg3 arg4 harg4 x0 x1 x2 x3 (ix2 p k)
      = ∑ j : Fin 10000, bexp x0 x1 x2 p j * x3 (ix2 j k) := by
  rw [Chunks.sum_runs (fun j => bexp x0 x1 x2 p j * x3 (ix2 j k)), zero_add]
  exact acc34_apply c arg1 harg1 arg2 harg2 arg3 harg3 arg4 harg4 x0 x1 x2 x3 p k

/-- The body stores the 200 × 128 output block once, whole: what it leaves there is the accumulator times the
    reciprocal column spread along the rows. -/
theorem out5_piece (i : grid0.Coords) :
    Gen.out0_A_5 (F := Ideal) c i arg1 harg1 arg2 harg2 arg3 harg3 arg4 harg4 arg5 harg5 arg6 harg6 x0 x1 x2 x3
      = k0_pay3 (kernelRun0_A.sl.r_34 (F := Ideal) c arg1 harg1 arg2 harg2 arg3 harg3 arg4 harg4 x0 x1 x2 x3)
          (kernelRun0_A.sl.r_35 (F := Ideal) c arg1 harg1 arg2 harg2 arg3 harg3 x0 x1 x2) := by
  have hz : (![0, 0] : Fin 2 → ℕ) = fun _ => 0 := funext fun a => by
    match a with
    | ⟨0, _⟩ => rfl
    | ⟨1, _⟩ => rfl
  unfold out0_A_5
  rw [View.read_writes_eq_canon _ _ _ (cover0_A_5 c i arg1 harg1 arg2 harg2 arg3 harg3 arg4 harg4 arg5 harg5 arg6 harg6 x0 x1 x2 x3)]
  unfold kernelRun0_A
  dsimp only
  rw [View.canon_unit_zero hz]

/-- The output block is the block of the layer's output, once the reciprocal column is known to hold the reciprocals
    of the rows' sums of exponentials. -/
theorem out5_of
    (hinv : ∀ (p : Fin 200) (u : Fin 1),
      kernelRun0_A.sl.r_35 (F := Ideal) c arg1 harg1 arg2 harg2 arg3 harg3 x0 x1 x2 (ix2 p u) = Ideal.div 1 (bsum x0 x1 x2 p))
    (i : grid0.Coords) :
    Gen.out0_A_5 (F := Ideal) c i arg1 harg1 arg2 harg2 arg3 harg3 arg4 harg4 arg5 harg5 arg6 harg6 x0 x1 x2 x3 = Cert.Attn.Block.blkOut x0 x1 x2 x3 := by
  rw [out5_piece]
  funext y
  obtain ⟨p, k, rfl⟩ : ∃ p k, y = ix2 p k := ⟨y 0, y 1, eq_ix2 y⟩
  unfold k0_pay3
  show _ = (∑ j : Fin 10000, bexp x0 x1 x2 p j * x3 (ix2 j k)) * Ideal.div 1 (bsum x0 x1 x2 p)
  rw [mulf_apply, broadcastTo_a1_ab_apply, acc_apply, hinv]

end Cert.KernelIdeal.Body

end
-- ==== Proof.BodyAttn.lean ====
/-
  The third pass of the tiled program's body, and the attention block it leaves.

  The third pass walks the ten column runs once more: it reloads a run of stored exponentials and stores it back multiplied by
  the reciprocal of the row sum.  After run k the output buffer reads, at every column below the end of run k, the
  normalised value exp(e − max)·(1/∑), and beyond it still the stored exponential.  After the tenth run every column is
  normalised: the buffer is the attention block.  The induction over the runs is one step, stated once for a store of
  full height at column offset o and width w, and applied ten times.
-/
import proofs.«122247_j47983374631488_2_alg».proof.Proof.BodyReload
import proofs.«122247_j47983374631488_2_alg».proof.Proof.BodySum
import proofs.«122247_j47983374631488_2_alg».proof.Proof.BodyAcc

noncomputable section

namespace Cert.KernelIdeal.Body

open Cert.KernelIdeal Cert.KernelIdeal.Gen Idealize.ShloMosaic Idealize.ShloMosaic.ValueIdx Idealize.ShloMosaic.TcCoe
open Cert.Attn Cert.Attn.BodyOps Cert.Attn.Block

variable (c : Dev nD) (arg1 : Memref sig .tc .vmem S200x1 .f32) (harg1 : arg1.IsWhole) (arg2 : Memref sig .tc .vmem S1x10000 .f32) (harg2 : arg2.IsWhole)
  (arg3 : Memref sig .tc .vmem S200x10000 .i32) (harg3 : arg3.IsWhole) (arg4 : Memref sig .tc .vmem S10000x128 .bf16) (harg4 : arg4.IsWhole)
  (arg5 : Memref sig .tc .vmem S200x10000 .f32) (harg5 : arg5.IsWhole) (arg6 : Memref sig .tc .vmem S200x128 .f32) (harg6 : arg6.IsWhole)
  (x0 : Vec Ideal S200x1 .f32) (x1 : Vec Ideal S1x10000 .f32) (x2 : Vec Ideal S200x10000 .i32) (x3 : Vec Ideal S10000x128 .bf16)

/-- One run of the third pass: if the list `T` reads the attention block at every column below `o`, and the new store of
    full height at columns `[o, o + w)` holds the attention block there, then the extended list reads the attention
    block at every column below `o + w`. -/
theorem normalise_step (o w : ℕ)
    (inb : ∀ a, (![0, o] : Fin 2 → ℕ) a + (![200, w] : Fin 2 → ℕ) a ≤ (⟨2, ![200, 10000]⟩ : Shape).size a)
    (pay : (⟨2, ![200, w]⟩ : Shape).Idx → EReal) (T : List (View.Piece (Elt Ideal) S200x10000 .f32))
    (hpay : ∀ (p : Fin 200) (q : Fin w),
      pay (ix2 p q) = blkAttn x0 x1 x2 (ix2 p ⟨o + q.val, lt_of_lt_of_le (Nat.add_lt_add_left q.isLt o) (inb 1)⟩))
    (hT : ∀ (p : Fin 200) (j : Fin 10000), j.val < o → View.canon T (ix2 p j) = blkAttn x0 x1 x2 (ix2 p j))
    (p : Fin 200) (j : Fin 10000) (hj : j.val < o + w) :
    View.canon ((⟨Rect.unit (s := S200x10000) ![0, o] ![200, w] inb, pay⟩ : View.Piece (Elt Ideal) S200x10000 .f32) :: T) (ix2 p j)
      = blkAttn x0 x1 x2 (ix2 p j) := by
  by_cases hlt : j.val < o
  · rw [View.canon_cons_of_not_mem _ _ (fun h => by have := (mem_unit_ix2 inb p j).mp h; omega)]
    exact hT p j hlt
  · obtain ⟨q, rfl⟩ : ∃ q : Fin w, j = ⟨o + q.val, lt_of_lt_of_le (Nat.add_lt_add_left q.isLt o) (inb 1)⟩ :=
      ⟨⟨j.val - o, by omega⟩, Fin.ext (by show j.val = o + (j.val - o); omega)⟩
    have e := emb_unit_ix2_fullRows inb p q
    have h1 := View.canon_cons_emb (Val := Elt Ideal) (Rect.unit (s := S200x10000) ![0, o] ![200, w] inb) pay T (ix2 p q)
    rw [e] at h1
    exact h1.trans (hpay p q)

/-! ### The ten runs of the third pass

Each lemma: after the third pass has rewritten runs 0 … k − 1 in place, the output buffer reads the attention block at every
column below the end of run k − 1.  The step's two obligations are the store's payload — the reloaded run (which still
holds the stored exponentials there) times the reciprocal of the row sum — and the previous lemma. -/

/-- The normalised value is the attention block's entry. -/
theorem attn_entry (p : Fin 200) (j : Fin 10000) :
    bexp x0 x1 x2 p j * Ideal.div 1 (bsum x0 x1 x2 p) = blkAttn x0 x1 x2 (ix2 p j) := rfl

theorem done1 (p : Fin 200) (j : Fin 10000) (hj : j.val < 0 + 1024) :
    View.canon (kernelRun0_A.sl.H4_11 (F := Ideal) c arg1 harg1 arg2 harg2 arg3 harg3 arg5 x0 x1 x2) (ix2 p j) = blkAttn x0 x1 x2 (ix2 p j) := by
  unfold kernelRun0_A.sl.H4_11
  refine normalise_step x0 x1 x2 0 1024 inb_S200x10000_S200x1024_0_0 _ _ (fun p q => ?_) (fun p j h => absurd h (Nat.not_lt_zero _)) p j hj
  refine (normRun0 c arg1 harg1 arg2 harg2 arg3 harg3 x0 x1 x2 _ p q).trans ?_
  rw [reload0 c arg1 harg1 arg2 harg2 arg3 harg3 arg5 x0 x1 x2 p q]
  exact attn_entry x0 x1 x2 p _

theorem done2 (p : Fin 200) (j : Fin 10000) (hj : j.val < 1024 + 1024) :
    View.canon (kernelRun0_A.sl.H4_12 (F := Ideal) c arg1 harg1 arg2 harg2 arg3 harg3 arg5 x0 x1 x2) (ix2 p j) = blkAttn x0 x1 x2 (ix2 p j) := by
  unfold kernelRun0_A.sl.H4_12 kernelRun0_A.sl.r_36
  refine normalise_step x0 x1 x2 1024 1024 inb_S200x10000_S200x1024_0_1024 _ _ (fun p q => ?_) (done1 c arg1 harg1 arg2 harg2 arg3 harg3 arg5 x0 x1 x2) p j hj
  refine (normRun1 c arg1 harg1 arg2 harg2 arg3 harg3 x0 x1 x2 _ p q).trans ?_
  rw [reload1 c arg1 harg1 arg2 harg2 arg3 harg3 arg5 x0 x1 x2 p q]
  exact attn_entry x0 x1 x2 p _

theorem done3 (p : Fin 200) (j : Fin 10000) (hj : j.val < 2048 + 1024) :
    View.canon (kernelRun0_A.sl.H4_13 (F := Ideal) c arg1 harg1 arg2 harg2 arg3 harg3 arg5 x0 x1 x2) (ix2 p j) = blkAttn x0 x1 x2 (ix2 p j) := by
  unfold kernelRun0_A.sl.H4_13
  refine normalise_step x0 x1 x2 2048 1024 inb_S200x10000_S200x1024_0_2048 _ _ (fun p q => ?_) (done2 c arg1 harg1 arg2 harg2 arg3 harg3 arg5 x0 x1 x2) p j hj
  refine (normRun2 c arg1 harg1 arg2 harg2 arg3 harg3 x0 x1 x2 _ p q).trans ?_
  rw [reload2 c arg1 harg1 arg2 harg2 arg3 harg3 arg5 x0 x1 x2 p q]
  exact attn_entry x0 x1 x2 p _

theorem done4 (p : Fin 200) (j : Fin 10000) (hj : j.val < 3072 + 1024) :
    View.canon (kernelRun0_A.sl.H4_14 (F := Ideal) c arg1 harg1 arg2 harg2 arg3 harg3 arg5 x0 x1 x2) (ix2 p j) = blkAttn x0 x1 x2 (ix2 p j) := by
  unfold kernelRun0_A.sl.H4_14
  refine normalise_step x0 x1 x2 3072 1024 inb_S200x10000_S200x1024_0_3072 _ _ (fun p q => ?_) (done3 c arg1 harg1 arg2 harg2 arg3 harg3 arg5 x0 x1 x2) p j hj
  refine (normRun3 c arg1 harg1 arg2 harg2 arg3 harg3 x0 x1 x2 _ p q).trans ?_
  rw [reload3 c arg1 harg1 arg2 harg2 arg3 harg3 arg5 x0 x1 x2 p q]
  exact attn_entry x0 x1 x2 p _

theorem done5 (p : Fin 200) (j : Fin 10000) (hj : j.val < 4096 + 1024) :
    View.canon (kernelRun0_A.sl.H4_15 (F := Ideal) c arg1 harg1 arg2 harg2 arg3 harg3 arg5 x0 x1 x2) (ix2 p j) = blkAttn x0 x1 x2 (ix2 p j) := by
  unfold kernelRun0_A.sl.H4_15
  refine normalise_step x0 x1 x2 4096 1024 inb_S200x10000_S200x1024_0_4096 _ _ (fun p q => ?_) (done4 c arg1 harg1 arg2 harg2 arg3 harg3 arg5 x0 x1 x2) p j hj
  refine (normRun4 c arg1 harg1 arg2 harg2 arg3 harg3 x0 x1 x2 _ p q).trans ?_
  rw [reload4 c arg1 harg1 arg2 harg2 arg3 harg3 arg5 x0 x1 x2 p q]
  exact attn_entry x0 x1 x2 p _

theorem done6 (p : Fin 200) (j : Fin 10000) (hj : j.val < 5120 + 1024) :
    View.canon (kernelRun0_A.sl.H4_16 (F := Ideal) c arg1 harg1 arg2 harg2 arg3 harg3 arg5 x0 x1 x2) (ix2 p j) = blkAttn x0 x1 x2 (ix2 p j) := by
  unfold kernelRun0_A.sl.H4_16
  refine normalise_step x0 x1 x2 5120 1024 inb_S200x10000_S200x1024_0_5120 _ _ (fun p q => ?_) (done5 c arg1 harg1 arg2 harg2 arg3 harg3 arg5 x0 x1 x2) p j hj
  refine (normRun5 c arg1 harg1 arg2 harg2 arg3 harg3 x0 x1 x2 _ p q).trans ?_
  rw [reload5 c arg1 harg1 arg2 harg2 arg3 harg3 arg5 x0 x1 x2 p q]
  exact attn_entry x0 x1 x2 p _

theorem done7 (p : Fin 200) (j : Fin 10000) (hj : j.val < 6144 + 1024) :
    View.canon (kernelRun0_A.sl.H4_17 (F := Ideal) c arg1 harg1 arg2 harg2 arg3 harg3 arg5 x0 x1 x2) (ix2 p j) = blkAttn x0 x1 x2 (ix2 p j) := by
  unfold kernelRun0_A.sl.H4_17
  refine normalise_step x0 x1 x2 6144 1024 inb_S200x10000_S200x1024_0_6144 _ _ (fun p q => ?_) (done6 c arg1 harg1 arg2 harg2 arg3 harg3 arg5 x0 x1 x2) p j hj
  refine (normRun6 c arg1 harg1 arg2 harg2 arg3 harg3 x0 x1 x2 _ p q).trans ?_
  rw [reload6 c arg1 harg1 arg2 harg2 arg3 harg3 arg5 x0 x1 x2 p q]
  exact attn_entry x0 x1 x2 p _

theorem done8 (p : Fin 200) (j : Fin 10000) (hj : j.val < 7168 + 1024) :
    View.canon (kernelRun0_A.sl.H4_18 (F := Ideal) c arg1 harg1 arg2 harg2 arg3 harg3 arg5 x0 x1 x2) (ix2 p j) = blkAttn x0 x1 x2 (ix2 p j) := by
  unfold kernelRun0_A.sl.H4_18 kernelRun0_A.sl.r_37
  refine normalise_step x0 x1 x2 7168 1024 inb_S200x10000_S200x1024_0_7168 _ _ (fun p q => ?_) (done7 c arg1 harg1 arg2 harg2 arg3 harg3 arg5 x0 x1 x2) p j hj
  refine (normRun7 c arg1 harg1 arg2 harg2 arg3 harg3 x0 x1 x2 _ p q).trans ?_
  rw [reload7 c arg1 harg1 arg2 harg2 arg3 harg3 arg5 x0 x1 x2 p q]
  exact attn_entry x0 x1 x2 p _

theorem done9 (p : Fin 200) (j : Fin 10000) (hj : j.val < 8192 + 1024) :
    View.canon (kernelRun0_A.sl.H4_19 (F := Ideal) c arg1 harg1 arg2 harg2 arg3 harg3 arg5 x0 x1 x2) (ix2 p j) = blkAttn x0 x1 x2 (ix2 p j) := by
  unfold kernelRun0_A.sl.H4_19
  refine normalise_step x0 x1 x2 8192 1024 inb_S200x10000_S200x1024_0_8192 _ _ (fun p q => ?_) (done8 c arg1 harg1 arg2 harg2 arg3 harg3 arg5 x0 x1 x2) p j hj
  refine (normRun8 c arg1 harg1 arg2 harg2 arg3 harg3 x0 x1 x2 _ p q).trans ?_
  rw [reload8 c arg1 harg1 arg2 harg2 arg3 harg3 arg5 x0 x1 x2 p q]
  exact attn_entry x0 x1 x2 p _

/-- After the tenth run the buffer is the attention block: what the grid point leaves in its first output block. -/
theorem body4 (i : grid0.Coords) :
    Gen.out0_A_4 (F := Ideal) c i arg1 harg1 arg2 harg2 arg3 harg3 arg4 harg4 arg5 harg5 arg6 harg6 x0 x1 x2 x3
      = blkAttn x0 x1 x2 := by
  unfold out0_A_4
  rw [View.read_writes_eq_canon _ _ _ (cover0_A_4 c i arg1 harg1 arg2 harg2 arg3 harg3 arg4 harg4 arg5 harg5 arg6 harg6 x0 x1 x2 x3)]
  funext y
  obtain ⟨p, j, rfl⟩ : ∃ (p : Fin 200) (j : Fin 10000), y = ix2 p j := ⟨y 0, y 1, eq_ix2 y⟩
  unfold kernelRun0_A
  dsimp only
  refine normalise_step x0 x1 x2 9216 784 inb_S200x10000_S200x784_0_9216 _ _ (fun p q => ?_) (done9 c arg1 harg1 arg2 harg2 arg3 harg3 arg5 x0 x1 x2) p j
    (by have := j.isLt; omega)
  refine (normRun9 c arg1 harg1 arg2 harg2 arg3 harg3 x0 x1 x2 _ p q).trans ?_
  rw [reload9 c arg1 harg1 arg2 harg2 arg3 harg3 arg5 x0 x1 x2 p q]
  exact attn_entry x0 x1 x2 p _

/-- What the grid point leaves in its second output block: the block of the layer's output. -/
theorem body5 (i : grid0.Coords) :
    Gen.out0_A_5 (F := Ideal) c i arg1 harg1 arg2 harg2 arg3 harg3 arg4 harg4 arg5 harg5 arg6 harg6 x0 x1 x2 x3
      = blkOut x0 x1 x2 x3 :=
  out5_of c arg1 harg1 arg2 harg2 arg3 harg3 arg4 harg4 arg5 harg5 arg6 harg6 x0 x1 x2 x3
    (invl_apply c arg1 harg1 arg2 harg2 arg3 harg3 x0 x1 x2) i

end Cert.KernelIdeal.Body

end
-- ==== Proof.lean ====
/-
  The certificate of the dense graph-attention layer: a tiled program (host prefix: Wh = h·W, the two half-score
  vectors, a bf16 copy of Wh; then one launch over 50 row blocks of 200 rows that computes, per block, a row-wise
  softmax of masked leaky-rectified scores in ten column runs and its product with Wh) against the plain array program.

  At the exact instance both programs compute, entry by entry, attention(i, j) = exp(e(i, j) − max_j e(i, j)) /
  ∑_j exp(e(i, j) − max_j e(i, j)) and output(i, :) = attention(i, :)·Wh, with e(i, j) the rectified sum of node i's
  source half-score and node j's destination half-score on an edge and the stand-in −9e15 off it.  They differ in
  how the sums are bracketed (the 256-column half-score as two sums of 128; the row maximum, the row sum and the
  product over ten runs), in the rectifier's test at 0 (where both branches are 0), and in multiplying by the
  reciprocal of the row sum instead of dividing by it.  The last two need every value real, which the finiteness
  of the float inputs gives: scores are real, a row's maximum is one of its scores, the shifted exponentials are
  positive reals and so is their sum.

  The three frames are the generated ones (the plain program's from its run read back); nothing was rewritten by the
  idealization, so the preservation conjunct is trivial.
-/
import proofs.«122247_j47983374631488_2_alg».proof.Defs
import proofs.«122247_j47983374631488_2_alg».proof.Proof.Gen.Kernel
import proofs.«122247_j47983374631488_2_alg».proof.Proof.Gen.Kernel.Skeleton
import proofs.«122247_j47983374631488_2_alg».proof.Proof.Gen.Kernel.Launch
import proofs.«122247_j47983374631488_2_alg».proof.Proof.Gen.Kernel.Points
import proofs.«122247_j47983374631488_2_alg».proof.Proof.Gen.Kernel.Frame
import proofs.«122247_j47983374631488_2_alg».proof.Proof.Gen.KernelIdeal
import proofs.«122247_j47983374631488_2_alg».proof.Proof.Gen.KernelIdeal.Skeleton
import proofs.«122247_j47983374631488_2_alg».proof.Proof.Gen.KernelIdeal.Launch
import proofs.«122247_j47983374631488_2_alg».proof.Proof.Gen.KernelIdeal.Points
import proofs.«122247_j47983374631488_2_alg».proof.Proof.Gen.KernelIdeal.Frame
import proofs.«122247_j47983374631488_2_alg».proof.Proof.Gen.KernelIdeal.Value
import proofs.«122247_j47983374631488_2_alg».proof.Proof.Gen.ReferenceIdeal
import proofs.«122247_j47983374631488_2_alg».proof.Proof.Gen.Pre_finite_inputs
import proofs.«122247_j47983374631488_2_alg».proof.Proof.KernelRun
import proofs.«122247_j47983374631488_2_alg».proof.Proof.RefValue
import proofs.«122247_j47983374631488_2_alg».proof.Proof.Agree
import proofs.«122247_j47983374631488_2_alg».proof.Proof.Finite
import proofs.«122247_j47983374631488_2_alg».proof.Proof.BodyAttn
import Idealize.ShloMosaic.Adequacy
import Idealize.ShloMosaic.Init

noncomputable section

namespace Cert.Proof

open Idealize.ShloMosaic Idealize.SL.Sem

/-- The tiled program's frame. -/
theorem frame_kernel : Cert.frame_Kernel (hKernel := Cert.Kernel.Gen.facts) (hPre_finite_inputs := Cert.Pre_finite_inputs.Gen.facts) :=
  fun m ρ _ => Cert.Kernel.Gen.frame m ρ

/-- Its idealization's frame. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The plain program's frame: its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefValue.run m ρ)

/-- From memories agreeing on the arguments, both programs end with the plain spelling of the layer at the
    arguments: the plain program by its run, the tiled one by its run and the agreement of the two spellings on
    real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.outRef (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Attn.attnRef (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_)
      (Cert.KernelIdeal.KernelRun.run m ρ
        (fun c i arg1 harg1 arg2 harg2 arg3 harg3 arg4 harg4 arg5 harg5 arg6 harg6 x0 x1 x2 x3 =>
          Cert.KernelIdeal.Body.body4 c arg1 harg1 arg2 harg2 arg3 harg3 arg4 harg4 arg5 harg5 arg6 harg6 x0 x1 x2 x3 i)
        (fun c i arg1 harg1 arg2 harg2 arg3 harg3 arg4 harg4 arg5 harg5 arg6 harg6 x0 x1 x2 x3 =>
          Cert.KernelIdeal.Body.body5 c arg1 harg1 arg2 harg2 arg3 harg3 arg4 harg4 arg5 harg5 arg6 harg6 x0 x1 x2 x3 i))
    obtain ⟨hh, he, hW, ha⟩ := Cert.KernelIdeal.Finite.finite_of_pre m hpre c
    exact ⟨(h c).1.trans (Cert.Attn.out_agree _ _ _ _ _ hh he hW ha),
      (h c).2.1.trans (Cert.Attn.attn_agree _ _ _ _ _ hh he hW ha), (h c).2.2⟩
  · refine (θ_run Cert.ReferenceIdeal.defs _ _).mono (fun r h c => ?_) (Cert.ReferenceIdeal.RefValue.run m' ρ')
    obtain ⟨e0, e1, e2, e3, e4⟩ := hagree c
    refine ⟨?_, ?_, (h c).2.2⟩
    · rw [(h c).1, e0, e1, e2, e3, e4]
    · rw [(h c).2.1, e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
